-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x8192 : Shape := ⟨3, ![32, 128, 8192]⟩
abbrev S512x128 : Shape := ⟨2, ![512, 128]⟩
abbrev S512 : Shape := ⟨1, ![512]⟩
abbrev S256x512 : Shape := ⟨2, ![256, 512]⟩
abbrev S_ : Shape := ⟨0, ![]⟩

class Facts : Prop where
  bcast_S_S32x128x8192 : S_.BroadcastsInDim S32x128x8192 (![] : Fin 0 → Fin S32x128x8192.rank)
  reducesTo_S32x128x8192_S_d0_1_2 : S32x128x8192.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S32x128x8192 .f32) (main_arg1 : FVec F S512x128 .f32) (main_arg2 : FVec F S512 .f32) (main_arg3 : FVec F S512 .f32) (main_arg4 : FVec F S256x512 .f32) : IVec S_ 1 :=
  let main_v0 : FVec F S32x128x8192 .f32 := Host.absf main_arg0
  let main_cst : FVec F S_ .f32 := constant S_ .f32 0x7F800000#32
  let main_v1 : FVec F S32x128x8192 .f32 := broadcastInDim S32x128x8192 ![] bcast_S_S32x128x8192 main_cst
  let main_v2 : IVec S32x128x8192 1 := cmpf .olt main_v0 main_v1
  let main_c : IVec S_ 1 := constantI S_ 1 1#1
  let main_v3 : IVec S_ 1 := (fun x v => Host.reduce IntOp.andi x v reducesTo_S32x128x8192_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S32x128x8192 : Shape := ⟨3, ![32, 128, 8192]⟩
abbrev S512x128 : Shape := ⟨2, ![512, 128]⟩
abbrev S512 : Shape := ⟨1, ![512]⟩
abbrev S256x512 : Shape := ⟨2, ![256, 512]⟩
abbrev S16x128x128 : Shape := ⟨3, ![16, 128, 128]⟩
abbrev S16x128x1 : Shape := ⟨3, ![16, 128, 1]⟩
abbrev S2x128x8192 : Shape := ⟨3, ![2, 128, 8192]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S1x128x8192 : Shape := ⟨3, ![1, 128, 8192]⟩
abbrev S128x8192 : Shape := ⟨2, ![128, 8192]⟩
abbrev S128 : Shape := ⟨1, ![128]⟩
abbrev S512x1 : Shape := ⟨2, ![512, 1]⟩
abbrev S32x256x8192 : Shape := ⟨3, ![32, 256, 8192]⟩
abbrev S2x256x8192 : Shape := ⟨3, ![2, 256, 8192]⟩
abbrev S1x128x4096 : Shape := ⟨3, ![1, 128, 4096]⟩
abbrev S128x4096 : Shape := ⟨2, ![128, 4096]⟩
abbrev S512x4096 : Shape := ⟨2, ![512, 4096]⟩
abbrev S256x4096 : Shape := ⟨2, ![256, 4096]⟩
abbrev S1x256x4096 : Shape := ⟨3, ![1, 256, 4096]⟩

abbrev nBuf : Space → Nat
  | .hbm => 13
  | .vmem => 22
  | .smem => 0
  | _ => 0

abbrev bufTy : (tb : Table) → Fin (tcTables nBuf tb) → BufTy
  | .hbm, ⟨0, _⟩ => ⟨S32x128x8192, .f32⟩
  | .hbm, ⟨1, _⟩ => ⟨S512x128, .f32⟩
  | .hbm, ⟨2, _⟩ => ⟨S512, .f32⟩
  | .hbm, ⟨3, _⟩ => ⟨S512, .f32⟩
  | .hbm, ⟨4, _⟩ => ⟨S256x512, .f32⟩
  | .hbm, ⟨5, _⟩ => ⟨S16x128x128, .f32⟩
  | .hbm, ⟨6, _⟩ => ⟨S16x128x1, .f32⟩
  | .hbm, ⟨7, _⟩ => ⟨S512x1, .f32⟩
  | .hbm, ⟨8, _⟩ => ⟨S512x1, .f32⟩
  | .hbm, ⟨9, _⟩ => ⟨S512x128, .bf16⟩
  | .hbm, ⟨10, _⟩ => ⟨S512x1, .f32⟩
  | .hbm, ⟨11, _⟩ => ⟨S256x512, .bf16⟩
  | .hbm, ⟨12, _⟩ => ⟨S32x256x8192, .f32⟩
  | .local _ .vmem, ⟨0, _⟩ => ⟨S2x128x8192, .f32⟩
  | .local _ .vmem, ⟨1, _⟩ => ⟨S2x128x8192, .f32⟩
  | .local _ .vmem, ⟨2, _⟩ => ⟨S1x128x128, .f32⟩
  | .local _ .vmem, ⟨3, _⟩ => ⟨S1x128x128, .f32⟩
  | .local _ .vmem, ⟨4, _⟩ => ⟨S1x128x1, .f32⟩
  | .local _ .vmem, ⟨5, _⟩ => ⟨S1x128x1, .f32⟩
  | .local _ .vmem, ⟨6, _⟩ => ⟨S16x128x128, .f32⟩
  | .local _ .vmem, ⟨7, _⟩ => ⟨S16x128x1, .f32⟩
  | .local _ .vmem, ⟨8, _⟩ => ⟨S512x128, .f32⟩
  | .local _ .vmem, ⟨9, _⟩ => ⟨S256x512, .f32⟩
  | .local _ .vmem, ⟨10, _⟩ => ⟨S512x1, .f32⟩
  | .local _ .vmem, ⟨11, _⟩ => ⟨S512x1, .f32⟩
  | .local _ .vmem, ⟨12, _⟩ => ⟨S512x128, .bf16⟩
  | .local _ .vmem, ⟨13, _⟩ => ⟨S512x1, .f32⟩
  | .local _ .vmem, ⟨14, _⟩ => ⟨S256x512, .bf16⟩
  | .local _ .vmem, ⟨15, _⟩ => ⟨S2x128x8192, .f32⟩
  | .local _ .vmem, ⟨16, _⟩ => ⟨S2x128x8192, .f32⟩
  | .local _ .vmem, ⟨17, _⟩ => ⟨S512x128, .bf16⟩
  | .local _ .vmem, ⟨18, _⟩ => ⟨S256x512, .bf16⟩
  | .local _ .vmem, ⟨19, _⟩ => ⟨S512x1, .f32⟩
  | .local _ .vmem, ⟨20, _⟩ => ⟨S2x256x8192, .f32⟩
  | .local _ .vmem, ⟨21, _⟩ => ⟨S2x256x8192, .f32⟩
  | _, _ => ⟨S32x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

abbrev stage1_0 : Fin 1 → Memref sig .tc .vmem S16x128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S512x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev grid2 : Pipeline.Grid := ⟨2, ![16, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S2x128x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S512x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2x256x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S2x128x8192_S1x128x8192_0_0_0 : ∀ a, (![0, 0, 0] : Fin 3 → Nat) a + S1x128x8192.size a ≤ S2x128x8192.size a
  h_S1x128x8192 : 0 < S1x128x8192.numel
  shapeCasts_S1x128x8192_S128x8192 : S1x128x8192.ShapeCasts S128x8192
  bitsLt_bf16_f32 : FTy.bits .bf16 < FTy.bits .f32
  reduces_S128x8192_S128 : S128x8192.Reduces [1] S128
  shapeCasts_S128_S128x1 : S128.ShapeCasts S128x1
  inb_S2x128x8192_S1x128x8192_1_0_0 : ∀ a, (![1, 0, 0] : Fin 3 → Nat) a + S1x128x8192.size a ≤ S2x128x8192.size a
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  shapeCasts_S512_S512x1 : S512.ShapeCasts S512x1
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  reduces_S16x128x128_S128x128 : S16x128x128.Reduces [0] S128x128
  inb_S16x128x1_S16x128x1_0_0_0 : ∀ a, (![0, 0, 0] : Fin 3 → Nat) a + S16x128x1.size a ≤ S16x128x1.size a
  h_S16x128x1 : 0 < S16x128x1.numel
  shapeCasts_S16x128x1_S16x128x1 : S16x128x1.ShapeCasts S16x128x1
  reduces_S16x128x1_S128x1 : S16x128x1.Reduces [0] S128x1
  inb_S512x128_S512x128_0_0 : ∀ a, (![0, 0] : Fin 2 → Nat) a + S512x128.size a ≤ S512x128.size a
  h_S512x128 : 0 < S512x128.numel
  reduces_S512x128_S512 : S512x128.Reduces [1] S512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  packedbf16_S512x128_S512x128_0_0 : (Rect.unit (s := S512x128) ![0, 0] S512x128.size inb_S512x128_S512x128_0_0).PackedRows (EltTy.packing .bf16)
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  shapeCasts_S512x128_S512x128 : S512x128.ShapeCasts S512x128
  shapeCasts_S256x512_S256x512 : S256x512.ShapeCasts S256x512
  inb_S2x128x8192_S1x128x4096_0_0_0 : ∀ a, (![0, 0, 0] : Fin 3 → Nat) a + S1x128x4096.size a ≤ S2x128x8192.size a
  h_S1x128x4096 : 0 < S1x128x4096.numel
  shapeCasts_S1x128x4096_S128x4096 : S1x128x4096.ShapeCasts S128x4096
  broadcasts_S512x1_S512x4096 : S512x1.Broadcasts S512x4096
  inb_S2x256x8192_S1x256x4096_0_0_0 : ∀ a, (![0, 0, 0] : Fin 3 → Nat) a + S1x256x4096.size a ≤ S2x256x8192.size a
  h_S1x256x4096 : 0 < S1x256x4096.numel
  shapeCasts_S1x256x4096_S256x4096 : S1x256x4096.ShapeCasts S256x4096
  shapeCasts_S256x4096_S1x256x4096 : S256x4096.ShapeCasts S1x256x4096
  inb_S2x128x8192_S1x128x4096_0_0_4096 : ∀ a, (![0, 0, 4096] : Fin 3 → Nat) a + S1x128x4096.size a ≤ S2x128x8192.size a
  inb_S2x256x8192_S1x256x4096_0_0_4096 : ∀ a, (![0, 0, 4096] : Fin 3 → Nat) a + S1x256x4096.size a ≤ S2x256x8192.size a
  inb_S2x128x8192_S1x128x4096_1_0_0 : ∀ a, (![1, 0, 0] : Fin 3 → Nat) a + S1x128x4096.size a ≤ S2x128x8192.size a
  inb_S2x256x8192_S1x256x4096_1_0_0 : ∀ a, (![1, 0, 0] : Fin 3 → Nat) a + S1x256x4096.size a ≤ S2x256x8192.size a
  inb_S2x128x8192_S1x128x4096_1_0_4096 : ∀ a, (![1, 0, 4096] : Fin 3 → Nat) a + S1x128x4096.size a ≤ S2x128x8192.size a
  inb_S2x256x8192_S1x256x4096_1_0_4096 : ∀ a, (![1, 0, 4096] : Fin 3 → Nat) a + S1x256x4096.size a ≤ S2x256x8192.size a
  dot_S128x8192_S128x8192_S128x128_1_1_0_0_n_n_wf : DotDims.WF S128x8192 S128x8192 S128x128 [1] [1] [0] [0] [] []
  dot_S512x128_S128x1_S512x1_1_0_0_1_n_n_wf : DotDims.WF S512x128 S128x1 S512x1 [1] [0] [0] [1] [] []
  dot_S512x128_S128x128_S512x128_1_0_0_1_n_n_wf : DotDims.WF S512x128 S128x128 S512x128 [1] [0] [0] [1] [] []
  dot_S512x128_S128x4096_S512x4096_1_0_0_1_n_n_wf : DotDims.WF S512x128 S128x4096 S512x4096 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x8192.size a ≤ S32x128x8192.size a
  hwx0_0 : ∀ i : grid0.Coords, EltTy.bits .f32 = 32 ∨ (Rect.block (s := S32x128x8192) S2x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S16x128x128.size a
  hwx0_1 : ∀ i : grid0.Coords, EltTy.bits .f32 = 32 ∨ (Rect.block (s := S16x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S16x128x1.size a
  hwx0_2 : ∀ i : grid0.Coords, EltTy.bits .f32 = 32 ∨ (Rect.block (s := S16x128x1) S1x128x1.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x128x8192.size a ≤ S32x128x8192.size a
  hwx2_0 : ∀ i : grid2.Coords, EltTy.bits .f32 = 32 ∨ (Rect.block (s := S32x128x8192) S2x128x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .bf16 = 32 ∨ (Rect.block (s := S512x128) S512x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x512.size a
  hwx2_2 : ∀ i : grid2.Coords, EltTy.bits .bf16 = 32 ∨ (Rect.block (s := S256x512) S256x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S512x1.size a
  hwx2_3 : ∀ i : grid2.Coords, EltTy.bits .f32 = 32 ∨ (Rect.block (s := S512x1) S512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2x256x8192.size a ≤ S32x256x8192.size a
  hwx2_4 : ∀ i : grid2.Coords, EltTy.bits .f32 = 32 ∨ (Rect.block (s := S32x256x8192) S2x256x8192.size (cc2_transform_4 i) (hinb2_4 i)).WholeWords (EltTy.packing .f32)

variable [Facts₀]

def dot_S128x8192_S128x8192_S128x128_1_1_0_0_n_n : DotDims S128x8192 S128x8192 S128x128 where
  lhsContracting := [1]
  rhsContracting := [1]
  lhsNonContracting := [0]
  rhsNonContracting := [0]
  lhsBatch := []
  rhsBatch := []
  wf := dot_S128x8192_S128x8192_S128x128_1_1_0_0_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S2x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_v0_0) false false (stage1_0 0) (sem1_0 0) (Memref.isWhole_whole _) (hstage1_0 0)

abbrev win1_1 : Pipeline.Window sig grid1 :=
  Pipeline.Window.whole (Memref.whole main_v0_1) false false (stage1_1 0) (sem1_1 0) (Memref.isWhole_whole _) (hstage1_1 0)

abbrev win1_2 : Pipeline.Window sig grid1 :=
  Pipeline.Window.whole (Memref.whole main_arg1) false false (stage1_2 0) (sem1_2 0) (Memref.isWhole_whole _) (hstage1_2 0)

abbrev win1_3 : Pipeline.Window sig grid1 :=
  Pipeline.Window.whole (Memref.whole main_arg4) false false (stage1_3 0) (sem1_3 0) (Memref.isWhole_whole _) (hstage1_3 0)

abbrev win1_4 : Pipeline.Window sig grid1 :=
  Pipeline.Window.whole (Memref.whole main_v1) false false (stage1_4 0) (sem1_4 0) (Memref.isWhole_whole _) (hstage1_4 0)

abbrev win1_5 : Pipeline.Window sig grid1 :=
  Pipeline.Window.whole (Memref.whole main_v2) false false (stage1_5 0) (sem1_5 0) (Memref.isWhole_whole _) (hstage1_5 0)

abbrev win1_6 : Pipeline.Window sig grid1 :=
  Pipeline.Window.whole (Memref.whole main_v3_0) true false (stage1_6 0) (sem1_6 0) (Memref.isWhole_whole _) (hstage1_6 0)

abbrev win1_7 : Pipeline.Window sig grid1 :=
  Pipeline.Window.whole (Memref.whole main_v3_1) true false (stage1_7 0) (sem1_7 0) (Memref.isWhole_whole _) (hstage1_7 0)

abbrev win1_8 : Pipeline.Window sig grid1 :=
  Pipeline.Window.whole (Memref.whole main_v3_2) true false (stage1_8 0) (sem1_8 0) (Memref.isWhole_whole _) (hstage1_8 0)

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S2x128x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3_2) S256x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S512x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S2x256x8192.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S32x128x8192 : Shape := ⟨3, ![32, 128, 8192]⟩
abbrev S512x128 : Shape := ⟨2, ![512, 128]⟩
abbrev S512 : Shape := ⟨1, ![512]⟩
abbrev S256x512 : Shape := ⟨2, ![256, 512]⟩
abbrev S64x512x1 : Shape := ⟨3, ![64, 512, 1]⟩
abbrev S1x128x4096 : Shape := ⟨3, ![1, 128, 4096]⟩
abbrev S1x512x1 : Shape := ⟨3, ![1, 512, 1]⟩
abbrev S512x1 : Shape := ⟨2, ![512, 1]⟩
abbrev S128x4096 : Shape := ⟨2, ![128, 4096]⟩
abbrev S512x4096 : Shape := ⟨2, ![512, 4096]⟩
abbrev S_ : Shape := ⟨0, ![]⟩
abbrev S32x256x8192 : Shape := ⟨3, ![32, 256, 8192]⟩
abbrev S1x256x4096 : Shape := ⟨3, ![1, 256, 4096]⟩
abbrev S256x4096 : Shape := ⟨2, ![256, 4096]⟩

abbrev nBuf : Space → Nat
  | .hbm => 34
  | .vmem => 15
  | .smem => 0
  | _ => 0

abbrev bufTy : (tb : Table) → Fin (tcTables nBuf tb) → BufTy
  | .hbm, ⟨0, _⟩ => ⟨S32x128x8192, .f32⟩
  | .hbm, ⟨1, _⟩ => ⟨S512x128, .f32⟩
  | .hbm, ⟨2, _⟩ => ⟨S512, .f32⟩
  | .hbm, ⟨3, _⟩ => ⟨S512, .f32⟩
  | .hbm, ⟨4, _⟩ => ⟨S256x512, .f32⟩
  | .hbm, ⟨5, _⟩ => ⟨S64x512x1, .f32⟩
  | .hbm, ⟨6, _⟩ => ⟨S64x512x1, .f32⟩
  | .hbm, ⟨7, _⟩ => ⟨S_, .f32⟩
  | .hbm, ⟨8, _⟩ => ⟨S512x1, .f32⟩
  | .hbm, ⟨9, _⟩ => ⟨S512, .f32⟩
  | .hbm, ⟨10, _⟩ => ⟨S_, .f32⟩
  | .hbm, ⟨11, _⟩ => ⟨S512x1, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512x1, .f32⟩
  | .hbm, ⟨32, _⟩ => ⟨S512x1, .f32⟩
  | .hbm, ⟨33, _⟩ => ⟨S32x256x8192, .f32⟩
  | .local _ .vmem, ⟨0, _⟩ => ⟨S1x128x4096, .f32⟩
  | .local _ .vmem, ⟨1, _⟩ => ⟨S1x128x4096, .f32⟩
  | .local _ .vmem, ⟨2, _⟩ => ⟨S512x128, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x128x4096, .f32⟩
  | .local _ .vmem, ⟨8, _⟩ => ⟨S1x128x4096, .f32⟩
  | .local _ .vmem, ⟨9, _⟩ => ⟨S512x128, .f32⟩
  | .local _ .vmem, ⟨10, _⟩ => ⟨S256x512, .f32⟩
  | .local _ .vmem, ⟨11, _⟩ => ⟨S512x1, .f32⟩
  | .local _ .vmem, ⟨12, _⟩ => ⟨S512x1, .f32⟩
  | .local _ .vmem, ⟨13, _⟩ => ⟨S1x256x4096, .f32⟩
  | .local _ .vmem, ⟨14, _⟩ => ⟨S1x256x4096, .f32⟩
  | _, _ => ⟨S32x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S512x128_S512x128_0_0 : ∀ a, (![0, 0] : Fin 2 → Nat) a + S512x128.size a ≤ S512x128.size a
  h_S512x128 : 0 < S512x128.numel
  reduces_S512x4096_S512 : S512x4096.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reducesTo_S64x512x1_S512x1_d0 : S64x512x1.ReducesTo [0] S512x1
  h_S_ : 0 < S_.numel
  shapeCasts_S512x1_S512 : S512x1.ShapeCasts S512
  bcast_S_S512 : S_.BroadcastsInDim S512 (![] : Fin 0 → Fin S512.rank)
  inb_S256x512_S256x512_0_0 : ∀ a, (![0, 0] : Fin 2 → Nat) a + S256x512.size a ≤ S256x512.size a
  h_S256x512 : 0 < S256x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S512x128_S128x4096_S512x4096_1_0_0_1_n_n_wf : DotDims.WF S512x128 S128x4096 S512x4096 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S32x128x8192.size a
  hwx0_0 : ∀ i : grid0.Coords, EltTy.bits .f32 = 32 ∨ (Rect.block (s := S32x128x8192) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S64x512x1.size a
  hwx0_3 : ∀ i : grid0.Coords, EltTy.bits .f32 = 32 ∨ (Rect.block (s := S64x512x1) S1x512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x4096.size a ≤ S32x128x8192.size a
  hwx1_0 : ∀ i : grid1.Coords, EltTy.bits .f32 = 32 ∨ (Rect.block (s := S32x128x8192) S1x128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .f32 = 32 ∨ (Rect.block (s := S512x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .f32 = 32 ∨ (Rect.block (s := S512x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x4096.size a ≤ S32x256x8192.size a
  hwx1_5 : ∀ i : grid1.Coords, EltTy.bits .f32 = 32 ∨ (Rect.block (s := S32x256x8192) S1x256x4096.size (cc1_transform_5 i) (hinb1_5 i)).WholeWords (EltTy.packing .f32)

variable [Facts₀]

def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S512x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.KRun.lean ====
/-
  The first program's run with its result named.  The program is three kernel launches with two reshapes between the
  first and the second; the buffer contents at each boundary are the fold `W0 … W4` through the program (each
  launch's arrays at what its write-backs leave, every other buffer as entered).  Every final state holds, at every
  unscoped buffer, the last contents `W4`: at the result's buffer this names the result, at the five argument buffers
  it walks back to the launch memory.
-/
import proofs.«132117_g2000306565302007_pallasbulk_1216_24_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates without a fault, and in
    every final state the result array holds what the third region's write-backs leave in it (`W4` at the result's
    buffer) while the five argument arrays are as launched. -/
theorem run_main : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.KValue

end
-- ==== Proof.Spec.lean ====
/-
  The mathematics both programs compute, written index by index on the extended reals, in the two arrangements,
  each as a composition of STAGES (one stage per kernel launch, or per stretch of host arithmetic).

  The layer is a 1×1 convolution `h = W1·x` over `x : [32, 128, 8192]` (batch, channel, position), a batch
  normalisation of `h` over batch and position with the biased variance, a rectifier, and a second 1×1
  convolution `W2`.  With `M = 32·8192 = 2^18`,
    mean_k = (∑_{b,l} h_k(b,l)) / M,   var_k = max ((∑_{b,l} h_k(b,l)²) / M − mean_k², 0),
    scale_k = γ_k · (var_k + ε)^(-1/2),   shift_k = β_k − mean_k · scale_k,
    out(b,o,l) = ∑_k W2(o,k) · max (h_k(b,l) · scale_k + shift_k, 0).

  * The FIRST arrangement never forms `h` for the statistics: over pairs of batch rows it accumulates the channel
    sums `∑_l x(b,c,l)` and the Gram matrix `∑_l x(b,a,l)·x(b,c,l)` (stage `kStats…`); a second stage adds the 16
    partial results and gets `∑ h_k = ∑_c W1(k,c)·(∑ x_c)`, `∑ h_k² = ∑_c (∑_a W1(k,a)·G(a,c))·W1(k,c)`, multiplies by
    `2^-18` and folds the scale into the weight (stage `f…`); the last stage is
    `∑_k W2(o,k)·max (∑_c (W1(k,c)·scale_k)·x(b,c,l) + shift_k, 0)` (stage `aOut`).
  * The SECOND arrangement forms `h` on every (batch row, half of the positions) tile and sums `h` and `h²` per
    tile (stage `rStats…`), adds the 64 tile sums and divides by `2^18` (stage `h…`), and applies
    `h·scale + shift` (stage `bOut`).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![32, 128, 8192]⟩
abbrev SW1 : Shape := ⟨2, ![512, 128]⟩
abbrev SV : Shape := ⟨1, ![512]⟩
abbrev SW2 : Shape := ⟨2, ![256, 512]⟩
abbrev SO : Shape := ⟨3, ![32, 256, 8192]⟩
abbrev SCol : Shape := ⟨2, ![512, 1]⟩
abbrev SGp : Shape := ⟨3, ![16, 128, 128]⟩
abbrev SSp : Shape := ⟨3, ![16, 128, 1]⟩
abbrev STile : Shape := ⟨3, ![64, 512, 1]⟩

/-- The variance's offset, the f32 word nearest `1e-5`, as the extended real it denotes. -/
def eps : EReal := Ideal.ofBits .f32 0x3727C5AC#32
/-- The f32 word of `2^-18`. -/
def invM : EReal := Ideal.ofBits .f32 0x36800000#32
/-- The f32 word of `2^18 = 32 · 8192`. -/
def cntM : EReal := Ideal.ofBits .f32 0x48800000#32

/-- Batch row `2n` (`d = 0`) or `2n + 1` (`d = 1`) of the pair `n`. -/
def row2 (n : Fin 16) (d : Fin 2) : Fin 32 := ⟨2 * n.val + d.val, by omega⟩
/-- Position `4096·j + l` of half `j`. -/
def pos2 (j : Fin 2) (l : Fin 4096) : Fin 8192 := ⟨4096 * j.val + l.val, by omega⟩
/-- The batch row and the half of tile `q = 2·b + j`. -/
def tileRow (q : Fin 64) : Fin 32 := ⟨q.val / 2, by omega⟩
def tileHalf (q : Fin 64) : Fin 2 := ⟨q.val % 2, by omega⟩

/-- A vector `[512]` viewed as a column `[512, 1]`. -/
def col (v : SV.Idx → EReal) : SCol.Idx → EReal := fun i => v (ix1 (i 0))

/-! ## The first arrangement -/

section First
variable (x : SX.Idx → EReal)

/-- The Gram matrix of batch row `b`: `∑_l x(b,a,l)·x(b,c,l)`. -/
def gramRow (b : Fin 32) (a c : Fin 128) : EReal := ∑ l : Fin 8192, x (ix3 b a l) * x (ix3 b c l)
/-- The channel sums of batch row `b`. -/
def sumRow (b : Fin 32) (a : Fin 128) : EReal := ∑ l : Fin 8192, x (ix3 b a l)
/-- Stage one, first result: pair `n`'s partial Gram matrix, row `2n`'s plus row `2n+1`'s. -/
def kStatsG : SGp.Idx → EReal := fun i => gramRow x (row2 (i 0) 0) (i 1) (i 2) + gramRow x (row2 (i 0) 1) (i 1) (i 2)
/-- Stage one, second result: pair `n`'s partial channel sums, as a column. -/
def kStatsS : SSp.Idx → EReal := fun i => sumRow x (row2 (i 0) 0) (i 1) + sumRow x (row2 (i 0) 1) (i 1)
end First

section Fold
variable (gp : SGp.Idx → EReal) (sp : SSp.Idx → EReal) (w1 : SW1.Idx → EReal) (gc bc : SCol.Idx → EReal)

def fSum (a : Fin 128) : EReal := ∑ n : Fin 16, sp (ix3 n a 0)
def fGram (a c : Fin 128) : EReal := ∑ n : Fin 16, gp (ix3 n a c)
def fMean (k : Fin 512) : EReal := (∑ c : Fin 128, w1 (ix2 k c) * fSum sp c) * invM
def fSumsq (k : Fin 512) : EReal := ∑ c : Fin 128, (∑ a : Fin 128, w1 (ix2 k a) * fGram gp a c) * w1 (ix2 k c)
def fVar (k : Fin 512) : EReal := max (fSumsq gp w1 k * invM - fMean sp w1 k * fMean sp w1 k) 0
def fScale (k : Fin 512) : EReal := gc (ix2 k 0) * Ideal.rsqrt (fVar gp sp w1 k + eps)
def fShift (k : Fin 512) : EReal := bc (ix2 k 0) - fMean sp w1 k * fScale gp sp w1 gc k
/-- Stage two, first result: the first weight with the scale folded in. -/
def fW1s : SW1.Idx → EReal := fun i => w1 (ix2 (i 0) (i 1)) * fScale gp sp w1 gc (i 0)
/-- Stage two, second result: the shift, as a column. -/
def fShiftCol : SCol.Idx → EReal := fun i => fShift gp sp w1 gc bc (i 0)
end Fold

/-- Stage three: `∑_k W2(o,k)·max (∑_c W1s(k,c)·x(b,c,l) + shift_k, 0)`. -/
def aOut (x : SX.Idx → EReal) (w1s : SW1.Idx → EReal) (w2 : SW2.Idx → EReal) (sh : SCol.Idx → EReal) : SO.Idx → EReal :=
  fun i => ∑ k : Fin 512, w2 (ix2 (i 1) k) * max ((∑ c : Fin 128, w1s (ix2 k c) * x (ix3 (i 0) c (i 2))) + sh (ix2 k 0)) 0

/-- The first arrangement's result array. -/
def kResult (x : SX.Idx → EReal) (w1 : SW1.Idx → EReal) (g be : SV.Idx → EReal) (w2 : SW2.Idx → EReal) : SO.Idx → EReal :=
  aOut x (fW1s (kStatsG x) (kStatsS x) w1 (col g)) w2 (fShiftCol (kStatsG x) (kStatsS x) w1 (col g) (col be))

/-! ## The second arrangement -/

section Second
variable (x : SX.Idx → EReal) (w1 : SW1.Idx → EReal)

/-- The hidden activation `h_k(b,l) = ∑_c W1(k,c)·x(b,c,l)`. -/
def rH (b : Fin 32) (k : Fin 512) (l : Fin 8192) : EReal := ∑ c : Fin 128, w1 (ix2 k c) * x (ix3 b c l)
/-- Stage one: tile `q`'s sum of `h_k`, and of `h_k²`, as columns. -/
def rStatsSum : STile.Idx → EReal := fun i => ∑ l : Fin 4096, rH x w1 (tileRow (i 0)) (i 1) (pos2 (tileHalf (i 0)) l)
def rStatsSumsq : STile.Idx → EReal := fun i =>
  ∑ l : Fin 4096, rH x w1 (tileRow (i 0)) (i 1) (pos2 (tileHalf (i 0)) l) * rH x w1 (tileRow (i 0)) (i 1) (pos2 (tileHalf (i 0)) l)
end Second

section Host
variable (ps pss : STile.Idx → EReal) (g be : SV.Idx → EReal)

def hSum (p : STile.Idx → EReal) (k : Fin 512) : EReal := ∑ q : Fin 64, p (ix3 q k 0)
def hMean (k : Fin 512) : EReal := Ideal.div (hSum ps k) cntM
def hVar (k : Fin 512) : EReal := max (Ideal.div (hSum pss k) cntM - hMean ps k * hMean ps k) 0
def hScale (k : Fin 512) : EReal := g (ix1 k) * Ideal.rsqrt (hVar ps pss k + eps)
def hShift (k : Fin 512) : EReal := be (ix1 k) - hMean ps k * hScale ps pss g k
/-- Stage two's results, as columns. -/
def hScaleCol : SCol.Idx → EReal := fun i => hScale ps pss g (i 0)
def hShiftCol : SCol.Idx → EReal := fun i => hShift ps pss g be (i 0)
end Host

/-- Stage three: `∑_k W2(o,k)·max ((∑_c W1(k,c)·x(b,c,l))·scale_k + shift_k, 0)`. -/
def bOut (x : SX.Idx → EReal) (w1 : SW1.Idx → EReal) (w2 : SW2.Idx → EReal) (sc sh : SCol.Idx → EReal) : SO.Idx → EReal :=
  fun i => ∑ k : Fin 512, w2 (ix2 (i 1) k) * max ((∑ c : Fin 128, w1 (ix2 k c) * x (ix3 (i 0) c (i 2))) * sc (ix2 k 0) + sh (ix2 k 0)) 0

/-- The second arrangement's result array. -/
def rResult (x : SX.Idx → EReal) (w1 : SW1.Idx → EReal) (g be : SV.Idx → EReal) (w2 : SW2.Idx → EReal) : SO.Idx → EReal :=
  bOut x w1 w2 (hScaleCol (rStatsSum x w1) (rStatsSumsq x w1) g) (hShiftCol (rStatsSum x w1) (rStatsSumsq x w1) g be)

end Cert.Spec

end
-- ==== Proof.LibMatmulRows.lean ====
/-
  A general fact about a matrix product at the ideal values.

  A kernel's matrix product whose dimension numbers contract the LAST axis of both operands (an [m, k] array against
  an [n, k] array: rows against rows, no batch axis), accumulated into the zero splat, read at entry (a, b), is the
  inner product of row `a` of the left factor with row `b` of the right one: `∑ c, A a c · B b c`.
-/
import Idealize.ShloMosaic.Lib.ValueIdx
import Idealize.ShloMosaic.PureOps.Ideal.Laws

noncomputable section

open scoped BigOperators

namespace Cert.LibMatmulRows

open Idealize.ShloMosaic Idealize.ShloMosaic.ValueIdx

/-- A product contracting the last axis of both operands, accumulated into the zero splat, read at an entry: the inner
    product of a row of the left factor with a row of the right one. -/
theorem matmul_rows_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul (DotDims.transposedRhs m k n) prec A B _ (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c := by
    funext ax; apply Fin.ext
    match ax with
    | ⟨0, _⟩ => simp [DotDims.lhsIdx, DotDims.transposedRhs] <;> rfl
    | ⟨1, _⟩ => exact ((DotDims.transposedRhs m k n).lhsIdx_val_of_single (cl := (1 : Fin 2)) rfl _ _).trans hc
  have er : (DotDims.transposedRhs m k n).rhsIdx (ix2 a b) ((contrEquiv1 (DotDims.transposedRhs m k n) k rfl rfl).symm c) = ix2 b c := by
    funext ax; apply Fin.ext
    match ax with
    | ⟨0, _⟩ => simp [DotDims.rhsIdx, DotDims.transposedRhs] <;> rfl
    | ⟨1, _⟩ => exact ((DotDims.transposedRhs m k n).rhsIdx_val_of_single (cr := (1 : Fin 2)) rfl _ _).trans hc
  rw [el, er]

end Cert.LibMatmulRows

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRows.lean ====
/-
  General readings of matrix operations at an entry given by its row and column.

  * Two matrices with the same rows laid side by side (a concatenation along the columns): a column below the first
    piece's width reads the first piece at that column, a column from that width on reads the second piece at the
    column less the width.
  * A reduction of a matrix along its columns, read at a row, at the ideal values: with `max` it is the fold of `max`
    over the row's entries from the starting word's value; with `add` it is the plain sum of the row's entries.
  * A vector of one entry per row, viewed as a column and repeated along the columns, reads the row's entry.
-/
import proofs.«132117_g2000306565302007_pallasbulk_1216_24_alg».proof.Proof.LibKeepdims
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

section Concatenate
variable {α : Type}

/-- Side by side, a column inside the first piece reads the first piece there. -/
theorem concat_cols_left {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : j.val < a) :
    concatenate ⟨2, ![n, c]⟩ 1 [⟨⟨2, ![n, a]⟩, x₁⟩, ⟨⟨2, ![n, b]⟩, x₂⟩] h (ix2 r j) = x₁ (ix2 r ⟨j.val, hj⟩) :=
  concatenate_pair_apply_left (1 : Fin 2) x₁ x₂ h (ix2 r j) rfl (ix2 r ⟨j.val, hj⟩) fun ax => by
    match ax with
    | ⟨0, _⟩ => rfl
    | ⟨1, _⟩ => rfl

/-- Side by side, a column past the first piece reads the second piece at the column less the first piece's width. -/
theorem concat_cols_right {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : a ≤ j.val)
    (hb : j.val - a < b) :
    concatenate ⟨2, ![n, c]⟩ 1 [⟨⟨2, ![n, a]⟩, x₁⟩, ⟨⟨2, ![n, b]⟩, x₂⟩] h (ix2 r j) = x₂ (ix2 r ⟨j.val - a, hb⟩) :=
  concatenate_pair_apply_right (1 : Fin 2) x₁ x₂ h (ix2 r j) rfl rfl (ix2 r ⟨j.val - a, hb⟩)
    (fun ax hne => by
      match ax with
      | ⟨0, _⟩ => rfl
      | ⟨1, _⟩ => exact absurd rfl hne)
    (by show j.val - a + a = j.val; omega)

end Concatenate

section Lanes
variable {φ : FTy}

/-- The source index over row `r` with column `k` is the entry `(r, k)`. -/
theorem lift_row {n m : Nat} (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A `max` reduction along the columns, at a row: the fold of `max` over the row from the starting word's value. -/
theorem lane_max_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (r : Fin n) :
    multiReduction .maximumf [1] ⟨1, ![n]⟩ X acc h hφ hacc (ix1 r)
      = (Finset.univ : Finset (Fin m)).fold max (Ideal.ofBits φ acc) (fun j => X (ix2 r j)) := by
  refine (Ideal.multiReduction_maximumf_single X acc h hφ hacc (ix1 r)).trans ?_
  exact congrArg (fun f => (Finset.univ : Finset (Fin m)).fold max (Ideal.ofBits φ acc) f)
    (funext fun k => congrArg X (lift_row h r k))

/-- An `add` reduction along the columns, at a row: the plain sum of the row. -/
theorem lane_sum_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ X acc h hφ hacc (ix1 r) = ∑ j : Fin m, X (ix2 r j) := by
  refine (Ideal.multiReduction_add_single X acc h hφ hacc (ix1 r)).trans ?_
  exact Finset.sum_congr rfl fun k _ => congrArg X (lift_row h r k)

end Lanes

section Keepdims
variable {α : Type}

/-- One entry per row, viewed as a column and repeated along the columns, reads the row's entry. -/
theorem column_broadcast_apply {n m : Nat} (y : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ y hc) hb (ix2 r j) = y (ix1 r) :=
  (Keepdims.broadcastTo_a1_ab_apply _ hb r j).trans (Keepdims.shapeCast_a_a1_apply y hc r 0)

end Keepdims

end Cert.LibRows

end
-- ==== Proof.KStatsPay.lean ====
/-
  The first stage of the first arrangement, at one grid point.

  A grid point holds a block of two batch rows `x0 : [2, 128, 8192]`. The body reads each row as a matrix `[128, 8192]`
  (channel, position), forms the row's Gram matrix `∑_l x(a,l)·x(c,l)` (a product contracting the position axis of both
  operands, into the zero splat) and the row's channel sums `∑_l x(a,l)`, and adds the two rows' results onto a zero
  accumulator. This module reads the two stored values at an index: the Gram block `[1, 128, 128]` at `(u, a, c)` and
  the sums block `[1, 128, 1]` at `(u, a, z)`, as sums over the position of entries of the two-row block.
-/
import proofs.«132117_g2000306565302007_pallasbulk_1216_24_alg».proof.Proof.Gen.KernelIdeal.Frame
import proofs.«132117_g2000306565302007_pallasbulk_1216_24_alg».proof.Proof.Spec
import proofs.«132117_g2000306565302007_pallasbulk_1216_24_alg».proof.Proof.LibMatmulRows
import proofs.«132117_g2000306565302007_pallasbulk_1216_24_alg».proof.Proof.LibRows
import proofs.«132117_g2000306565302007_pallasbulk_1216_24_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- The row `d` of a two-row block, read at `(u, a, l)`, is the block at `(d, a, l)`. -/
theorem ld_row0 (x0 : Vec Ideal S2x128x8192 .f32) (u : Fin 1) (a : Fin 128) (l : Fin 8192) :
    View.ld x0 r0_0 (ix3 u a l) = x0 (ix3 0 a l) := by
  show x0 _ = x0 _
  congr 1
  funext s; apply Fin.ext
  match s with
  | ⟨0, _⟩ => show 0 + 1 * u.val = 0; omega
  | ⟨1, _⟩ => show 0 + 1 * a.val = a.val; omega
  | ⟨2, _⟩ => show 0 + 1 * l.val = l.val; omega

theorem ld_row1 (x0 : Vec Ideal S2x128x8192 .f32) (u : Fin 1) (a : Fin 128) (l : Fin 8192) :
    View.ld x0 r0_1 (ix3 u a l) = x0 (ix3 1 a l) := by
  show x0 _ = x0 _
  congr 1
  funext s; apply Fin.ext
  match s with
  | ⟨0, _⟩ => show 1 + 1 * u.val = 1; omega
  | ⟨1, _⟩ => show 0 + 1 * a.val = a.val; omega
  | ⟨2, _⟩ => show 0 + 1 * l.val = l.val; omega

/-- A one-row block viewed as a matrix reads `(a, l)` at `(0, a, l)`. -/
theorem row_apply (v : Vec Ideal S1x128x8192 .f32) (a : Fin 128) (l : Fin 8192) :
    k0_pay1 v (ix2 a l) = v (ix3 0 a l) := by
  unfold k0_pay1
  refine shapeCast_apply v _ (ix2 a l) (ix3 0 a l) ?_
  rw [Shape.rowMajor_val_two, Shape.rowMajor_val_three]
  show ((0 * 128 + a.val) * 8192 + l.val) = a.val * 8192 + l.val
  omega

theorem row_apply' (v : Vec Ideal S1x128x8192 .f32) (a : Fin 128) (l : Fin 8192) :
    k0_pay2 v (ix2 a l) = v (ix3 0 a l) := row_apply v a l

/-- The Gram matrix of a `[128, 8192]` matrix: its product with itself contracting the long axis, into the zero splat. -/
theorem gram_apply (X : FVec Ideal S128x8192 .f32) (a c : Fin 128) :
    matmul dot_S128x8192_S128x8192_S128x128_1_1_0_0_n_n none (truncf .bf16 X bitsLt_bf16_f32) (truncf .bf16 X bitsLt_bf16_f32)
      (constant (F := Ideal) S128x128 .f32 0x00000000#32) (ix2 a c) = ∑ l : Fin 8192, X (ix2 a l) * X (ix2 c l) :=
  Cert.LibMatmulRows.matmul_rows_zero_apply (m := 128) (k := 8192) (n := 128) none (truncf .bf16 X bitsLt_bf16_f32) (truncf .bf16 X bitsLt_bf16_f32) a c

/-- What the body stores in the Gram window, at `(u, a, c)`: the two rows' Gram entries added onto zero. -/
theorem pay_gram (v2 v10 : Vec Ideal S1x128x8192 .f32) (u : Fin 1) (a c : Fin 128) :
    k0_pay3 v2 v10 (ix3 u a c)
      = (∑ l : Fin 8192, v2 (ix3 0 a l) * v2 (ix3 0 c l)) + (∑ l : Fin 8192, v10 (ix3 0 a l) * v10 (ix3 0 c l)) := by
  unfold k0_pay3
  refine (shapeCast_apply _ _ (ix3 u a c) (ix2 a c) ?_).trans ?_
  · rw [Shape.rowMajor_val_two, Shape.rowMajor_val_three]
    show a.val * 128 + c.val = ((u.val * 128 + a.val) * 128 + c.val)
    omega
  · show (Ideal.ofBits .f32 0x00000000#32 + _) + _ = _
    rw [Ideal.ofBits_zero_f32, zero_add]
    refine congrArg₂ (· + ·) ((gram_apply (k0_pay1 v2) a c).trans ?_) ((gram_apply (k0_pay2 v10) a c).trans ?_)
    · exact Finset.sum_congr rfl fun l _ => by rw [row_apply, row_apply]
    · exact Finset.sum_congr rfl fun l _ => by rw [row_apply', row_apply']

/-- The channel sums of a `[128, 8192]` matrix, as a column. -/
theorem colsum_apply (X : FVec Ideal S128x8192 .f32) (a : Fin 128) (z : Fin 1) :
    shapeCast S128x1 (multiReduction (F := Ideal) .add [1] S128 X 0x00000000#32 reduces_S128x8192_S128 (.inl rfl) rfl) shapeCasts_S128_S128x1 (ix2 a z)
      = ∑ l : Fin 8192, X (ix2 a l) :=
  (Cert.Keepdims.shapeCast_a_a1_apply _ _ a z).trans (Cert.LibRows.lane_sum_apply X _ _ _ _ a)

/-- What the body stores in the sums window, at `(u, a, z)`: the two rows' channel sums added onto zero. -/
theorem pay_sum (v2 v10 : Vec Ideal S1x128x8192 .f32) (u : Fin 1) (a : Fin 128) (z : Fin 1) :
    k0_pay4 v2 v10 (ix3 u a z) = (∑ l : Fin 8192, v2 (ix3 0 a l)) + (∑ l : Fin 8192, v10 (ix3 0 a l)) := by
  unfold k0_pay4
  refine (shapeCast_apply _ _ (ix3 u a z) (ix2 a z) ?_).trans ?_
  · rw [Shape.rowMajor_val_two, Shape.rowMajor_val_three]
    show a.val * 1 + z.val = ((u.val * 128 + a.val) * 1 + z.val)
    omega
  · show (Ideal.ofBits .f32 0x00000000#32 + _) + _ = _
    rw [Ideal.ofBits_zero_f32, zero_add]
    refine congrArg₂ (· + ·) ((colsum_apply (k0_pay1 v2) a z).trans ?_) ((colsum_apply (k0_pay2 v10) a z).trans ?_)
    · exact Finset.sum_congr rfl fun l _ => by rw [row_apply]
    · exact Finset.sum_congr rfl fun l _ => by rw [row_apply']

/-- The Gram block at any index, over the two-row block the point holds: row 0's Gram entry plus row 1's. -/
theorem point_gram (x0 : Vec Ideal S2x128x8192 .f32) (y : S1x128x128.Idx) :
    k0_pay3 (View.ld x0 r0_0) (View.ld x0 r0_1) y
      = (∑ l : Fin 8192, x0 (ix3 0 (y 1) l) * x0 (ix3 0 (y 2) l)) + (∑ l : Fin 8192, x0 (ix3 1 (y 1) l) * x0 (ix3 1 (y 2) l)) := by
  obtain ⟨u, a, c, rfl⟩ : ∃ (u : Fin 1) (a c : Fin 128), y = ix3 u a c := ⟨y 0, y 1, y 2, eq_ix3 y⟩
  refine (pay_gram _ _ u a c).trans ?_
  refine congrArg₂ (· + ·) (Finset.sum_congr rfl fun l _ => ?_) (Finset.sum_congr rfl fun l _ => ?_)
  · rw [ld_row0, ld_row0]
  · rw [ld_row1, ld_row1]

/-- The sums block at any index, over the two-row block the point holds: row 0's channel sum plus row 1's. -/
theorem point_sum (x0 : Vec Ideal S2x128x8192 .f32) (y : S1x128x1.Idx) :
    k0_pay4 (View.ld x0 r0_0) (View.ld x0 r0_1) y
      = (∑ l : Fin 8192, x0 (ix3 0 (y 1) l)) + (∑ l : Fin 8192, x0 (ix3 1 (y 1) l)) := by
  obtain ⟨u, a, z, rfl⟩ : ∃ (u : Fin 1) (a : Fin 128) (z : Fin 1), y = ix3 u a z := ⟨y 0, y 1, y 2, eq_ix3 y⟩
  refine (pay_sum _ _ u a z).trans ?_
  refine congrArg₂ (· + ·) (Finset.sum_congr rfl fun l _ => ?_) (Finset.sum_congr rfl fun l _ => ?_)
  · rw [ld_row0]
  · rw [ld_row1]

end Cert.KernelIdeal.KValue
end
-- ==== Proof.KStats.lean ====
/-
  The first region of the first arrangement, from blocks to arrays.

  The region runs the body at 16 grid points. Point `t` reads the block of batch rows `2t`, `2t + 1` of the input
  `x : [32, 128, 8192]` and writes block `t` (along the leading axis) of the Gram partials `[16, 128, 128]` and of the
  sum partials `[16, 128, 1]`. What it writes is, entry by entry, the block `t` of ONE whole-array function of `x`
  (the specification's `kStatsG`, `kStatsS`): the Gram entries, respectively the channel sums, of rows `2t` and
  `2t + 1` added. The 16 blocks cover each output array, so each array ends holding that function, whatever the
  region found in memory (`V`).
-/
import proofs.«132117_g2000306565302007_pallasbulk_1216_24_alg».proof.Proof.Gen.KernelIdeal.Frame
import proofs.«132117_g2000306565302007_pallasbulk_1216_24_alg».proof.Proof.Spec
import proofs.«132117_g2000306565302007_pallasbulk_1216_24_alg».proof.Proof.KStatsPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl

/-- The printed index maps over the 16 grid points: point `t` takes block `t` of each window along the leading axis
    and block 0 along the others. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block of point `t`, as a `[2, 128, 8192]` array. -/
def xblk (t : Fin cfg0.N) : Vec Ideal S2x128x8192 .f32 := iblk0 V c 0 t

/-- The input block of point `t` is batch rows `2t`, `2t + 1` of the input. -/
theorem iblk_x (t : Fin cfg0.N) (x : S2x128x8192.Idx) (k : Cert.Spec.SX.Idx)
    (hk0 : (k 0).val = 2 * t.val + (x 0).val) (hk1 : (k 1).val = (x 1).val) (hk2 : (k 2).val = (x 2).val) :
    xblk V c t x = (V c main_arg0 : Cert.Spec.SX.Idx → EReal) k := by
  obtain ⟨e0, e1, e2, -⟩ := idx_facts0 t
  unfold xblk iblk0
  rw [View.read_apply]
  show V c main_arg0 _ = V c main_arg0 _
  congr 1
  funext a
  apply Fin.ext
  match a with
  | ⟨0, _⟩ => show win0_0.index t (0 : Fin 3) * 2 + 1 * (x 0).val = (k 0).val; rw [e0, hk0]; omega
  | ⟨1, _⟩ => show win0_0.index t (1 : Fin 3) * 128 + 1 * (x 1).val = (k 1).val; rw [e1, hk1]; omega
  | ⟨2, _⟩ => show win0_0.index t (2 : Fin 3) * 8192 + 1 * (x 2).val = (k 2).val; rw [e2, hk2]; omega

/-- The two rows' Gram entries of point `t`'s block are the first stage's first result at pair `t`. -/
theorem gram_at (t : Fin cfg0.N) (y : S1x128x128.Idx) (i : Cert.Spec.SGp.Idx)
    (h0 : (i 0).val = t.val) (h1 : (i 1).val = (y 1).val) (h2 : (i 2).val = (y 2).val) :
    (∑ l : Fin 8192, xblk V c t (ix3 0 (y 1) l) * xblk V c t (ix3 0 (y 2) l))
      + (∑ l : Fin 8192, xblk V c t (ix3 1 (y 1) l) * xblk V c t (ix3 1 (y 2) l))
      = Cert.Spec.kStatsG (V c main_arg0) i := by
  unfold Cert.Spec.kStatsG Cert.Spec.gramRow
  refine congrArg₂ (· + ·)
    (Finset.sum_congr rfl fun l _ => congrArg₂ (· * ·) (iblk_x V c t _ _ ?_ ?_ ?_) (iblk_x V c t _ _ ?_ ?_ ?_))
    (Finset.sum_congr rfl fun l _ => congrArg₂ (· * ·) (iblk_x V c t _ _ ?_ ?_ ?_) (iblk_x V c t _ _ ?_ ?_ ?_))
  all_goals first
    | (show 2 * (i 0).val + 0 = 2 * t.val + 0; omega)
    | (show 2 * (i 0).val + 1 = 2 * t.val + 1; omega)
    | exact h1 | exact h2 | rfl

/-- What point `t` writes back to the Gram partials is block `t` of the first stage's first result. -/
theorem flushed_gram (t : Fin cfg0.N) :
    (dat0 (F := Ideal) V c).flushed 1 t = ((cfg0.win 1).blk t).view.read (Elt Ideal) (Cert.Spec.kStatsG (V c main_arg0)) := by
  show (cfg0.win 1).cut (grid0.coords t) ((dat0 V c).after 1 t) = _
  rw [after0_1]
  unfold out0_1
  rw [View.canon_unit_zero hz3]
  obtain ⟨-, -, -, e3, e4, e5, -⟩ := idx_facts0 t
  have key : ∀ y : S1x128x128.Idx, k0_pay3 (View.ld (iblk0 V c 0 t) r0_0) (View.ld (iblk0 V c 0 t) r0_1) y
      = Cert.Spec.kStatsG (V c main_arg0) (((cfg0.win 1).blk t).view.emb y) := fun y =>
    (point_gram (xblk V c t) y).trans (gram_at V c t y (((cfg0.win 1).blk t).view.emb y)
      (by show win0_1.index t (0 : Fin 3) * 1 + 1 * (y 0).val = t.val; have hy : (y 0).val < 1 := (y 0).isLt; rw [e3]; omega)
      (by show win0_1.index t (1 : Fin 3) * 128 + 1 * (y 1).val = (y 1).val; rw [e4]; omega)
      (by show win0_1.index t (2 : Fin 3) * 128 + 1 * (y 2).val = (y 2).val; rw [e5]; omega))
  funext y
  exact key y

/-- The two rows' channel sums of point `t`'s block are the first stage's second result at pair `t`. -/
theorem sum_at (t : Fin cfg0.N) (y : S1x128x1.Idx) (i : Cert.Spec.SSp.Idx)
    (h0 : (i 0).val = t.val) (h1 : (i 1).val = (y 1).val) :
    (∑ l : Fin 8192, xblk V c t (ix3 0 (y 1) l)) + (∑ l : Fin 8192, xblk V c t (ix3 1 (y 1) l))
      = Cert.Spec.kStatsS (V c main_arg0) i := by
  unfold Cert.Spec.kStatsS Cert.Spec.sumRow
  refine congrArg₂ (· + ·)
    (Finset.sum_congr rfl fun l _ => iblk_x V c t _ _ ?_ ?_ ?_)
    (Finset.sum_congr rfl fun l _ => iblk_x V c t _ _ ?_ ?_ ?_)
  all_goals first
    | (show 2 * (i 0).val + 0 = 2 * t.val + 0; omega)
    | (show 2 * (i 0).val + 1 = 2 * t.val + 1; omega)
    | exact h1 | rfl

/-- What point `t` writes back to the sum partials is block `t` of the first stage's second result. -/
theorem flushed_sum (t : Fin cfg0.N) :
    (dat0 (F := Ideal) V c).flushed 2 t = ((cfg0.win 2).blk t).view.read (Elt Ideal) (Cert.Spec.kStatsS (V c main_arg0)) := by
  show (cfg0.win 2).cut (grid0.coords t) ((dat0 V c).after 2 t) = _
  rw [after0_2]
  unfold out0_2
  rw [View.canon_unit_zero hz3]
  obtain ⟨-, -, -, -, -, -, e6, e7, e8⟩ := idx_facts0 t
  have key : ∀ y : S1x128x1.Idx, k0_pay4 (View.ld (iblk0 V c 0 t) r0_0) (View.ld (iblk0 V c 0 t) r0_1) y
      = Cert.Spec.kStatsS (V c main_arg0) (((cfg0.win 2).blk t).view.emb y) := fun y =>
    (point_sum (xblk V c t) y).trans (sum_at V c t y (((cfg0.win 2).blk t).view.emb y)
      (by show win0_2.index t (0 : Fin 3) * 1 + 1 * (y 0).val = t.val; have hy : (y 0).val < 1 := (y 0).isLt; rw [e6]; omega)
      (by show win0_2.index t (1 : Fin 3) * 128 + 1 * (y 1).val = (y 1).val; rw [e7]; omega))
  funext y
  exact key y

/-- An index of the Gram partials is in point `t`'s block iff each coordinate is in the block's range on its axis. -/
theorem mem_blk_gram (t : Fin cfg0.N) (i : S16x128x128.Idx) :
    i ∈ ((cfg0.win 1).blk t).view.set ↔ ∀ a : Fin 3, win0_1.index t a * S1x128x128.size a ≤ (i a).val ∧ (i a).val < win0_1.index t a * S1x128x128.size a + S1x128x128.size a := by
  show i ∈ ((View.whole main_v0_0).slice (win0_1.rect t)).set ↔ _
  rw [View.set_slice_whole, Rect.mem_set_unit]
  exact Iff.rfl

/-- Likewise for the sum partials. -/
theorem mem_blk_sum (t : Fin cfg0.N) (i : S16x128x1.Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_v0_1).slice (win0_2.rect t)).set ↔ _
  rw [View.set_slice_whole, Rect.mem_set_unit]
  exact Iff.rfl

/-- Pair `n` of the Gram partials is written by point `n`: the 16 blocks cover the array. -/
theorem cover_gram (i : S16x128x128.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hi2 : (i 2).val < 128 := (i 2).isLt
  obtain ⟨t, ht⟩ : ∃ t : Fin cfg0.N, t.val = (i 0).val := ⟨⟨(i 0).val, hi0⟩, rfl⟩
  obtain ⟨-, -, -, e3, e4, e5, -⟩ := idx_facts0 t
  refine ⟨t, flush0_1 t, ?_⟩
  rw [mem_blk_gram]
  intro a
  match a with
  | ⟨0, _⟩ => show win0_1.index t (0 : Fin 3) * 1 ≤ (i 0).val ∧ (i 0).val < win0_1.index t (0 : Fin 3) * 1 + 1; rw [e3]; omega
  | ⟨1, _⟩ => show win0_1.index t (1 : Fin 3) * 128 ≤ (i 1).val ∧ (i 1).val < win0_1.index t (1 : Fin 3) * 128 + 128; rw [e4]; omega
  | ⟨2, _⟩ => show win0_1.index t (2 : Fin 3) * 128 ≤ (i 2).val ∧ (i 2).val < win0_1.index t (2 : Fin 3) * 128 + 128; rw [e5]; omega

/-- Pair `n` of the sum partials is written by point `n`. -/
theorem cover_sum (i : S16x128x1.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hi2 : (i 2).val < 1 := (i 2).isLt
  obtain ⟨t, ht⟩ : ∃ t : Fin cfg0.N, t.val = (i 0).val := ⟨⟨(i 0).val, hi0⟩, rfl⟩
  obtain ⟨-, -, -, -, -, -, e6, e7, e8⟩ := idx_facts0 t
  refine ⟨t, flush0_2 t, ?_⟩
  rw [mem_blk_sum]
  intro a
  match a with
  | ⟨0, _⟩ => show win0_2.index t (0 : Fin 3) * 1 ≤ (i 0).val ∧ (i 0).val < win0_2.index t (0 : Fin 3) * 1 + 1; rw [e6]; omega
  | ⟨1, _⟩ => show win0_2.index t (1 : Fin 3) * 128 ≤ (i 1).val ∧ (i 1).val < win0_2.index t (1 : Fin 3) * 128 + 128; rw [e7]; omega
  | ⟨2, _⟩ => show win0_2.index t (2 : Fin 3) * 1 ≤ (i 2).val ∧ (i 2).val < win0_2.index t (2 : Fin 3) * 1 + 1; rw [e8]; omega

/-- THE FIRST REGION'S FIRST RESULT: the Gram partials end holding, for each pair of batch rows, the two rows' Gram
    matrices added. -/
theorem stats_gram : (Gen.dat0 (F := Ideal) V c).arrAt 1 cfg0.N = Cert.Spec.kStatsG (V c main_arg0) :=
  (dat0 (F := Ideal) V c).arrAt_eq_of_cover 1 (Cert.Spec.kStatsG (V c main_arg0)) (fun t _ => flushed_gram V c t) cover_gram

/-- THE FIRST REGION'S SECOND RESULT: the sum partials end holding, for each pair of batch rows, the two rows' channel
    sums added. -/
theorem stats_sum : (Gen.dat0 (F := Ideal) V c).arrAt 2 cfg0.N = Cert.Spec.kStatsS (V c main_arg0) :=
  (dat0 (F := Ideal) V c).arrAt_eq_of_cover 2 (Cert.Spec.kStatsS (V c main_arg0)) (fun t _ => flushed_sum V c t) cover_sum

end Cert.KernelIdeal.KValue
end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KFoldPay.lean ====
/-
  The second stage of the first arrangement, at an index.

  The body adds the 16 partial Gram matrices and the 16 partial channel sums (a sum over the leading axis), and from
  the totals `G(a,c)`, `s(c)` and the first weight `W1` forms, for each hidden channel `k`,
    mean_k  = (∑_c W1(k,c)·s(c)) · 2^-18,
    sumsq_k = ∑_c (∑_a W1(k,a)·G(a,c)) · W1(k,c),
    var_k   = max (sumsq_k · 2^-18 − mean_k², 0),
    scale_k = γ_k · (var_k + ε)^(-1/2),   shift_k = β_k − mean_k · scale_k,
  and stores `W1(k,c)·scale_k` (the weight with the scale folded in), `shift_k` (as a column) and the second weight
  unchanged. This module reads each stored value at an index and finds the specification's term there.
-/
import proofs.«132117_g2000306565302007_pallasbulk_1216_24_alg».proof.Proof.Gen.KernelIdeal.Frame
import proofs.«132117_g2000306565302007_pallasbulk_1216_24_alg».proof.Proof.Spec
import proofs.«132117_g2000306565302007_pallasbulk_1216_24_alg».proof.Proof.LibMatmulPlain
import proofs.«132117_g2000306565302007_pallasbulk_1216_24_alg».proof.Proof.LibRows
import proofs.«132117_g2000306565302007_pallasbulk_1216_24_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

section LeadingAxis
variable {φ : FTy}

/-- The source index over the entry `(p, q)` with leading coordinate `k` is `(k, p, q)`. -/
theorem lift_lead {n a b : Nat} (h : (⟨3, ![n, a, b]⟩ : Shape).Reduces [0] ⟨2, ![a, b]⟩) (p : Fin a) (q : Fin b) (k : Fin n) :
    h.lift (ix2 p q) k = ix3 k p q := by
  funext ax
  match ax with
  | ⟨0, _⟩ => exact Fin.ext rfl
  | ⟨1, _⟩ => exact Fin.ext rfl
  | ⟨2, _⟩ => exact Fin.ext rfl

/-- An `add` reduction along the leading axis of a rank-3 array, at an entry: the plain sum over that axis. -/
theorem lead_sum_apply {n a b : Nat} (X : FVec Ideal ⟨3, ![n, a, b]⟩ φ) (acc : BitVec φ.bits)
    (h : (⟨3, ![n, a, b]⟩ : Shape).Reduces [0] ⟨2, ![a, b]⟩) (hφ : FKind.Formats φ) (hacc : acc = FKind.add.neutral φ hφ)
    (p : Fin a) (q : Fin b) :
    multiReduction .add [0] ⟨2, ![a, b]⟩ X acc h hφ hacc (ix2 p q) = ∑ k : Fin n, X (ix3 k p q) := by
  refine (Ideal.multiReduction_add_single X acc h hφ hacc (ix2 p q)).trans ?_
  exact Finset.sum_congr rfl fun k _ => congrArg X (lift_lead h p q k)

end LeadingAxis

section Fold
variable (v0 : Vec Ideal S16x128x128 .f32) (v3 : Vec Ideal S16x128x1 .f32) (v6 : Vec Ideal S512x128 .f32)
  (v20 v26 : Vec Ideal S512x1 .f32)

/-- The mean column at `(k, z)`. -/
theorem pay_mean (k : Fin 512) (z : Fin 1) : k1_pay2 v3 v6 (ix2 k z) = Cert.Spec.fMean v3 v6 k := by
  obtain rfl : z = 0 := Subsingleton.elim _ _
  unfold k1_pay2 Cert.Spec.fMean Cert.Spec.fSum Cert.Spec.invM
  show matmul dot_S512x128_S128x1_S512x1_1_0_0_1_n_n none v6 _ (constant (F := Ideal) S512x1 .f32 0x00000000#32) (ix2 k 0) * Ideal.ofBits .f32 0x36800000#32 = _
  refine congrArg (· * Ideal.ofBits .f32 0x36800000#32) ?_
  refine (Cert.LibMatmulPlain.matmul_plain_zero_apply (m := 512) (k := 128) (n := 1) none v6 _ k 0).trans ?_
  refine Finset.sum_congr rfl fun c _ => congrArg (v6 (ix2 k c) * ·) ?_
  refine (lead_sum_apply _ _ _ _ _ c 0).trans ?_
  refine Finset.sum_congr rfl fun n _ => ?_
  rw [shapeCast_self]

/-- The total of the Gram partials at `(a, c)`. -/
theorem gram_tot (a c : Fin 128) :
    multiReduction (F := Ideal) .add [0] S128x128 (shapeCast S16x128x128 v0 shapeCasts_S16x128x128_S16x128x128) 0x00000000#32
      reduces_S16x128x128_S128x128 (.inl rfl) rfl (ix2 a c) = Cert.Spec.fGram v0 a c := by
  unfold Cert.Spec.fGram
  refine (lead_sum_apply _ _ _ _ _ a c).trans ?_
  rw [shapeCast_self]

/-- The column of `∑_c (W1·X)(k,c)·W1(k,c)` at `(k, z)`, for any matrix `X`. -/
theorem sumsq_col (W : FVec Ideal S512x128 .f32) (X : FVec Ideal S128x128 .f32) (k : Fin 512) (z : Fin 1) :
    shapeCast S512x1 (multiReduction (F := Ideal) (φ := .f32) .add [1] S512
        (mulf (matmul (φ₁ := .f32) (φ₂ := .f32) dot_S512x128_S128x128_S512x128_1_0_0_1_n_n none W X (constant (F := Ideal) S512x128 .f32 0x00000000#32)) W)
        0x00000000#32 reduces_S512x128_S512 (.inl rfl) rfl) shapeCasts_S512_S512x1 (ix2 k z)
      = ∑ c : Fin 128, (∑ a : Fin 128, W (ix2 k a) * X (ix2 a c)) * W (ix2 k c) := by
  refine (Cert.Keepdims.shapeCast_a_a1_apply _ _ k z).trans ((Cert.LibRows.lane_sum_apply _ _ _ _ _ k).trans ?_)
  refine Finset.sum_congr rfl fun c _ => ?_
  show matmul (φ₁ := .f32) (φ₂ := .f32) _ none W X _ (ix2 k c) * W (ix2 k c) = _
  refine congrArg (· * W (ix2 k c)) ?_
  exact Cert.LibMatmulPlain.matmul_plain_zero_apply (m := 512) (k := 128) (n := 128) none W X k c

/-- The scale column at `(k, z)`. -/
theorem pay_scale (k : Fin 512) (z : Fin 1) : k1_pay3 v0 v3 v6 v20 (ix2 k z) = Cert.Spec.fScale v0 v3 v6 v20 k := by
  obtain rfl : z = 0 := Subsingleton.elim _ _
  unfold k1_pay3 Cert.Spec.fScale Cert.Spec.fVar Cert.Spec.fSumsq Cert.Spec.eps Cert.Spec.invM
  show shapeCast S512x1 v20 shapeCasts_S512x1_S512x1 (ix2 k 0)
      * Ideal.rsqrt (max (shapeCast S512x1 _ shapeCasts_S512_S512x1 (ix2 k 0) * Ideal.ofBits .f32 0x36800000#32
          - k1_pay2 v3 v6 (ix2 k 0) * k1_pay2 v3 v6 (ix2 k 0)) (Ideal.ofBits .f32 0x00000000#32) + Ideal.ofBits .f32 0x3727C5AC#32) = _
  rw [shapeCast_self, pay_mean, Ideal.ofBits_zero_f32, sumsq_col]
  refine congrArg (fun s => v20 (ix2 k 0) * Ideal.rsqrt (max (s * Ideal.ofBits .f32 0x36800000#32
    - Cert.Spec.fMean v3 v6 k * Cert.Spec.fMean v3 v6 k) 0 + Ideal.ofBits .f32 0x3727C5AC#32)) ?_
  exact Finset.sum_congr rfl fun c _ => congrArg (· * v6 (ix2 k c))
    (Finset.sum_congr rfl fun a _ => congrArg (v6 (ix2 k a) * ·) (gram_tot v0 a c))

/-- The shift column at `(k, z)`. -/
theorem pay_shift (k : Fin 512) (z : Fin 1) : k1_pay4 v0 v3 v6 v20 v26 (ix2 k z) = Cert.Spec.fShift v0 v3 v6 v20 v26 k := by
  obtain rfl : z = 0 := Subsingleton.elim _ _
  unfold k1_pay4 Cert.Spec.fShift
  show shapeCast S512x1 v26 shapeCasts_S512x1_S512x1 (ix2 k 0) - k1_pay2 v3 v6 (ix2 k 0) * k1_pay3 v0 v3 v6 v20 (ix2 k 0) = _
  rw [shapeCast_self, pay_mean, pay_scale]

/-- The folded weight at `(k, c)`. -/
theorem pay_w1s (k : Fin 512) (c : Fin 128) :
    k1_pay5 v0 v3 v6 v20 (ix2 k c) = v6 (ix2 k c) * Cert.Spec.fScale v0 v3 v6 v20 k := by
  unfold k1_pay5
  show v6 (ix2 k c) * broadcastTo S512x128 (k1_pay3 v0 v3 v6 v20) broadcasts_S512x1_S512x128 (ix2 k c) = _
  rw [Cert.Keepdims.broadcastTo_a1_ab_apply, pay_scale]

/-- The second weight is stored as read (the change of float format is the identity on the ideal values). -/
theorem pay_w2 (v35 : Vec Ideal S256x512 .f32) (i : S256x512.Idx) : k1_pay1 v35 i = v35 i := rfl

end Fold

end Cert.KernelIdeal.KValue
end
-- ==== Proof.KFold.lean ====
/-
  The second region of the first arrangement, from blocks to arrays.

  The region has no grid: it runs the body once, and every window's one block is its whole array (block index 0 on
  every axis, block size the array's). So each input block is the array as the region finds it (`V`), the one point's
  block covers each output array, and each output array ends holding what the body stored: the first weight with the
  scale folded in, the shift as a column, and the second weight unchanged — the specification's `fW1s`, `fShiftCol` of
  the Gram partials, the sum partials, the first weight and the two batch-norm parameters (as columns).
-/
import proofs.«132117_g2000306565302007_pallasbulk_1216_24_alg».proof.Proof.Gen.KernelIdeal.Frame
import proofs.«132117_g2000306565302007_pallasbulk_1216_24_alg».proof.Proof.Spec
import proofs.«132117_g2000306565302007_pallasbulk_1216_24_alg».proof.Proof.KFoldPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem hz2' : (![0, 0] : Fin 2 → Nat) = fun _ => 0 := funext fun a => by fin_cases a <;> rfl
theorem hz3' : (![0, 0, 0] : Fin 3 → Nat) = fun _ => 0 := funext fun a => by fin_cases a <;> rfl

/-- Window 0's one block is its whole array: reading any contents through it gives the contents. -/
theorem read_whole_0 (t : Fin cfg1.N) (G : S16x128x128.Idx → EReal) : ((cfg1.win 0).blk t).view.read (Elt Ideal) G = G := by
  funext y
  rw [View.read_apply]
  show G _ = G y
  congr 1; funext a; apply Fin.ext
  show win1_0.index t a * win1_0.size a + 1 * (y a).val = (y a).val
  have h0 : win1_0.index t a = 0 := rfl
  rw [h0]; omega

/-- Window 1's one block is its whole array: reading any contents through it gives the contents. -/
theorem read_whole_1 (t : Fin cfg1.N) (G : S16x128x1.Idx → EReal) : ((cfg1.win 1).blk t).view.read (Elt Ideal) G = G := by
  funext y
  rw [View.read_apply]
  show G _ = G y
  congr 1; funext a; apply Fin.ext
  show win1_1.index t a * win1_1.size a + 1 * (y a).val = (y a).val
  have h0 : win1_1.index t a = 0 := rfl
  rw [h0]; omega

/-- Window 2's one block is its whole array: reading any contents through it gives the contents. -/
theorem read_whole_2 (t : Fin cfg1.N) (G : S512x128.Idx → EReal) : ((cfg1.win 2).blk t).view.read (Elt Ideal) G = G := by
  funext y
  rw [View.read_apply]
  show G _ = G y
  congr 1; funext a; apply Fin.ext
  show win1_2.index t a * win1_2.size a + 1 * (y a).val = (y a).val
  have h0 : win1_2.index t a = 0 := rfl
  rw [h0]; omega

/-- Window 3's one block is its whole array: reading any contents through it gives the contents. -/
theorem read_whole_3 (t : Fin cfg1.N) (G : S256x512.Idx → EReal) : ((cfg1.win 3).blk t).view.read (Elt Ideal) G = G := by
  funext y
  rw [View.read_apply]
  show G _ = G y
  congr 1; funext a; apply Fin.ext
  show win1_3.index t a * win1_3.size a + 1 * (y a).val = (y a).val
  have h0 : win1_3.index t a = 0 := rfl
  rw [h0]; omega

/-- Window 4's one block is its whole array: reading any contents through it gives the contents. -/
theorem read_whole_4 (t : Fin cfg1.N) (G : S512x1.Idx → EReal) : ((cfg1.win 4).blk t).view.read (Elt Ideal) G = G := by
  funext y
  rw [View.read_apply]
  show G _ = G y
  congr 1; funext a; apply Fin.ext
  show win1_4.index t a * win1_4.size a + 1 * (y a).val = (y a).val
  have h0 : win1_4.index t a = 0 := rfl
  rw [h0]; omega

/-- Window 5's one block is its whole array: reading any contents through it gives the contents. -/
theorem read_whole_5 (t : Fin cfg1.N) (G : S512x1.Idx → EReal) : ((cfg1.win 5).blk t).view.read (Elt Ideal) G = G := by
  funext y
  rw [View.read_apply]
  show G _ = G y
  congr 1; funext a; apply Fin.ext
  show win1_5.index t a * win1_5.size a + 1 * (y a).val = (y a).val
  have h0 : win1_5.index t a = 0 := rfl
  rw [h0]; omega

/-- Window 6's one block is its whole array: reading any contents through it gives the contents. -/
theorem read_whole_6 (t : Fin cfg1.N) (G : S512x128.Idx → EReal) : ((cfg1.win 6).blk t).view.read (Elt Ideal) G = G := by
  funext y
  rw [View.read_apply]
  show G _ = G y
  congr 1; funext a; apply Fin.ext
  show win1_6.index t a * win1_6.size a + 1 * (y a).val = (y a).val
  have h0 : win1_6.index t a = 0 := rfl
  rw [h0]; omega

/-- Window 7's one block is its whole array: reading any contents through it gives the contents. -/
theorem read_whole_7 (t : Fin cfg1.N) (G : S512x1.Idx → EReal) : ((cfg1.win 7).blk t).view.read (Elt Ideal) G = G := by
  funext y
  rw [View.read_apply]
  show G _ = G y
  congr 1; funext a; apply Fin.ext
  show win1_7.index t a * win1_7.size a + 1 * (y a).val = (y a).val
  have h0 : win1_7.index t a = 0 := rfl
  rw [h0]; omega

/-- Window 8's one block is its whole array: reading any contents through it gives the contents. -/
theorem read_whole_8 (t : Fin cfg1.N) (G : S256x512.Idx → EReal) : ((cfg1.win 8).blk t).view.read (Elt Ideal) G = G := by
  funext y
  rw [View.read_apply]
  show G _ = G y
  congr 1; funext a; apply Fin.ext
  show win1_8.index t a * win1_8.size a + 1 * (y a).val = (y a).val
  have h0 : win1_8.index t a = 0 := rfl
  rw [h0]; omega

/-- So each input window's block at the one point is its array as the region finds it. -/
theorem iblk1_0 (t : Fin cfg1.N) : iblk1 V c 0 t = V c main_v0_0 := read_whole_0 t _
theorem iblk1_1 (t : Fin cfg1.N) : iblk1 V c 1 t = V c main_v0_1 := read_whole_1 t _
theorem iblk1_2 (t : Fin cfg1.N) : iblk1 V c 2 t = V c main_arg1 := read_whole_2 t _
theorem iblk1_3 (t : Fin cfg1.N) : iblk1 V c 3 t = V c main_arg4 := read_whole_3 t _
theorem iblk1_4 (t : Fin cfg1.N) : iblk1 V c 4 t = V c main_v1 := read_whole_4 t _
theorem iblk1_5 (t : Fin cfg1.N) : iblk1 V c 5 t = V c main_v2 := read_whole_5 t _

/-! The one point's block covers the whole array, for each output window. -/

theorem cover_6 (i : S512x128.Idx) : ∃ t : Fin cfg1.N, (cfg1.win 6).flush t = true ∧ i ∈ ((cfg1.win 6).blk t).view.set := by
  obtain ⟨t⟩ : Nonempty (Fin cfg1.N) := ⟨⟨0, by decide⟩⟩
  refine ⟨t, flush1_6 t, ?_⟩
  show i ∈ ((View.whole main_v3_0).slice (win1_6.rect t)).set
  rw [View.set_slice_whole, Rect.mem_set_unit]
  intro a
  have hi : (i a).val < S512x128.size a := (i a).isLt
  show 0 * S512x128.size a ≤ (i a).val ∧ (i a).val < 0 * S512x128.size a + S512x128.size a
  omega

theorem cover_7 (i : S512x1.Idx) : ∃ t : Fin cfg1.N, (cfg1.win 7).flush t = true ∧ i ∈ ((cfg1.win 7).blk t).view.set := by
  obtain ⟨t⟩ : Nonempty (Fin cfg1.N) := ⟨⟨0, by decide⟩⟩
  refine ⟨t, flush1_7 t, ?_⟩
  show i ∈ ((View.whole main_v3_1).slice (win1_7.rect t)).set
  rw [View.set_slice_whole, Rect.mem_set_unit]
  intro a
  have hi : (i a).val < S512x1.size a := (i a).isLt
  show 0 * S512x1.size a ≤ (i a).val ∧ (i a).val < 0 * S512x1.size a + S512x1.size a
  omega

theorem cover_8 (i : S256x512.Idx) : ∃ t : Fin cfg1.N, (cfg1.win 8).flush t = true ∧ i ∈ ((cfg1.win 8).blk t).view.set := by
  obtain ⟨t⟩ : Nonempty (Fin cfg1.N) := ⟨⟨0, by decide⟩⟩
  refine ⟨t, flush1_8 t, ?_⟩
  show i ∈ ((View.whole main_v3_2).slice (win1_8.rect t)).set
  rw [View.set_slice_whole, Rect.mem_set_unit]
  intro a
  have hi : (i a).val < S256x512.size a := (i a).isLt
  show 0 * S256x512.size a ≤ (i a).val ∧ (i a).val < 0 * S256x512.size a + S256x512.size a
  omega

/-- What the one point writes back to the folded weight is the second stage's first result. -/
theorem flushed_w1s (t : Fin cfg1.N) :
    (dat1 (F := Ideal) V c).flushed 6 t = ((cfg1.win 6).blk t).view.read (Elt Ideal)
      (Cert.Spec.fW1s (V c main_v0_0) (V c main_v0_1) (V c main_arg1) (V c main_v1)) := by
  show (cfg1.win 6).cut (grid1.coords t) ((dat1 V c).after 6 t) = _
  rw [after1_6, read_whole_6]
  unfold out1_6
  rw [View.canon_unit_zero hz2']
  simp only [View.ld_unit_zero (S := S16x128x128) hz3', View.ld_unit_zero (S := S16x128x1) hz3', View.ld_unit_zero (S := S512x128) hz2', View.ld_unit_zero (S := S512x1) hz2', View.ld_unit_zero (S := S256x512) hz2']
  rw [iblk1_0, iblk1_1, iblk1_2, iblk1_4]
  have key : ∀ i : S512x128.Idx, k1_pay5 (V c main_v0_0) (V c main_v0_1) (V c main_arg1) (V c main_v1) i
      = Cert.Spec.fW1s (V c main_v0_0) (V c main_v0_1) (V c main_arg1) (V c main_v1) i := fun i => by
    obtain ⟨k, cc, rfl⟩ : ∃ (k : Fin 512) (cc : Fin 128), i = ix2 k cc := ⟨i 0, i 1, eq_ix2 i⟩
    exact pay_w1s _ _ _ _ k cc
  funext i
  exact key i

/-- What the one point writes back to the shift is the second stage's second result. -/
theorem flushed_shift (t : Fin cfg1.N) :
    (dat1 (F := Ideal) V c).flushed 7 t = ((cfg1.win 7).blk t).view.read (Elt Ideal)
      (Cert.Spec.fShiftCol (V c main_v0_0) (V c main_v0_1) (V c main_arg1) (V c main_v1) (V c main_v2)) := by
  show (cfg1.win 7).cut (grid1.coords t) ((dat1 V c).after 7 t) = _
  rw [after1_7, read_whole_7]
  unfold out1_7
  rw [View.canon_unit_zero hz2']
  simp only [View.ld_unit_zero (S := S16x128x128) hz3', View.ld_unit_zero (S := S16x128x1) hz3', View.ld_unit_zero (S := S512x128) hz2', View.ld_unit_zero (S := S512x1) hz2', View.ld_unit_zero (S := S256x512) hz2']
  rw [iblk1_0, iblk1_1, iblk1_2, iblk1_4, iblk1_5]
  have key : ∀ i : S512x1.Idx, k1_pay4 (V c main_v0_0) (V c main_v0_1) (V c main_arg1) (V c main_v1) (V c main_v2) i
      = Cert.Spec.fShiftCol (V c main_v0_0) (V c main_v0_1) (V c main_arg1) (V c main_v1) (V c main_v2) i := fun i => by
    obtain ⟨k, z, rfl⟩ : ∃ (k : Fin 512) (z : Fin 1), i = ix2 k z := ⟨i 0, i 1, eq_ix2 i⟩
    exact pay_shift _ _ _ _ _ k z
  funext i
  exact key i

/-- What the one point writes back to the copy of the second weight is the second weight. -/
theorem flushed_w2b (t : Fin cfg1.N) :
    (dat1 (F := Ideal) V c).flushed 8 t = ((cfg1.win 8).blk t).view.read (Elt Ideal) (V c main_arg4 : S256x512.Idx → EReal) := by
  show (cfg1.win 8).cut (grid1.coords t) ((dat1 V c).after 8 t) = _
  rw [after1_8, read_whole_8]
  unfold out1_8
  rw [View.canon_unit_zero hz2']
  simp only [View.ld_unit_zero (S := S16x128x128) hz3', View.ld_unit_zero (S := S16x128x1) hz3', View.ld_unit_zero (S := S512x128) hz2', View.ld_unit_zero (S := S512x1) hz2', View.ld_unit_zero (S := S256x512) hz2']
  rw [iblk1_3]
  funext i
  rfl

/-- THE SECOND REGION'S FIRST RESULT: the first weight with the batch-norm scale folded in. -/
theorem fold_w1s : (Gen.dat1 (F := Ideal) V c).arrAt 6 cfg1.N
    = Cert.Spec.fW1s (V c main_v0_0) (V c main_v0_1) (V c main_arg1) (V c main_v1) :=
  (dat1 (F := Ideal) V c).arrAt_eq_of_cover 6 (Cert.Spec.fW1s (V c main_v0_0) (V c main_v0_1) (V c main_arg1) (V c main_v1))
    (fun t _ => flushed_w1s V c t) cover_6

/-- THE SECOND REGION'S SECOND RESULT: the batch-norm shift, as a column. -/
theorem fold_shift : (Gen.dat1 (F := Ideal) V c).arrAt 7 cfg1.N
    = Cert.Spec.fShiftCol (V c main_v0_0) (V c main_v0_1) (V c main_arg1) (V c main_v1) (V c main_v2) :=
  (dat1 (F := Ideal) V c).arrAt_eq_of_cover 7 (Cert.Spec.fShiftCol (V c main_v0_0) (V c main_v0_1) (V c main_arg1) (V c main_v1) (V c main_v2))
    (fun t _ => flushed_shift V c t) cover_7

/-- THE SECOND REGION'S THIRD RESULT: the second weight, unchanged. -/
theorem fold_w2b : (Gen.dat1 (F := Ideal) V c).arrAt 8 cfg1.N = V c main_arg4 :=
  (dat1 (F := Ideal) V c).arrAt_eq_of_cover 8 (V c main_arg4 : S256x512.Idx → EReal) (fun t _ => flushed_w2b V c t) cover_8

end Cert.KernelIdeal.KValue
end
-- ==== Proof.KApplyTile.lean ====
/-
  One tile of the last stage.  Every store of the third launch's body writes the same function of what it loaded: with
  the folded weight `W1s : [512, 128]`, the second weight `W2 : [256, 512]`, the shift column `[512, 1]` and a tile
  `xt : [1, 128, 4096]` of the input (one batch row, all channels, 4096 positions),
    tile (0, o, l) = ∑_k W2(o,k) · max (∑_c W1s(k,c) · xt(0,c,l) + shift(k,0), 0):
  two matrix products into zero accumulators, a column repeated along the positions, a sum and a maximum taken entry by
  entry; the changes of float format in between are the identity on the extended reals.
-/
import proofs.«132117_g2000306565302007_pallasbulk_1216_24_alg».proof.Proof.Gen.KernelIdeal.Skeleton
import proofs.«132117_g2000306565302007_pallasbulk_1216_24_alg».proof.Proof.LibMatmulPlain
import proofs.«132117_g2000306565302007_pallasbulk_1216_24_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.KValue

open Cert.KernelIdeal Cert.KernelIdeal.Gen
open Idealize.ShloMosaic Idealize.ShloMosaic.ValueIdx

/-- The tile function. -/
def tile (w1s : S512x128.Idx → EReal) (w2b : S256x512.Idx → EReal) (sh : S512x1.Idx → EReal)
    (xt : S1x128x4096.Idx → EReal) : S1x256x4096.Idx → EReal :=
  fun j => ∑ k : Fin 512, w2b (ix2 (j 1) k) * max ((∑ c : Fin 128, w1s (ix2 k c) * xt (ix3 0 c (j 2))) + sh (ix2 k 0)) 0

/-- The hidden tile: the first product plus the shift column, cut off below at zero, at entry `(k, l)`. -/
theorem hidden_apply (v1 : FVec Ideal S512x128 .bf16) (v5 : FVec Ideal S512x1 .f32) (xt : Vec Ideal S1x128x4096 .f32)
    (k : Fin 512) (l : Fin 4096) :
    truncf (F := Ideal) .bf16 (maximumf
      (addf (matmul dot_S512x128_S128x4096_S512x4096_1_0_0_1_n_n none v1
          (truncf (F := Ideal) .bf16 (shapeCast S128x4096 xt shapeCasts_S1x128x4096_S128x4096) bitsLt_bf16_f32)
          (constant (F := Ideal) S512x4096 .f32 0x00000000#32))
        (broadcastTo S512x4096 v5 broadcasts_S512x1_S512x4096))
      (broadcast S512x4096 (Scalar.ofBits (F := Ideal) .f32 0x00000000#32))) bitsLt_bf16_f32 (ix2 k l)
    = max ((∑ c : Fin 128, v1 (ix2 k c) * xt (ix3 0 c l)) + v5 (ix2 k 0)) 0 := by
  show max ((matmul dot_S512x128_S128x4096_S512x4096_1_0_0_1_n_n none v1
          (truncf (F := Ideal) .bf16 (shapeCast S128x4096 xt shapeCasts_S1x128x4096_S128x4096) bitsLt_bf16_f32)
          (constant (F := Ideal) S512x4096 .f32 0x00000000#32)) (ix2 k l)
        + (broadcastTo S512x4096 v5 broadcasts_S512x1_S512x4096) (ix2 k l)) (Ideal.ofBits .f32 0x00000000#32) = _
  rw [Ideal.ofBits_zero_f32]
  refine congrArg (fun z => max z 0) ?_
  refine congrArg₂ (· + ·) ?_ (Keepdims.broadcastTo_a1_ab_apply v5 broadcasts_S512x1_S512x4096 k l)
  refine (Cert.LibMatmulPlain.matmul_plain_zero_apply (m := 512) (k := 128) (n := 4096) none v1 _ k l).trans ?_
  refine Finset.sum_congr rfl fun c _ => ?_
  refine congrArg (v1 (ix2 k c) * ·) ?_
  show shapeCast S128x4096 xt shapeCasts_S1x128x4096_S128x4096 (ix2 c l) = _
  refine (shapeCast_dropUnit_apply ![128, 4096] xt shapeCasts_S1x128x4096_S128x4096 (ix2 c l)).trans ?_
  refine congrArg xt ?_
  funext a; match a with | ⟨0, _⟩ => rfl | ⟨1, _⟩ => rfl | ⟨2, _⟩ => rfl

/-- The whole tile: the second product of `W2` with the hidden tile, stored as a `[1, 256, 4096]` block. -/
theorem tileExpr_eq (v1 : FVec Ideal S512x128 .bf16) (v3 : FVec Ideal S256x512 .bf16) (v5 : FVec Ideal S512x1 .f32)
    (xt : Vec Ideal S1x128x4096 .f32) :
    shapeCast S1x256x4096 (matmul dot_S256x512_S512x4096_S256x4096_1_0_0_1_n_n none v3
      (truncf (F := Ideal) .bf16 (maximumf
        (addf (matmul dot_S512x128_S128x4096_S512x4096_1_0_0_1_n_n none v1
            (truncf (F := Ideal) .bf16 (shapeCast S128x4096 xt shapeCasts_S1x128x4096_S128x4096) bitsLt_bf16_f32)
            (constant (F := Ideal) S512x4096 .f32 0x00000000#32))
          (broadcastTo S512x4096 v5 broadcasts_S512x1_S512x4096))
        (broadcast S512x4096 (Scalar.ofBits (F := Ideal) .f32 0x00000000#32))) bitsLt_bf16_f32)
      (constant (F := Ideal) S256x4096 .f32 0x00000000#32)) shapeCasts_S256x4096_S1x256x4096
    = tile v1 v3 v5 xt := by
  funext j
  refine (shapeCast_addUnit_apply ![256, 4096] _ shapeCasts_S256x4096_S1x256x4096 j).trans ?_
  have e1 : (fun a : Fin 2 => j a.succ) = ix2 (j 1) (j 2) := by
    funext a; match a with | ⟨0, _⟩ => rfl | ⟨1, _⟩ => rfl
  rw [e1]
  refine (Cert.LibMatmulPlain.matmul_plain_zero_apply (m := 256) (k := 512) (n := 4096) none v3 _ (j 1) (j 2)).trans ?_
  unfold tile
  refine Finset.sum_congr rfl fun k _ => ?_
  exact congrArg (v3 (ix2 (j 1) k) * ·) (hidden_apply v1 v5 xt k (j 2))

/-- Each of the body's four stores writes the tile function of what it loaded. -/
theorem pay1_eq (v1 : FVec Ideal S512x128 .bf16) (v3 : FVec Ideal S256x512 .bf16) (v5 : FVec Ideal S512x1 .f32)
    (xt : Vec Ideal S1x128x4096 .f32) : k2_pay1 (F := Ideal) v1 v3 v5 xt = tile v1 v3 v5 xt := by
  unfold k2_pay1; exact tileExpr_eq v1 v3 v5 xt

theorem pay2_eq (v1 : FVec Ideal S512x128 .bf16) (v3 : FVec Ideal S256x512 .bf16) (v5 : FVec Ideal S512x1 .f32)
    (xt : Vec Ideal S1x128x4096 .f32) : k2_pay2 (F := Ideal) v1 v3 v5 xt = tile v1 v3 v5 xt := by
  unfold k2_pay2; exact tileExpr_eq v1 v3 v5 xt

theorem pay3_eq (v0 : Vec Ideal S512x128 .bf16) : k2_pay3 (F := Ideal) v0 = v0 := by
  unfold k2_pay3; exact shapeCast_self v0 _
theorem pay4_eq (v2 : Vec Ideal S256x512 .bf16) : k2_pay4 (F := Ideal) v2 = v2 := by
  unfold k2_pay4; exact shapeCast_self v2 _
theorem pay5_eq (v4 : Vec Ideal S512x1 .f32) : k2_pay5 (F := Ideal) v4 = v4 := by
  unfold k2_pay5; exact shapeCast_self v4 _

theorem pay6_eq (v0 : Vec Ideal S512x128 .bf16) (v2 : Vec Ideal S256x512 .bf16) (v4 : Vec Ideal S512x1 .f32)
    (xt : Vec Ideal S1x128x4096 .f32) : k2_pay6 (F := Ideal) v0 v2 v4 xt = tile v0 v2 v4 xt := by
  unfold k2_pay6; rw [pay3_eq, pay4_eq, pay5_eq]; exact tileExpr_eq v0 v2 v4 xt

theorem pay7_eq (v0 : Vec Ideal S512x128 .bf16) (v2 : Vec Ideal S256x512 .bf16) (v4 : Vec Ideal S512x1 .f32)
    (xt : Vec Ideal S1x128x4096 .f32) : k2_pay7 (F := Ideal) v0 v2 v4 xt = tile v0 v2 v4 xt := by
  unfold k2_pay7; rw [pay3_eq, pay4_eq, pay5_eq]; exact tileExpr_eq v0 v2 v4 xt

end Cert.KernelIdeal.KValue

end
-- ==== Proof.KApplyBlock.lean ====
/-
  The third launch's block.  At a grid point the body loads a `[2, 128, 8192]` block of the input (two batch rows), the
  folded weight, the second weight and the shift column, and fills the `[2, 256, 8192]` output block by four stores, one
  per (row of the pair, half of the positions).  Each store is the tile function of the matching input tile, and the
  four rectangles tile the block, so the block is ONE function of the block index `(d, o, l)`:
    ∑_k W2(o,k) · max (∑_c W1s(k,c) · x(d,c,l) + shift(k,0), 0).
-/
import proofs.«132117_g2000306565302007_pallasbulk_1216_24_alg».proof.Proof.Gen.KernelIdeal.Frame
import proofs.«132117_g2000306565302007_pallasbulk_1216_24_alg».proof.Proof.KApplyTile
import proofs.«132117_g2000306565302007_pallasbulk_1216_24_alg».proof.Proof.Spec

set_option maxRecDepth 16384

noncomputable section

open scoped BigOperators

namespace Cert.KernelIdeal.KValue

open Cert.KernelIdeal Cert.KernelIdeal.Gen
open Idealize.ShloMosaic Idealize.ShloMosaic.ValueIdx Idealize.ShloMosaic.TcCoe

/-- The output block as one function of the loaded blocks. -/
def blockFn (x0 : S2x128x8192.Idx → EReal) (x1 : S512x128.Idx → EReal) (x2 : S256x512.Idx → EReal)
    (x3 : S512x1.Idx → EReal) : S2x256x8192.Idx → EReal :=
  fun y => ∑ k : Fin 512, x2 (ix2 (y 1) k) * max ((∑ c : Fin 128, x1 (ix2 k c) * x0 (ix3 (y 0) c (y 2))) + x3 (ix2 k 0)) 0

theorem hz2 : (![0, 0] : Fin 2 → Nat) = fun _ => 0 := funext fun a => by fin_cases a <;> rfl

/-- The four stores tile the output block, and each writes its tile of `blockFn`: the block is `blockFn`. -/
theorem out_eq (x0 : Vec Ideal S2x128x8192 .f32) (x1 : Vec Ideal S512x128 .bf16) (x2 : Vec Ideal S256x512 .bf16) (x3 : Vec Ideal S512x1 .f32) :
    out2_4 (F := Ideal) x0 x1 x2 x3 = blockFn x0 x1 x2 x3 := by
  funext y
  unfold out2_4
  refine View.canon_apply_of_pieces (Val := Elt Ideal) (blockFn x0 x1 x2 x3) _ ?_ y (cover2_4 _ _ _ _ y)
  intro p hp x
  simp only [List.mem_cons, List.mem_singleton, List.not_mem_nil, or_false] at hp
  rcases hp with rfl | rfl | rfl | rfl
  · show k2_pay2 (F := Ideal) _ _ _ _ x = _
    rw [pay3_eq, pay4_eq, pay5_eq, pay2_eq]
    simp only [View.ld_unit_zero (S := S512x128) hz2, View.ld_unit_zero (S := S256x512) hz2, View.ld_unit_zero (S := S512x1) hz2]
    unfold tile blockFn
    refine Finset.sum_congr rfl fun k _ => ?_
    refine congrArg₂ (fun (a : Fin 256) (b : EReal) => x2 (ix2 a k) * max (b + x3 (ix2 k 0)) 0) ?_ ?_
    · exact Fin.ext (by show (x 1).val = 0 + 1 * (x 1).val; omega)
    · refine Finset.sum_congr rfl fun c _ => congrArg (x1 (ix2 k c) * ·) (congrArg x0 ?_)
      have h0 : (x 0).val < 1 := (x 0).isLt
      funext a; apply Fin.ext
      match a with
      | ⟨0, _⟩ => show 1 + 1 * 0 = 1 + 1 * (x 0).val; omega
      | ⟨1, _⟩ => show 0 + 1 * c.val = c.val; omega
      | ⟨2, _⟩ => show 4096 + 1 * (x 2).val = 4096 + 1 * (x 2).val; rfl
  · show k2_pay1 (F := Ideal) _ _ _ _ x = _
    rw [pay3_eq, pay4_eq, pay5_eq, pay1_eq]
    simp only [View.ld_unit_zero (S := S512x128) hz2, View.ld_unit_zero (S := S256x512) hz2, View.ld_unit_zero (S := S512x1) hz2]
    unfold tile blockFn
    refine Finset.sum_congr rfl fun k _ => ?_
    refine congrArg₂ (fun (a : Fin 256) (b : EReal) => x2 (ix2 a k) * max (b + x3 (ix2 k 0)) 0) ?_ ?_
    · exact Fin.ext (by show (x 1).val = 0 + 1 * (x 1).val; omega)
    · refine Finset.sum_congr rfl fun c _ => congrArg (x1 (ix2 k c) * ·) (congrArg x0 ?_)
      have h0 : (x 0).val < 1 := (x 0).isLt
      funext a; apply Fin.ext
      match a with
      | ⟨0, _⟩ => show 1 + 1 * 0 = 1 + 1 * (x 0).val; omega
      | ⟨1, _⟩ => show 0 + 1 * c.val = c.val; omega
      | ⟨2, _⟩ => show 0 + 1 * (x 2).val = 0 + 1 * (x 2).val; rfl
  · show k2_pay7 (F := Ideal) _ _ _ _ x = _
    rw [pay7_eq]
    simp only [View.ld_unit_zero (S := S512x128) hz2, View.ld_unit_zero (S := S256x512) hz2, View.ld_unit_zero (S := S512x1) hz2]
    unfold tile blockFn
    refine Finset.sum_congr rfl fun k _ => ?_
    refine congrArg₂ (fun (a : Fin 256) (b : EReal) => x2 (ix2 a k) * max (b + x3 (ix2 k 0)) 0) ?_ ?_
    · exact Fin.ext (by show (x 1).val = 0 + 1 * (x 1).val; omega)
    · refine Finset.sum_congr rfl fun c _ => congrArg (x1 (ix2 k c) * ·) (congrArg x0 ?_)
      have h0 : (x 0).val < 1 := (x 0).isLt
      funext a; apply Fin.ext
      match a with
      | ⟨0, _⟩ => show 0 + 1 * 0 = 0 + 1 * (x 0).val; omega
      | ⟨1, _⟩ => show 0 + 1 * c.val = c.val; omega
      | ⟨2, _⟩ => show 4096 + 1 * (x 2).val = 4096 + 1 * (x 2).val; rfl
  · show k2_pay6 (F := Ideal) _ _ _ _ x = _
    rw [pay6_eq]
    simp only [View.ld_unit_zero (S := S512x128) hz2, View.ld_unit_zero (S := S256x512) hz2, View.ld_unit_zero (S := S512x1) hz2]
    unfold tile blockFn
    refine Finset.sum_congr rfl fun k _ => ?_
    refine congrArg₂ (fun (a : Fin 256) (b : EReal) => x2 (ix2 a k) * max (b + x3 (ix2 k 0)) 0) ?_ ?_
    · exact Fin.ext (by show (x 1).val = 0 + 1 * (x 1).val; omega)
    · refine Finset.sum_congr rfl fun c _ => congrArg (x1 (ix2 k c) * ·) (congrArg x0 ?_)
      have h0 : (x 0).val < 1 := (x 0).isLt
      funext a; apply Fin.ext
      match a with
      | ⟨0, _⟩ => show 0 + 1 * 0 = 0 + 1 * (x 0).val; omega
      | ⟨1, _⟩ => show 0 + 1 * c.val = c.val; omega
      | ⟨2, _⟩ => show 0 + 1 * (x 2).val = 0 + 1 * (x 2).val; rfl

end Cert.KernelIdeal.KValue

end
-- ==== Proof.KApply.lean ====
/-
  The array the third launch leaves.  Point `n` of the 16 grid points reads batch rows `2n, 2n+1` of the input and the
  three small operands whole, and writes rows `2n, 2n+1` of the result; its output block is the block function of
  what it loaded, so what it writes back is its block of the whole-array function
    (b, o, l) ↦ ∑_k W2(o,k) · max (∑_c W1s(k,c) · x(b,c,l) + shift(k,0), 0),
  and the 16 blocks tile the result array: it ends holding that function.
-/
import proofs.«132117_g2000306565302007_pallasbulk_1216_24_alg».proof.Proof.KApplyBlock

set_option maxRecDepth 16384

noncomputable section

open scoped BigOperators

namespace Cert.KernelIdeal.KValue

open Cert.KernelIdeal Cert.KernelIdeal.Gen
open Idealize.ShloMosaic Idealize.ShloMosaic.ValueIdx Idealize.ShloMosaic.TcCoe

/-- A block of the whole-array function: if the loaded input block is rows `2n, 2n+1` of `X` and the three small
    operands are loaded whole, the block function at `(d, o, l)` is the whole-array function at `(2n + d, o, l)`. -/
theorem blockFn_eq_aOut (X : Cert.Spec.SX.Idx → EReal) (W1s : Cert.Spec.SW1.Idx → EReal) (W2 : Cert.Spec.SW2.Idx → EReal)
    (SH : Cert.Spec.SCol.Idx → EReal)
    (x0 : S2x128x8192.Idx → EReal) (x1 : S512x128.Idx → EReal) (x2 : S256x512.Idx → EReal) (x3 : S512x1.Idx → EReal)
    (n : Nat) (hn : n < 16)
    (h0 : ∀ (d : Fin 2) (a : Fin 128) (l : Fin 8192), x0 (ix3 d a l) = X (ix3 (⟨n * 2 + d.val, by omega⟩ : Fin 32) a l))
    (h1 : x1 = W1s) (h2 : x2 = W2) (h3 : x3 = SH)
    (j : S2x256x8192.Idx) (i : Cert.Spec.SO.Idx)
    (hi0 : (i 0).val = n * 2 + (j 0).val) (hi1 : (i 1).val = (j 1).val) (hi2 : (i 2).val = (j 2).val) :
    blockFn x0 x1 x2 x3 j = Cert.Spec.aOut X W1s W2 SH i := by
  subst h1 h2 h3
  unfold blockFn Cert.Spec.aOut
  have e1 : (i 1 : Fin 256) = j 1 := Fin.ext hi1
  have e2 : (i 2 : Fin 8192) = j 2 := Fin.ext hi2
  have e0 : (i 0 : Fin 32) = ⟨n * 2 + (j 0).val, by have := (j 0).isLt; have : (j 0).val < 2 := (j 0).isLt; omega⟩ := Fin.ext hi0
  rw [e1, e2, e0]
  refine Finset.sum_congr rfl fun k _ => ?_
  refine congrArg (fun z => x2 (ix2 (j 1) k) * max (z + x3 (ix2 k 0)) 0) ?_
  exact Finset.sum_congr rfl fun a _ => congrArg (x1 (ix2 k a) * ·) (h0 (j 0) a (j 2))

variable (V : (c : Dev nD) → (b : Ref sig .tc) → Buf (Elt Ideal) ((c : Thread nD τ).loc b)) (c : Dev nD)

/-- The printed index maps over the 16 grid points: point `t` takes block `(t, 0, 0)` of the input and of the result, and
    block `(0, 0)` of each small operand. -/
theorem idx_facts : ∀ t : Fin cfg2.N,
    win2_0.index t (0 : Fin 3) = t.val ∧ win2_0.index t (1 : Fin 3) = 0 ∧ win2_0.index t (2 : Fin 3) = 0
    ∧ win2_4.index t (0 : Fin 3) = t.val ∧ win2_4.index t (1 : Fin 3) = 0 ∧ win2_4.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What point `t` writes back is its block of the whole-array function of the arrays as the launch finds them. -/
theorem flushed_eq (t : Fin cfg2.N) :
    (dat2 (F := Ideal) V c).flushed 4 t
      = ((cfg2.win 4).blk t).view.read (Elt Ideal)
          (Cert.Spec.aOut (V c main_arg0) (V c main_v3_0) (V c main_v3_2) (V c main_v3_1)) := by
  show (cfg2.win 4).cut (grid2.coords t) ((dat2 V c).after 4 t) = _
  rw [after2_4, out_eq]
  obtain ⟨e00, e01, e02, e40, e41, e42, e10, e11, e20, e21, e30, e31⟩ := idx_facts t
  funext j
  have ht : t.val < 16 := t.isLt
  refine blockFn_eq_aOut (V c main_arg0) (V c main_v3_0) (V c main_v3_2) (V c main_v3_1) _ _ _ _ t.val ht ?_ ?_ ?_ ?_ j
    (((cfg2.win 4).blk t).view.emb j) ?_ ?_ ?_
  · intro d a l
    show V c main_arg0 (((cfg2.win 0).blk t).view.emb (ix3 d a l)) = V c main_arg0 _
    refine congrArg (V c main_arg0) ?_
    funext ax; apply Fin.ext
    match ax with
    | ⟨0, _⟩ => show win2_0.index t (0 : Fin 3) * 2 + 1 * d.val = t.val * 2 + d.val; omega
    | ⟨1, _⟩ => show win2_0.index t (1 : Fin 3) * 128 + 1 * a.val = a.val; omega
    | ⟨2, _⟩ => show win2_0.index t (2 : Fin 3) * 8192 + 1 * l.val = l.val; omega
  · funext y
    show V c main_v3_0 (((cfg2.win 1).blk t).view.emb y) = V c main_v3_0 y
    refine congrArg (V c main_v3_0) ?_
    funext ax; apply Fin.ext
    match ax with
    | ⟨0, _⟩ => show win2_1.index t (0 : Fin 2) * 512 + 1 * (y 0).val = (y 0).val; omega
    | ⟨1, _⟩ => show win2_1.index t (1 : Fin 2) * 128 + 1 * (y 1).val = (y 1).val; omega
  · funext y
    show V c main_v3_2 (((cfg2.win 2).blk t).view.emb y) = V c main_v3_2 y
    refine congrArg (V c main_v3_2) ?_
    funext ax; apply Fin.ext
    match ax with
    | ⟨0, _⟩ => show win2_2.index t (0 : Fin 2) * 256 + 1 * (y 0).val = (y 0).val; omega
    | ⟨1, _⟩ => show win2_2.index t (1 : Fin 2) * 512 + 1 * (y 1).val = (y 1).val; omega
  · funext y
    show V c main_v3_1 (((cfg2.win 3).blk t).view.emb y) = V c main_v3_1 y
    refine congrArg (V c main_v3_1) ?_
    funext ax; apply Fin.ext
    match ax with
    | ⟨0, _⟩ => show win2_3.index t (0 : Fin 2) * 512 + 1 * (y 0).val = (y 0).val; omega
    | ⟨1, _⟩ => show win2_3.index t (1 : Fin 2) * 1 + 1 * (y 1).val = (y 1).val; omega
  · show win2_4.index t (0 : Fin 3) * 2 + 1 * (j 0).val = t.val * 2 + (j 0).val; omega
  · show win2_4.index t (1 : Fin 3) * 256 + 1 * (j 1).val = (j 1).val; omega
  · show win2_4.index t (2 : Fin 3) * 8192 + 1 * (j 2).val = (j 2).val; omega

/-- An index of the result array is in point `t`'s block iff each coordinate is in the block's range on its axis. -/
theorem mem_blk (t : Fin cfg2.N) (i : S32x256x8192.Idx) :
    i ∈ ((cfg2.win 4).blk t).view.set ↔ ∀ a : Fin 3, win2_4.index t a * S2x256x8192.size a ≤ (i a).val ∧ (i a).val < win2_4.index t a * S2x256x8192.size a + S2x256x8192.size a := by
  show i ∈ ((View.whole main_v4).slice (win2_4.rect t)).set ↔ _
  rw [View.set_slice_whole, Rect.mem_set_unit]
  exact Iff.rfl

/-- The blocks tile the result: the point covering `(b, o, l)` is `b / 2`. -/
theorem cover (i : S32x256x8192.Idx) :
    ∃ t : Fin cfg2.N, (cfg2.win 4).flush t = true ∧ i ∈ ((cfg2.win 4).blk t).view.set := by
  have hi0 : (i 0).val < 32 := (i 0).isLt
  have hi1 : (i 1).val < 256 := (i 1).isLt
  have hi2 : (i 2).val < 8192 := (i 2).isLt
  refine ⟨⟨(i 0).val / 2, by show (i 0).val / 2 < 16; omega⟩, flush2_4 _, ?_⟩
  rw [mem_blk]
  obtain ⟨-, -, -, e40, e41, e42, -⟩ := idx_facts ⟨(i 0).val / 2, by show (i 0).val / 2 < 16; omega⟩
  intro a
  match a with
  | ⟨0, _⟩ => show win2_4.index _ (0 : Fin 3) * 2 ≤ (i 0).val ∧ (i 0).val < win2_4.index _ (0 : Fin 3) * 2 + 2; rw [e40]; show (i 0).val / 2 * 2 ≤ _ ∧ _ < (i 0).val / 2 * 2 + 2; omega
  | ⟨1, _⟩ => show win2_4.index _ (1 : Fin 3) * 256 ≤ (i 1).val ∧ (i 1).val < win2_4.index _ (1 : Fin 3) * 256 + 256; rw [e41]; omega
  | ⟨2, _⟩ => show win2_4.index _ (2 : Fin 3) * 8192 ≤ (i 2).val ∧ (i 2).val < win2_4.index _ (2 : Fin 3) * 8192 + 8192; rw [e42]; omega

/-- THE ARRAY the third launch leaves in the result's buffer, for any contents `V` it is entered from. -/
theorem apply_out :
    (dat2 (F := Ideal) V c).arrAt 4 cfg2.N
      = Cert.Spec.aOut (V c main_arg0) (V c main_v3_0) (V c main_v3_2) (V c main_v3_1) :=
  (dat2 (F := Ideal) V c).arrAt_eq_of_cover 4 _ (fun t _ => flushed_eq V c t) cover

end Cert.KernelIdeal.KValue

end
-- ==== Proof.KValue.lean ====
/-
  The first program's value.  The buffer contents at the program's boundaries are read back one boundary at a time:
  the result is what the third launch leaves from the second launch's three results and the input; those are what
  the second launch leaves from the first launch's two partial-sum arrays, the first weight, and the scale and shift
  vectors viewed as columns by the two reshapes between the launches; the partial sums are what the first launch
  leaves from the input.  No launch and no reshape writes an argument, so every argument read along the way is the
  launch memory's.  Composed, the result array is the first arrangement's function of the five arguments.
-/
import proofs.«132117_g2000306565302007_pallasbulk_1216_24_alg».proof.Proof.KRun
import proofs.«132117_g2000306565302007_pallasbulk_1216_24_alg».proof.Proof.KStats
import proofs.«132117_g2000306565302007_pallasbulk_1216_24_alg».proof.Proof.KFold
import proofs.«132117_g2000306565302007_pallasbulk_1216_24_alg».proof.Proof.KApply
import proofs.«132117_g2000306565302007_pallasbulk_1216_24_alg».proof.Proof.Spec
import proofs.«132117_g2000306565302007_pallasbulk_1216_24_alg».proof.Proof.LibKeepdims
import Idealize.ShloMosaic.Lib.StableHlo.Run

set_option maxRecDepth 16384

noncomputable section

open scoped BigOperators

namespace Cert.KernelIdeal.KValue

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- A vector `[512]` reshaped to `[512, 1]` is the vector as a column. -/
theorem col_eq (v : S512.Idx → EReal) : shapeCast S512x1 v shapeCasts_S512_S512x1 = Cert.Spec.col v := by
  funext i
  obtain ⟨p, u, rfl⟩ : ∃ (p : Fin 512) (u : Fin 1), i = ix2 p u := ⟨i 0, i 1, eq_ix2 i⟩
  exact Keepdims.shapeCast_a_a1_apply v shapeCasts_S512_S512x1 p u

/-! ## After the first launch -/

theorem W1_arg1 : W1 m ρ c (Proc.devRef .tc main_arg1) = m ((c : Thread nD τ).loc main_arg1) :=
  (W1_of_ne m ρ c main_arg1 (by decide)).trans rfl
theorem W1_arg2 : W1 m ρ c (Proc.devRef .tc main_arg2) = m ((c : Thread nD τ).loc main_arg2) :=
  (W1_of_ne m ρ c main_arg2 (by decide)).trans rfl
theorem W1_arg3 : W1 m ρ c (Proc.devRef .tc main_arg3) = m ((c : Thread nD τ).loc main_arg3) :=
  (W1_of_ne m ρ c main_arg3 (by decide)).trans rfl
theorem W1_arg4 : W1 m ρ c (Proc.devRef .tc main_arg4) = m ((c : Thread nD τ).loc main_arg4) :=
  (W1_of_ne m ρ c main_arg4 (by decide)).trans rfl

/-! ## After the two reshapes: the second launch's entry contents -/

/-- The reshapes write only the two column buffers. -/
theorem W2_of_not_written (b : Ref sig .tc) (h1 : main_v1 ≠ b) (h2 : main_v2 ≠ b) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    repeat' apply And.intro
    all_goals first
      | exact StableHlo.devRef_ne_of_ne h1
      | exact StableHlo.devRef_ne_of_ne h2
      | exact StableHlo.devRef_ne_of_ne (Ne.symm h1)
      | exact StableHlo.devRef_ne_of_ne (Ne.symm h2)))

theorem W2_v1 : W2 m ρ c (Proc.devRef .tc main_v1) = Cert.Spec.col (m ((c : Thread nD τ).loc main_arg2)) := by
  show StableHlo.after (hostOps1 (F := Ideal)) (W1 m ρ c) (Proc.devRef .tc main_v1) = _
  after_results
  funext i
  show shapeCast S512x1 (W1 m ρ c (Proc.devRef .tc main_arg2)) shapeCasts_S512_S512x1 i = _
  rw [W1_arg2, col_eq]

theorem W2_v2 : W2 m ρ c (Proc.devRef .tc main_v2) = Cert.Spec.col (m ((c : Thread nD τ).loc main_arg3)) := by
  show StableHlo.after (hostOps1 (F := Ideal)) (W1 m ρ c) (Proc.devRef .tc main_v2) = _
  after_results
  funext i
  show shapeCast S512x1 (W1 m ρ c (Proc.devRef .tc main_arg3)) shapeCasts_S512_S512x1 i = _
  rw [W1_arg3, col_eq]

theorem W2_arg0 : W2 m ρ c (Proc.devRef .tc main_arg0) = m ((c : Thread nD τ).loc main_arg0) :=
  (W2_of_not_written m ρ c main_arg0 (by decide) (by decide)).trans
    ((W1_arr m ρ c 0).trans (((dat0 (V0 m ρ) c).arrAt_in 0 rfl _).trans (A_eq0 (V0 m ρ) c 0)))
theorem W2_arg1 : W2 m ρ c (Proc.devRef .tc main_arg1) = m ((c : Thread nD τ).loc main_arg1) :=
  (W2_of_not_written m ρ c main_arg1 (by decide) (by decide)).trans (W1_arg1 m ρ c)
theorem W2_arg4 : W2 m ρ c (Proc.devRef .tc main_arg4) = m ((c : Thread nD τ).loc main_arg4) :=
  (W2_of_not_written m ρ c main_arg4 (by decide) (by decide)).trans (W1_arg4 m ρ c)

/-- The Gram partials and the channel-sum partials the first launch leaves, from the input. -/
theorem W2_v0_0 : W2 m ρ c (Proc.devRef .tc main_v0_0) = Cert.Spec.kStatsG (m ((c : Thread nD τ).loc main_arg0)) :=
  (W2_of_not_written m ρ c main_v0_0 (by decide) (by decide)).trans ((W1_arr m ρ c 1).trans (stats_gram (V0 m ρ) c))
theorem W2_v0_1 : W2 m ρ c (Proc.devRef .tc main_v0_1) = Cert.Spec.kStatsS (m ((c : Thread nD τ).loc main_arg0)) :=
  (W2_of_not_written m ρ c main_v0_1 (by decide) (by decide)).trans ((W1_arr m ρ c 2).trans (stats_sum (V0 m ρ) c))

/-! ## After the second launch: the third launch's entry contents -/

theorem W3_arg0 : W3 m ρ c (Proc.devRef .tc main_arg0) = m ((c : Thread nD τ).loc main_arg0) :=
  (W3_of_ne m ρ c main_arg0 (by decide)).trans (W2_arg0 m ρ c)

theorem W3_v3_0 : W3 m ρ c (Proc.devRef .tc main_v3_0)
    = Cert.Spec.fW1s (Cert.Spec.kStatsG (m ((c : Thread nD τ).loc main_arg0))) (Cert.Spec.kStatsS (m ((c : Thread nD τ).loc main_arg0)))
        (m ((c : Thread nD τ).loc main_arg1)) (Cert.Spec.col (m ((c : Thread nD τ).loc main_arg2))) := by
  refine (W3_arr m ρ c 6).trans ((fold_w1s (V2 m ρ) c).trans ?_)
  dsimp only [V2]
  rw [W2_v0_0, W2_v0_1, W2_arg1, W2_v1]

theorem W3_v3_1 : W3 m ρ c (Proc.devRef .tc main_v3_1)
    = Cert.Spec.fShiftCol (Cert.Spec.kStatsG (m ((c : Thread nD τ).loc main_arg0))) (Cert.Spec.kStatsS (m ((c : Thread nD τ).loc main_arg0)))
        (m ((c : Thread nD τ).loc main_arg1)) (Cert.Spec.col (m ((c : Thread nD τ).loc main_arg2)))
        (Cert.Spec.col (m ((c : Thread nD τ).loc main_arg3))) := by
  refine (W3_arr m ρ c 7).trans ((fold_shift (V2 m ρ) c).trans ?_)
  dsimp only [V2]
  rw [W2_v0_0, W2_v0_1, W2_arg1, W2_v1, W2_v2]

theorem W3_v3_2 : W3 m ρ c (Proc.devRef .tc main_v3_2) = m ((c : Thread nD τ).loc main_arg4) := by
  refine (W3_arr m ρ c 8).trans ((fold_w2b (V2 m ρ) c).trans ?_)
  dsimp only [V2]
  rw [W2_arg4]

/-! ## The result -/

/-- The result's buffer after the third launch: the first arrangement's function of the five arguments. -/
theorem W4_result : W4 m ρ c (Proc.devRef .tc main_v4)
    = Cert.Spec.kResult (m ((c : Thread nD τ).loc main_arg0)) (m ((c : Thread nD τ).loc main_arg1))
        (m ((c : Thread nD τ).loc main_arg2)) (m ((c : Thread nD τ).loc main_arg3)) (m ((c : Thread nD τ).loc main_arg4)) := by
  refine (W4_arr m ρ c 4).trans ((apply_out (V3 m ρ) c).trans ?_)
  dsimp only [V3]
  rw [W3_arg0, W3_v3_0, W3_v3_1, W3_v3_2]
  rfl

/-- THE RUN: every weakly fair execution of the first program terminates without a fault, its result array the first
    arrangement's function of the argument arrays, the arguments unchanged. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v4)
        = Cert.Spec.kResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := Ideal)) _ _).mono (fun r h c => ⟨(h c).1.trans (W4_result m ρ c), (h c).2⟩) (run_main m ρ)

end Cert.KernelIdeal.KValue

end
-- ==== Proof.RRun.lean ====
/-
  The second program's run with its result named: from any memory with zero counters every weakly fair
  execution of @main on the TensorCores terminates without fault, the result buffer ends holding the last
  boundary's contents of the fold through @main, and the five argument arrays end as launched.
-/
import proofs.«132117_g2000306565302007_pallasbulk_1216_24_alg».proof.Proof.Gen.ReferenceIdeal.Frame
import Idealize.ShloMosaic.PureOps.Ideal

set_option maxRecDepth 16384

noncomputable section

namespace Cert.ReferenceIdeal.RValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: every final state holds, in the result buffer, the contents `W3` of the last segment boundary,
    and each argument array as launched. -/
theorem run_main : θ_run defs (onTc (τ := τ) (main (F := Ideal))) ⟨m, fun _ => 0, ρ⟩ (fun r => ∀ c : Dev nD,
      r.2.mem ((c.tc : Thread nD τ).loc main_v21) = W3 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v21 (by decide))),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.ReferenceIdeal.RValue

end
-- ==== Proof.RApplyTile.lean ====
/-
  What the last stage's body stores at one grid point, index by index: from its five loaded blocks — a
  [1, 128, 4096] tile x of the input, the weights W1 [512, 128] and W2 [256, 512], the scale and shift
  columns [512, 1] — the [1, 256, 4096] tile
    out(0, o, l) = sum_k W2(o, k) * max ((sum_c W1(k, c) * x(0, c, l)) * scale(k, 0) + shift(k, 0), 0).
-/
import proofs.«132117_g2000306565302007_pallasbulk_1216_24_alg».proof.Proof.Gen.ReferenceIdeal.Frame
import proofs.«132117_g2000306565302007_pallasbulk_1216_24_alg».proof.Proof.LibMatmulPlain
import proofs.«132117_g2000306565302007_pallasbulk_1216_24_alg».proof.Proof.LibKeepdims
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

open scoped BigOperators

namespace Cert.ReferenceIdeal.RValue.Apply

open Cert.ReferenceIdeal Cert.ReferenceIdeal.Gen
open Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- The hidden activation of the tile: the first product at (k, l), the tile's leading unit axis dropped. -/
theorem hidden_apply (x : FVec Ideal S1x128x4096 .f32) (w1 : FVec Ideal S512x128 .f32) (k : Fin 512) (l : Fin 4096) :
    matmul dot_S512x128_S128x4096_S512x4096_1_0_0_1_n_n none w1
        (shapeCast S128x4096 x shapeCasts_S1x128x4096_S128x4096) (constant (F := Ideal) S512x4096 .f32 0x00000000#32) (ix2 k l)
      = ∑ c : Fin 128, w1 (ix2 k c) * x (ix3 (0 : Fin 1) c l) := by
  refine (Cert.LibMatmulPlain.matmul_plain_zero_apply none w1 _ k l).trans ?_
  refine Finset.sum_congr rfl fun c _ => ?_
  refine congrArg (w1 (ix2 k c) * ·) ?_
  refine (shapeCast_dropUnit_apply ![128, 4096] x _ (ix2 c l)).trans ?_
  refine congrArg x ?_
  funext a; fin_cases a <;> rfl

/-- A column of per-channel numbers spread along the positions reads its entry of row k. -/
theorem column_apply (v : FVec Ideal S512x1 .f32) (k : Fin 512) (l : Fin 4096) :
    broadcastTo S512x4096 (shapeCast S512x1 v shapeCasts_S512x1_S512x1) broadcasts_S512x1_S512x4096 (ix2 k l) = v (ix2 k (0 : Fin 1)) := by
  refine (Cert.Keepdims.broadcastTo_a1_ab_apply _ _ k l).trans ?_
  rw [shapeCast_self]

/-- The tile the body stores, at an index: the second product of the rectified, scaled and shifted hidden activation. -/
theorem pay_apply (w2 : FVec Ideal S256x512 .f32) (sc sh : FVec Ideal S512x1 .f32) (x : FVec Ideal S1x128x4096 .f32)
    (w1 : FVec Ideal S512x128 .f32) (o : Fin 256) (l : Fin 4096) :
    k1_pay1 (F := Ideal) w2 sc sh x w1 (ix3 (0 : Fin 1) o l)
      = ∑ k : Fin 512, w2 (ix2 o k) * max ((∑ c : Fin 128, w1 (ix2 k c) * x (ix3 (0 : Fin 1) c l)) * sc (ix2 k (0 : Fin 1)) + sh (ix2 k (0 : Fin 1))) 0 := by
  unfold k1_pay1
  refine (shapeCast_addUnit_apply ![256, 4096] _ _ (ix3 (0 : Fin 1) o l)).trans ?_
  have hj : (fun a : Fin 2 => (ix3 (0 : Fin 1) o l) a.succ) = ix2 o l := by funext a; fin_cases a <;> rfl
  refine (congrArg _ hj).trans ?_
  refine (Cert.LibMatmulPlain.matmul_plain_zero_apply none w2 _ o l).trans ?_
  refine Finset.sum_congr rfl fun k _ => ?_
  refine congrArg (w2 (ix2 o k) * ·) ?_
  exact congrArg₂ max (congrArg₂ (· + ·) (congrArg₂ (· * ·) (hidden_apply x w1 k l) (column_apply sc k l)) (column_apply sh k l))
    Ideal.ofBits_zero_f32

end Cert.ReferenceIdeal.RValue.Apply

end
-- ==== Proof.RApply.lean ====
/-
  The second program's last stage as one function of the arrays its region finds.

  Region 1 runs on a 32 x 2 grid.  Point t = 2 n + h reads batch row n, positions 4096 h .. 4096 h + 4095 of x
  (a [1, 128, 4096] tile), the whole of W1, W2 and of the scale and shift columns, and writes the [1, 256, 4096] tile
    out(n, o, 4096 h + l) = sum_k W2(o, k) * max ((sum_c W1(k, c) * x(n, c, 4096 h + l)) * scale_k + shift_k, 0)
  to the same batch row and positions of the result.  What a point writes back is therefore its block of ONE
  whole-array function (the stage bOut of the arrays the region finds), and the 64 blocks cover the result: the
  index (b, o, p) lies in the block of point 2 b + p / 4096.  So the result array ends holding that function.
-/
import proofs.«132117_g2000306565302007_pallasbulk_1216_24_alg».proof.Proof.RApplyTile
import proofs.«132117_g2000306565302007_pallasbulk_1216_24_alg».proof.Proof.Spec

set_option maxRecDepth 16384

noncomputable section

open scoped BigOperators

namespace Cert.ReferenceIdeal.RValue

open Cert.ReferenceIdeal Cert.ReferenceIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Apply

/-- The printed index maps over the 64 grid points: the input tile and the result tile sit at batch row t / 2 and
    half t % 2, the other four windows stay on their whole arrays. -/
theorem idx_facts : ∀ t : Fin cfg1.N,
    win1_0.index t (0 : Fin 3) = t.val / 2 ∧ win1_0.index t (1 : Fin 3) = 0 ∧ win1_0.index t (2 : Fin 3) = t.val % 2
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 2 ∧ win1_5.index t (1 : Fin 3) = 0 ∧ win1_5.index t (2 : Fin 3) = t.val % 2 :=
  (by decide +kernel : ∀ t : Fin grid1.N, _)

/-- One tile against the whole arrays: when the loaded input tile is batch row n, half h of X and the other four
    loaded blocks are the whole arrays, the stored tile at (0, o, l) is the stage's value at (n, o, 4096 h + l). -/
theorem tile_eq (X : FVec Ideal S32x128x8192 .f32) (W1 : FVec Ideal S512x128 .f32) (W2 : FVec Ideal S256x512 .f32)
    (SC SH : FVec Ideal S512x1 .f32)
    (x0 : FVec Ideal S1x128x4096 .f32) (x1 : FVec Ideal S512x128 .f32) (x2 : FVec Ideal S256x512 .f32)
    (x3 x4 : FVec Ideal S512x1 .f32) (n : Fin 32) (h : Fin 2)
    (h0 : ∀ (cc : Fin 128) (l : Fin 4096), x0 (ix3 (0 : Fin 1) cc l) = X (ix3 n cc (Cert.Spec.pos2 h l)))
    (h1 : x1 = W1) (h2 : x2 = W2) (h3 : x3 = SC) (h4 : x4 = SH) (o : Fin 256) (l : Fin 4096) :
    k1_pay1 (F := Ideal) x2 x3 x4 x0 x1 (ix3 (0 : Fin 1) o l)
      = Cert.Spec.bOut X W1 W2 SC SH (ix3 n o (Cert.Spec.pos2 h l)) := by
  subst h1 h2 h3 h4
  refine (pay_apply x2 x3 x4 x0 x1 o l).trans ?_
  unfold Cert.Spec.bOut
  refine Finset.sum_congr rfl fun k _ => ?_
  simp only [h0]

/-- WHAT POINT t WRITES BACK is its block of the stage's value at the arrays the region finds. -/
theorem flushed_eq (c : Dev nD) (t : Fin cfg1.N) :
    (dat1 V c).flushed 5 t = ((cfg1.win 5).blk t).view.read (Elt Ideal)
      (Cert.Spec.bOut (V c main_arg0) (V c main_arg1) (V c main_arg4) (V c main_v19) (V c main_v20)) := by
  show (cfg1.win 5).cut (grid1.coords t) ((dat1 V c).after 5 t) = _
  rw [after1_5]
  unfold out1_5
  rw [View.canon_unit_zero hz3]
  simp only [View.ld_unit_zero (S := S1x128x4096) hz3, View.ld_unit_zero (S := S512x128) hz2, View.ld_unit_zero (S := S256x512) hz2, View.ld_unit_zero (S := S512x1) hz2]
  funext j
  obtain ⟨e00, e01, e02, e10, e11, e20, e21, e30, e31, e40, e41, e50, e51, e52⟩ := idx_facts t
  have ht : t.val < 64 := t.isLt
  have hj0 : (j 0).val < 1 := (j 0).isLt
  show k1_pay1 (F := Ideal) (iblk1 V c 2 t) (iblk1 V c 3 t) (iblk1 V c 4 t) (iblk1 V c 0 t) (iblk1 V c 1 t) j
      = Cert.Spec.bOut (V c main_arg0) (V c main_arg1) (V c main_arg4) (V c main_v19) (V c main_v20) (((cfg1.win 5).blk t).view.emb j)
  have hy : j = ix3 (0 : Fin 1) (j 1) (j 2) := by
    funext a
    match a with
    | ⟨0, _⟩ => exact Fin.ext (by show (j 0).val = 0; omega)
    | ⟨1, _⟩ => rfl
    | ⟨2, _⟩ => rfl
  have hi : ((cfg1.win 5).blk t).view.emb j
      = ix3 (⟨t.val / 2, by omega⟩ : Fin 32) (j 1) (Cert.Spec.pos2 (⟨t.val % 2, by omega⟩ : Fin 2) (j 2)) := by
    funext a; apply Fin.ext
    match a with
    | ⟨0, _⟩ => show win1_5.index t (0 : Fin 3) * 1 + 1 * (j 0).val = t.val / 2; omega
    | ⟨1, _⟩ => show win1_5.index t (1 : Fin 3) * 256 + 1 * (j 1).val = (j 1).val; omega
    | ⟨2, _⟩ => show win1_5.index t (2 : Fin 3) * 4096 + 1 * (j 2).val = 4096 * (t.val % 2) + (j 2).val; omega
  have h0 : ∀ (cc : Fin 128) (l : Fin 4096), (iblk1 V c 0 t : FVec Ideal S1x128x4096 .f32) (ix3 (0 : Fin 1) cc l)
      = (V c main_arg0 : FVec Ideal S32x128x8192 .f32) (ix3 (⟨t.val / 2, by omega⟩ : Fin 32) cc (Cert.Spec.pos2 (⟨t.val % 2, by omega⟩ : Fin 2) l)) := fun cc l => by
    show V c main_arg0 (((cfg1.win 0).blk t).view.emb (ix3 (0 : Fin 1) cc l)) = _
    refine congrArg (V c main_arg0) ?_
    funext a; apply Fin.ext
    match a with
    | ⟨0, _⟩ => show win1_0.index t (0 : Fin 3) * 1 + 1 * 0 = t.val / 2; omega
    | ⟨1, _⟩ => show win1_0.index t (1 : Fin 3) * 128 + 1 * cc.val = cc.val; omega
    | ⟨2, _⟩ => show win1_0.index t (2 : Fin 3) * 4096 + 1 * l.val = 4096 * (t.val % 2) + l.val; omega
  have h1 : (iblk1 V c 1 t : FVec Ideal S512x128 .f32) = V c main_arg1 := by
    funext y
    show V c main_arg1 (((cfg1.win 1).blk t).view.emb y) = V c main_arg1 y
    refine congrArg (V c main_arg1) ?_
    funext a; apply Fin.ext
    match a with
    | ⟨0, _⟩ => show win1_1.index t (0 : Fin 2) * 512 + 1 * (y 0).val = (y 0).val; omega
    | ⟨1, _⟩ => show win1_1.index t (1 : Fin 2) * 128 + 1 * (y 1).val = (y 1).val; omega
  have h2 : (iblk1 V c 2 t : FVec Ideal S256x512 .f32) = V c main_arg4 := by
    funext y
    show V c main_arg4 (((cfg1.win 2).blk t).view.emb y) = V c main_arg4 y
    refine congrArg (V c main_arg4) ?_
    funext a; apply Fin.ext
    match a with
    | ⟨0, _⟩ => show win1_2.index t (0 : Fin 2) * 256 + 1 * (y 0).val = (y 0).val; omega
    | ⟨1, _⟩ => show win1_2.index t (1 : Fin 2) * 512 + 1 * (y 1).val = (y 1).val; omega
  have h3 : (iblk1 V c 3 t : FVec Ideal S512x1 .f32) = V c main_v19 := by
    funext y
    show V c main_v19 (((cfg1.win 3).blk t).view.emb y) = V c main_v19 y
    refine congrArg (V c main_v19) ?_
    funext a; apply Fin.ext
    match a with
    | ⟨0, _⟩ => show win1_3.index t (0 : Fin 2) * 512 + 1 * (y 0).val = (y 0).val; omega
    | ⟨1, _⟩ => show win1_3.index t (1 : Fin 2) * 1 + 1 * (y 1).val = (y 1).val; omega
  have h4 : (iblk1 V c 4 t : FVec Ideal S512x1 .f32) = V c main_v20 := by
    funext y
    show V c main_v20 (((cfg1.win 4).blk t).view.emb y) = V c main_v20 y
    refine congrArg (V c main_v20) ?_
    funext a; apply Fin.ext
    match a with
    | ⟨0, _⟩ => show win1_4.index t (0 : Fin 2) * 512 + 1 * (y 0).val = (y 0).val; omega
    | ⟨1, _⟩ => show win1_4.index t (1 : Fin 2) * 1 + 1 * (y 1).val = (y 1).val; omega
  refine (congrArg (k1_pay1 (F := Ideal) (iblk1 V c 2 t) (iblk1 V c 3 t) (iblk1 V c 4 t) (iblk1 V c 0 t) (iblk1 V c 1 t)) hy).trans ?_
  refine Eq.trans ?_ (congrArg (Cert.Spec.bOut (V c main_arg0) (V c main_arg1) (V c main_arg4) (V c main_v19) (V c main_v20)) hi).symm
  exact tile_eq (V c main_arg0) (V c main_arg1) (V c main_arg4) (V c main_v19) (V c main_v20)
    (iblk1 V c 0 t) (iblk1 V c 1 t) (iblk1 V c 2 t) (iblk1 V c 3 t) (iblk1 V c 4 t)
    (⟨t.val / 2, by omega⟩ : Fin 32) (⟨t.val % 2, by omega⟩ : Fin 2) h0 h1 h2 h3 h4 (j 1) (j 2)

/-- An index of the result is in point t's block iff each coordinate is in the block's range on its axis. -/
theorem mem_blk (t : Fin cfg1.N) (i : S32x256x8192.Idx) :
    i ∈ ((cfg1.win 5).blk t).view.set ↔ ∀ a : Fin 3, win1_5.index t a * S1x256x4096.size a ≤ (i a).val
      ∧ (i a).val < win1_5.index t a * S1x256x4096.size a + S1x256x4096.size a := by
  show i ∈ ((View.whole main_v21).slice (win1_5.rect t)).set ↔ _
  rw [View.set_slice_whole, Rect.mem_set_unit]
  exact Iff.rfl

/-- The 64 blocks cover the result: (b, o, p) lies in the block of point 2 b + p / 4096. -/
theorem cover (i : S32x256x8192.Idx) :
    ∃ t : Fin cfg1.N, (cfg1.win 5).flush t = true ∧ i ∈ ((cfg1.win 5).blk t).view.set := by
  have hi0 : (i 0).val < 32 := (i 0).isLt
  have hi1 : (i 1).val < 256 := (i 1).isLt
  have hi2 : (i 2).val < 8192 := (i 2).isLt
  obtain ⟨t, ht⟩ : ∃ t : Fin cfg1.N, t.val = 2 * (i 0).val + (i 2).val / 4096 :=
    ⟨⟨2 * (i 0).val + (i 2).val / 4096, by show _ < 64; omega⟩, rfl⟩
  obtain ⟨-, -, -, -, -, -, -, -, -, -, -, e50, e51, e52⟩ := idx_facts t
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 4096 ≤ (i 2).val ∧ (i 2).val < win1_5.index t (2 : Fin 3) * 4096 + 4096; omega

end Apply

/-- REGION 1's RESULT ARRAY is the last stage's value at the arrays the region finds. -/
theorem apply_out (c : Dev nD) :
    (dat1 V c).arrAt 5 cfg1.N
      = Cert.Spec.bOut (V c main_arg0) (V c main_arg1) (V c main_arg4) (V c main_v19) (V c main_v20) :=
  (dat1 V c).arrAt_eq_of_cover 5
    (Cert.Spec.bOut (V c main_arg0) (V c main_arg1) (V c main_arg4) (V c main_v19) (V c main_v20))
    (fun t _ => Apply.flushed_eq V c t) Apply.cover

end Cert.ReferenceIdeal.RValue

end
-- ==== Proof.RStatsPay.lean ====
/-
  The first region of the second arrangement, read at an index of what its body stores.

  On a tile — one batch row and one half of the positions, a block `[1, 128, 4096]` of the input — the body forms the
  hidden activation `h(k, l) = ∑_c W1(k, c) · x(0, c, l)` as a matrix product accumulated into zero, sums `h` and `h · h`
  along the positions, adds each sum to a zero accumulator and stores it as a `[1, 512, 1]` block. Read at channel `k`
  the two stored values are `∑_l h(k, l)` and `∑_l h(k, l)²`.
-/
import proofs.«132117_g2000306565302007_pallasbulk_1216_24_alg».proof.Proof.Gen.ReferenceIdeal.Skeleton
import proofs.«132117_g2000306565302007_pallasbulk_1216_24_alg».proof.Proof.LibMatmulPlain
import proofs.«132117_g2000306565302007_pallasbulk_1216_24_alg».proof.Proof.LibRows
import Idealize.ShloMosaic.Lib.Pipeline.Value
import Idealize.ShloMosaic.Lib.ValueIdx

noncomputable section

open scoped BigOperators
open Idealize.ShloMosaic Idealize.ShloMosaic.ValueIdx

namespace Cert.ReferenceIdeal.RValue

open Cert.ReferenceIdeal Cert.ReferenceIdeal.Gen

/-- The hidden activation of a tile at channel `k` and position `l`: row `k` of the weight against column `l` of the block. -/
theorem hidden_apply (x0 : Vec Ideal S1x128x4096 .f32) (x1 : Vec Ideal S512x128 .f32) (k : Fin 512) (l : Fin 4096) :
    k0_pay1 (F := Ideal) x0 x1 (ix2 k l) = ∑ c : Fin 128, x1 (ix2 k c) * x0 (ix3 (0 : Fin 1) c l) := by
  unfold k0_pay1
  show matmul (DotDims.plain 512 128 4096) none x1 (shapeCast S128x4096 x0 shapeCasts_S1x128x4096_S128x4096)
      (constant (F := Ideal) ⟨2, ![512, 4096]⟩ .f32 0x00000000#32) (ix2 k l) = _
  rw [Cert.LibMatmulPlain.matmul_plain_zero_apply]
  refine Finset.sum_congr rfl fun c _ => ?_
  congr 1
  refine shapeCast_apply x0 _ (ix2 c l) (ix3 (0 : Fin 1) c l) ?_
  rw [Shape.rowMajor_val_three, Shape.rowMajor_val_two]
  show (0 * 128 + c.val) * 4096 + l.val = c.val * 4096 + l.val
  omega

/-- A tile's channel sum of the hidden activation, as the body stores it. -/
theorem tile_sum_apply (x0 : Vec Ideal S1x128x4096 .f32) (x1 : Vec Ideal S512x128 .f32) (u : Fin 1) (k : Fin 512) (u' : Fin 1) :
    k0_pay2 (F := Ideal) x0 x1 (ix3 u k u') = ∑ l : Fin 4096, ∑ c : Fin 128, x1 (ix2 k c) * x0 (ix3 (0 : Fin 1) c l) := by
  unfold k0_pay2
  refine (shapeCast_apply _ shapeCasts_S512x1_S1x512x1 (ix3 u k u') (ix2 k (0 : Fin 1)) ?_).trans ?_
  · rw [Shape.rowMajor_val_three, Shape.rowMajor_val_two]
    show k.val * 1 + 0 = (u.val * 512 + k.val) * 1 + u'.val
    omega
  rw [addf_apply, broadcast_apply]
  show Ideal.ofBits .f32 0x00000000#32 + _ = _
  rw [Ideal.ofBits_zero_f32, zero_add, Cert.Keepdims.shapeCast_a_a1_apply]
  refine (Cert.LibRows.lane_sum_apply (k0_pay1 (F := Ideal) x0 x1) _ _ _ _ k).trans ?_
  exact Finset.sum_congr rfl fun l _ => hidden_apply x0 x1 k l

/-- A tile's channel sum of the squared hidden activation, as the body stores it. -/
theorem tile_sumsq_apply (x0 : Vec Ideal S1x128x4096 .f32) (x1 : Vec Ideal S512x128 .f32) (u : Fin 1) (k : Fin 512) (u' : Fin 1) :
    k0_pay3 (F := Ideal) x0 x1 (ix3 u k u')
      = ∑ l : Fin 4096, (∑ c : Fin 128, x1 (ix2 k c) * x0 (ix3 (0 : Fin 1) c l)) * (∑ c : Fin 128, x1 (ix2 k c) * x0 (ix3 (0 : Fin 1) c l)) := by
  unfold k0_pay3
  refine (shapeCast_apply _ shapeCasts_S512x1_S1x512x1 (ix3 u k u') (ix2 k (0 : Fin 1)) ?_).trans ?_
  · rw [Shape.rowMajor_val_three, Shape.rowMajor_val_two]
    show k.val * 1 + 0 = (u.val * 512 + k.val) * 1 + u'.val
    omega
  rw [addf_apply, broadcast_apply]
  show Ideal.ofBits .f32 0x00000000#32 + _ = _
  rw [Ideal.ofBits_zero_f32, zero_add, Cert.Keepdims.shapeCast_a_a1_apply]
  refine (Cert.LibRows.lane_sum_apply (mulf (k0_pay1 (F := Ideal) x0 x1) (k0_pay1 (F := Ideal) x0 x1)) _ _ _ _ k).trans ?_
  refine Finset.sum_congr rfl fun l _ => ?_
  rw [mulf_apply, hidden_apply]

/-- The same two readings at any index of the stored block: the unit coordinates carry nothing. -/
theorem tile_sum_at (x0 : Vec Ideal S1x128x4096 .f32) (x1 : Vec Ideal S512x128 .f32) (j : S1x512x1.Idx) :
    k0_pay2 (F := Ideal) x0 x1 j = ∑ l : Fin 4096, ∑ c : Fin 128, x1 (ix2 (j 1) c) * x0 (ix3 (0 : Fin 1) c l) := by
  obtain ⟨u, k, u', rfl⟩ : ∃ (u : Fin 1) (k : Fin 512) (u' : Fin 1), j = ix3 u k u' := ⟨j 0, j 1, j 2, eq_ix3 j⟩
  exact tile_sum_apply x0 x1 u k u'

theorem tile_sumsq_at (x0 : Vec Ideal S1x128x4096 .f32) (x1 : Vec Ideal S512x128 .f32) (j : S1x512x1.Idx) :
    k0_pay3 (F := Ideal) x0 x1 j
      = ∑ l : Fin 4096, (∑ c : Fin 128, x1 (ix2 (j 1) c) * x0 (ix3 (0 : Fin 1) c l)) * (∑ c : Fin 128, x1 (ix2 (j 1) c) * x0 (ix3 (0 : Fin 1) c l)) := by
  obtain ⟨u, k, u', rfl⟩ : ∃ (u : Fin 1) (k : Fin 512) (u' : Fin 1), j = ix3 u k u' := ⟨j 0, j 1, j 2, eq_ix3 j⟩
  exact tile_sumsq_apply x0 x1 u k u'

end Cert.ReferenceIdeal.RValue

end
-- ==== Proof.RStats.lean ====
/-
  The first region of the second arrangement, from blocks to arrays.

  The region runs over 64 points; point `t` reads batch row `t / 2`, half `t % 2` of the input (a block
  `[1, 128, 4096]`) and the whole first weight, and writes tile `t` of each of its two results (a block `[1, 512, 1]` of
  `[64, 512, 1]`). What point `t` writes back is block `t` of ONE function of the region's entry contents — the tile sums
  of `h`, resp. of `h²`, of the specification — and the 64 blocks cover the result arrays, so each array ends holding
  that function.
-/
import proofs.«132117_g2000306565302007_pallasbulk_1216_24_alg».proof.Proof.Gen.ReferenceIdeal.Frame
import proofs.«132117_g2000306565302007_pallasbulk_1216_24_alg».proof.Proof.Spec
import proofs.«132117_g2000306565302007_pallasbulk_1216_24_alg».proof.Proof.RStatsPay
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.ReferenceIdeal.RValue

open Cert.ReferenceIdeal Cert.ReferenceIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: point `t` writes tile `t` of either result, reads batch row `t / 2`, half
    `t % 2` of the input, and the whole weight. -/
theorem idx_facts : ∀ t : Fin cfg0.N,
    win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0 :=
  (by decide +kernel : ∀ t : Fin grid0.N, _)

variable (V : (c : Dev nD) → (b : Ref sig .tc) → Buf (Elt Ideal) ((c : Thread nD τ).loc b)) (c : Dev nD)

/-- What point `t` writes back to result 0 is block `t` of the specification's tile sum. -/
theorem flushed_sum_eq (t : Fin cfg0.N) :
    (dat0 (F := Ideal) V c).flushed 2 t
      = ((cfg0.win 2).blk t).view.read (Elt Ideal) (Cert.Spec.rStatsSum (V c main_arg0) (V c main_arg1)) := by
  show (cfg0.win 2).cut (grid0.coords t) ((dat0 (F := Ideal) V c).after 2 t) = _
  rw [after0_2]
  unfold out0_2
  rw [View.canon_unit_zero hz3]
  simp only [View.ld_unit_zero (S := S1x128x4096) hz3, View.ld_unit_zero (S := S512x128) hz2]
  obtain ⟨e20, e21, e22, e30, e31, e32, e00, e01, e02, e10, e11⟩ := idx_facts t
  funext j
  refine (tile_sum_at _ _ _).trans ?_
  show _ = Cert.Spec.rStatsSum (V c main_arg0) (V c main_arg1) (((cfg0.win 2).blk t).view.emb j)
  have hj0 : (j 0).val < 1 := (j 0).isLt
  have hw (cc : Fin 128) : iblk0 V c 1 t (ix2 ((win0 2).xinj (grid0.coords t) j 1) cc)
      = V c main_arg1 (ix2 ((((cfg0.win 2).blk t).view.emb j) 1) cc) := by
    show V c main_arg1 (((cfg0.win 1).blk t).view.emb (ix2 ((win0 2).xinj (grid0.coords t) j 1) cc)) = _
    refine congrArg (V c main_arg1) (funext fun a => Fin.ext ?_)
    match a with
    | ⟨0, _⟩ => show win0_1.index t (0 : Fin 2) * 512 + 1 * (j 1).val = win0_2.index t (1 : Fin 3) * 512 + 1 * (j 1).val; omega
    | ⟨1, _⟩ => show win0_1.index t (1 : Fin 2) * 128 + 1 * cc.val = cc.val; omega
  have hx (cc : Fin 128) (l : Fin 4096) : iblk0 V c 0 t (ix3 (0 : Fin 1) cc l)
      = V c main_arg0 (ix3 (Cert.Spec.tileRow ((((cfg0.win 2).blk t).view.emb j) 0)) cc
          (Cert.Spec.pos2 (Cert.Spec.tileHalf ((((cfg0.win 2).blk t).view.emb j) 0)) l)) := by
    show V c main_arg0 (((cfg0.win 0).blk t).view.emb (ix3 (0 : Fin 1) cc l)) = _
    refine congrArg (V c main_arg0) (funext fun a => Fin.ext ?_)
    match a with
    | ⟨0, _⟩ => show win0_0.index t (0 : Fin 3) * 1 + 1 * 0 = (win0_2.index t (0 : Fin 3) * 1 + 1 * (j 0).val) / 2; omega
    | ⟨1, _⟩ => show win0_0.index t (1 : Fin 3) * 128 + 1 * cc.val = cc.val; omega
    | ⟨2, _⟩ => show win0_0.index t (2 : Fin 3) * 4096 + 1 * l.val = 4096 * ((win0_2.index t (0 : Fin 3) * 1 + 1 * (j 0).val) % 2) + l.val; omega
  unfold Cert.Spec.rStatsSum Cert.Spec.rH
  simp only [hw, hx]

/-- An index of the result array is in point `t`'s block iff each coordinate is in the block's range on its axis. -/
theorem mem_blk_sum (t : Fin cfg0.N) (i : S64x512x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0_0).slice (win0_2.rect t)).set ↔ _
  rw [View.set_slice_whole, Rect.mem_set_unit]
  exact Iff.rfl

/-- Tile `q` of the result is point `q`'s block: the 64 blocks cover the array. -/
theorem cover_sum (i : S64x512x1.Idx) : ∃ t : Fin cfg0.N, (cfg0.win 2).flush t = true ∧ i ∈ ((cfg0.win 2).blk t).view.set := by
  have hN : cfg0.N = 64 := N_0
  have h0 : (i 0).val < 64 := (i 0).isLt
  have h1 : (i 1).val < 512 := (i 1).isLt
  have h2 : (i 2).val < 1 := (i 2).isLt
  obtain ⟨t, ht⟩ : ∃ t : Fin cfg0.N, t.val = (i 0).val := ⟨⟨(i 0).val, by omega⟩, rfl⟩
  obtain ⟨e20, e21, e22, e30, e31, e32, -⟩ := idx_facts t
  refine ⟨t, flush0_2 t, ?_⟩
  rw [mem_blk_sum]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

/-- The region leaves result 0 holding the specification's tile sums of its entry contents. -/
theorem stats_sum : (dat0 (F := Ideal) V c).arrAt 2 cfg0.N = Cert.Spec.rStatsSum (V c main_arg0) (V c main_arg1) :=
  (dat0 (F := Ideal) V c).arrAt_eq_of_cover 2 (Cert.Spec.rStatsSum (V c main_arg0) (V c main_arg1))
    (fun t _ => flushed_sum_eq V c t) (cover_sum)

/-- What point `t` writes back to result 1 is block `t` of the specification's tile sumsq. -/
theorem flushed_sumsq_eq (t : Fin cfg0.N) :
    (dat0 (F := Ideal) V c).flushed 3 t
      = ((cfg0.win 3).blk t).view.read (Elt Ideal) (Cert.Spec.rStatsSumsq (V c main_arg0) (V c main_arg1)) := by
  show (cfg0.win 3).cut (grid0.coords t) ((dat0 (F := Ideal) V c).after 3 t) = _
  rw [after0_3]
  unfold out0_3
  rw [View.canon_unit_zero hz3]
  simp only [View.ld_unit_zero (S := S1x128x4096) hz3, View.ld_unit_zero (S := S512x128) hz2]
  obtain ⟨e20, e21, e22, e30, e31, e32, e00, e01, e02, e10, e11⟩ := idx_facts t
  funext j
  refine (tile_sumsq_at _ _ _).trans ?_
  show _ = Cert.Spec.rStatsSumsq (V c main_arg0) (V c main_arg1) (((cfg0.win 3).blk t).view.emb j)
  have hj0 : (j 0).val < 1 := (j 0).isLt
  have hw (cc : Fin 128) : iblk0 V c 1 t (ix2 ((win0 3).xinj (grid0.coords t) j 1) cc)
      = V c main_arg1 (ix2 ((((cfg0.win 3).blk t).view.emb j) 1) cc) := by
    show V c main_arg1 (((cfg0.win 1).blk t).view.emb (ix2 ((win0 3).xinj (grid0.coords t) j 1) cc)) = _
    refine congrArg (V c main_arg1) (funext fun a => Fin.ext ?_)
    match a with
    | ⟨0, _⟩ => show win0_1.index t (0 : Fin 2) * 512 + 1 * (j 1).val = win0_3.index t (1 : Fin 3) * 512 + 1 * (j 1).val; omega
    | ⟨1, _⟩ => show win0_1.index t (1 : Fin 2) * 128 + 1 * cc.val = cc.val; omega
  have hx (cc : Fin 128) (l : Fin 4096) : iblk0 V c 0 t (ix3 (0 : Fin 1) cc l)
      = V c main_arg0 (ix3 (Cert.Spec.tileRow ((((cfg0.win 3).blk t).view.emb j) 0)) cc
          (Cert.Spec.pos2 (Cert.Spec.tileHalf ((((cfg0.win 3).blk t).view.emb j) 0)) l)) := by
    show V c main_arg0 (((cfg0.win 0).blk t).view.emb (ix3 (0 : Fin 1) cc l)) = _
    refine congrArg (V c main_arg0) (funext fun a => Fin.ext ?_)
    match a with
    | ⟨0, _⟩ => show win0_0.index t (0 : Fin 3) * 1 + 1 * 0 = (win0_3.index t (0 : Fin 3) * 1 + 1 * (j 0).val) / 2; omega
    | ⟨1, _⟩ => show win0_0.index t (1 : Fin 3) * 128 + 1 * cc.val = cc.val; omega
    | ⟨2, _⟩ => show win0_0.index t (2 : Fin 3) * 4096 + 1 * l.val = 4096 * ((win0_3.index t (0 : Fin 3) * 1 + 1 * (j 0).val) % 2) + l.val; omega
  unfold Cert.Spec.rStatsSumsq Cert.Spec.rH
  simp only [hw, hx]

/-- An index of the result array is in point `t`'s block iff each coordinate is in the block's range on its axis. -/
theorem mem_blk_sumsq (t : Fin cfg0.N) (i : S64x512x1.Idx) :
    i ∈ ((cfg0.win 3).blk t).view.set ↔ ∀ a : Fin 3, win0_3.index t a * S1x512x1.size a ≤ (i a).val ∧ (i a).val < win0_3.index t a * S1x512x1.size a + S1x512x1.size a := by
  show i ∈ ((View.whole main_v0_1).slice (win0_3.rect t)).set ↔ _
  rw [View.set_slice_whole, Rect.mem_set_unit]
  exact Iff.rfl

/-- Tile `q` of the result is point `q`'s block: the 64 blocks cover the array. -/
theorem cover_sumsq (i : S64x512x1.Idx) : ∃ t : Fin cfg0.N, (cfg0.win 3).flush t = true ∧ i ∈ ((cfg0.win 3).blk t).view.set := by
  have hN : cfg0.N = 64 := N_0
  have h0 : (i 0).val < 64 := (i 0).isLt
  have h1 : (i 1).val < 512 := (i 1).isLt
  have h2 : (i 2).val < 1 := (i 2).isLt
  obtain ⟨t, ht⟩ : ∃ t : Fin cfg0.N, t.val = (i 0).val := ⟨⟨(i 0).val, by omega⟩, rfl⟩
  obtain ⟨e20, e21, e22, e30, e31, e32, -⟩ := idx_facts t
  refine ⟨t, flush0_3 t, ?_⟩
  rw [mem_blk_sumsq]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1 ≤ (i 2).val ∧ (i 2).val < win0_3.index t (2 : Fin 3) * 1 + 1; omega

/-- The region leaves result 1 holding the specification's tile sumsqs of its entry contents. -/
theorem stats_sumsq : (dat0 (F := Ideal) V c).arrAt 3 cfg0.N = Cert.Spec.rStatsSumsq (V c main_arg0) (V c main_arg1) :=
  (dat0 (F := Ideal) V c).arrAt_eq_of_cover 3 (Cert.Spec.rStatsSumsq (V c main_arg0) (V c main_arg1))
    (fun t _ => flushed_sumsq_eq V c t) (cover_sumsq)

end Cert.ReferenceIdeal.RValue

end
-- ==== Proof.RHost.lean ====
/-
  The host arithmetic between the two regions of the second arrangement, read at an index.

  From the two arrays of tile sums `[64, 512, 1]` the host adds the 64 tiles of each channel, divides by the count
  `2^18` (mean of `h` and mean of `h²`), takes the variance `max (E h² − (E h)², 0)`, the scale
  `γ · (var + ε)^(-1/2)` and the shift `β − mean · scale`, and reshapes both to columns `[512, 1]`. Each stage is a
  vector of 512 entries; read at channel `k` it is the specification's scalar of that name.
-/
import proofs.«132117_g2000306565302007_pallasbulk_1216_24_alg».proof.Proof.Gen.ReferenceIdeal.Launch
import proofs.«132117_g2000306565302007_pallasbulk_1216_24_alg».proof.Proof.Spec
import proofs.«132117_g2000306565302007_pallasbulk_1216_24_alg».proof.Proof.LibKeepdims
import Idealize.ShloMosaic.Lib.IdealHost
import Idealize.ShloMosaic.Lib.StableHlo.Run
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.StableHlo

namespace Cert.ReferenceIdeal.RValue

open Cert.ReferenceIdeal Cert.ReferenceIdeal.Gen

/-! ## The stages as vectors -/

/-- The 64 tile sums of each channel added, as a vector. -/
def totalV (p : FVec Ideal S64x512x1 .f32) : FVec Ideal S512 .f32 :=
  shapeCast S512 (Host.reduceAdd (F := Ideal) p (constant (F := Ideal) S_ .f32 0x00000000#32) reducesTo_S64x512x1_S512x1_d0 h_S_)
    shapeCasts_S512x1_S512
/-- A scalar word repeated along the channels. -/
def cstV (w : BitVec 32) : FVec Ideal S512 .f32 := broadcastInDim S512 ![] bcast_S_S512 (constant (F := Ideal) S_ .f32 w)
/-- The total divided by the count. -/
def meanV (p : FVec Ideal S64x512x1 .f32) : FVec Ideal S512 .f32 := Host.divf (F := Ideal) (totalV p) (cstV 0x48800000#32)
/-- The variance, clamped below at zero. -/
def varV (ps pss : FVec Ideal S64x512x1 .f32) : FVec Ideal S512 .f32 :=
  maximumf (subf (meanV pss) (mulf (meanV ps) (meanV ps))) (cstV 0x00000000#32)
/-- The scale. -/
def scaleV (ps pss : FVec Ideal S64x512x1 .f32) (g : FVec Ideal S512 .f32) : FVec Ideal S512 .f32 :=
  mulf g (Host.rsqrt (F := Ideal) (addf (varV ps pss) (cstV 0x3727C5AC#32)))
/-- The shift. -/
def shiftV (ps pss : FVec Ideal S64x512x1 .f32) (g be : FVec Ideal S512 .f32) : FVec Ideal S512 .f32 :=
  subf be (mulf (meanV ps) (scaleV ps pss g))

/-! ## The stages at a channel -/

theorem totalV_apply (p : FVec Ideal S64x512x1 .f32) (k : Fin 512) : totalV p (ix1 k) = Cert.Spec.hSum p k := by
  unfold totalV Cert.Spec.hSum
  refine (shapeCast_apply _ shapeCasts_S512x1_S512 (ix1 k) (ix2 k (0 : Fin 1)) ?_).trans ?_
  · rw [Shape.rowMajor_val_two, Shape.rowMajor_val_one]
    show k.val * 1 + 0 = k.val
    omega
  refine (hostReduceAdd_apply p _ _ _ _).trans ?_
  have hr : S64x512x1.Reduces [0] S512x1 := by decide
  rw [Ideal.hostReduceAdd_single _ hr]
  show Ideal.ofBits .f32 0x00000000#32 + _ = _
  rw [Ideal.ofBits_zero_f32, zero_add]
  refine Finset.sum_congr rfl fun q _ => congrArg p (funext fun a => ?_)
  match a with
  | ⟨0, _⟩ => exact Fin.ext rfl
  | ⟨1, _⟩ => exact Fin.ext rfl
  | ⟨2, _⟩ => exact Fin.ext rfl

theorem cstV_apply (w : BitVec 32) (k : Fin 512) : cstV w (ix1 k) = Ideal.ofBits .f32 w := by
  unfold cstV
  exact (broadcastInDim_scalar_apply _ _ _).trans rfl

theorem meanV_apply (p : FVec Ideal S64x512x1 .f32) (k : Fin 512) : meanV p (ix1 k) = Cert.Spec.hMean p k := by
  unfold meanV Cert.Spec.hMean Cert.Spec.cntM
  rw [hostDivf_apply, totalV_apply, cstV_apply]

theorem varV_apply (ps pss : FVec Ideal S64x512x1 .f32) (k : Fin 512) : varV ps pss (ix1 k) = Cert.Spec.hVar ps pss k := by
  unfold varV Cert.Spec.hVar
  rw [maximumf_apply, subf_apply, mulf_apply, meanV_apply, meanV_apply, cstV_apply, Ideal.ofBits_zero_f32]
  rfl

theorem scaleV_apply (ps pss : FVec Ideal S64x512x1 .f32) (g : FVec Ideal S512 .f32) (k : Fin 512) :
    scaleV ps pss g (ix1 k) = Cert.Spec.hScale ps pss g k := by
  unfold scaleV Cert.Spec.hScale Cert.Spec.eps
  rw [mulf_apply]
  show g (ix1 k) * Ideal.rsqrt (addf (varV ps pss) (cstV 0x3727C5AC#32) (ix1 k)) = _
  rw [addf_apply, varV_apply, cstV_apply]

theorem shiftV_apply (ps pss : FVec Ideal S64x512x1 .f32) (g be : FVec Ideal S512 .f32) (k : Fin 512) :
    shiftV ps pss g be (ix1 k) = Cert.Spec.hShift ps pss g be k := by
  unfold shiftV Cert.Spec.hShift
  rw [subf_apply, mulf_apply, meanV_apply, scaleV_apply]

/-! ## What the operations leave in the two columns -/

variable (W : Valuation τ sig (Elt Ideal))

theorem after_scale : StableHlo.after (hostOps1 (F := Ideal)) W (Proc.devRef .tc main_v19)
    = shapeCast S512x1 (scaleV (W (Proc.devRef .tc main_v0_0)) (W (Proc.devRef .tc main_v0_1)) (W (Proc.devRef .tc main_arg2))) shapeCasts_S512_S512x1 := by
  after_results_simp
  rfl

theorem after_shift : StableHlo.after (hostOps1 (F := Ideal)) W (Proc.devRef .tc main_v20)
    = shapeCast S512x1 (shiftV (W (Proc.devRef .tc main_v0_0)) (W (Proc.devRef .tc main_v0_1)) (W (Proc.devRef .tc main_arg2)) (W (Proc.devRef .tc main_arg3))) shapeCasts_S512_S512x1 := by
  after_results_simp
  rfl

/-! ## The two columns region 1 is entered with -/

/-- The scale column after the host arithmetic is the specification's, of the tile sums and `γ` it started from. -/
theorem host_scale : StableHlo.after (hostOps1 (F := Ideal)) W (Proc.devRef .tc main_v19)
    = Cert.Spec.hScaleCol (W (Proc.devRef .tc main_v0_0)) (W (Proc.devRef .tc main_v0_1)) (W (Proc.devRef .tc main_arg2)) := by
  rw [after_scale]
  funext i
  obtain ⟨k, u, rfl⟩ : ∃ (k : Fin 512) (u : Fin 1), i = ix2 k u := ⟨i 0, i 1, eq_ix2 i⟩
  rw [Cert.Keepdims.shapeCast_a_a1_apply, scaleV_apply]
  rfl

/-- The shift column likewise, of the tile sums, `γ` and `β`. -/
theorem host_shift : StableHlo.after (hostOps1 (F := Ideal)) W (Proc.devRef .tc main_v20)
    = Cert.Spec.hShiftCol (W (Proc.devRef .tc main_v0_0)) (W (Proc.devRef .tc main_v0_1)) (W (Proc.devRef .tc main_arg2)) (W (Proc.devRef .tc main_arg3)) := by
  rw [after_shift]
  funext i
  obtain ⟨k, u, rfl⟩ : ∃ (k : Fin 512) (u : Fin 1), i = ix2 k u := ⟨i 0, i 1, eq_ix2 i⟩
  rw [Cert.Keepdims.shapeCast_a_a1_apply, shiftV_apply]
  rfl

end Cert.ReferenceIdeal.RValue

end
-- ==== Proof.RValue.lean ====
/-
  The second program's value.  Its run ends with the result buffer at the last boundary's contents of the fold
  through @main; read back through the fold, that is the composition of the three stages at the launch arrays:

    * region 1 leaves the last stage's value bOut of the arrays it finds: x, W1, W2 (unchanged since launch — no host
      operation and no region writes an argument) and the scale and shift columns;
    * the scale and shift columns are what the host arithmetic between the regions makes of the two arrays of tile
      sums region 0 left and of gamma, beta (again as launched);
    * the tile sums are region 0's stage at x and W1 as launched.
-/
import proofs.«132117_g2000306565302007_pallasbulk_1216_24_alg».proof.Proof.RRun
import proofs.«132117_g2000306565302007_pallasbulk_1216_24_alg».proof.Proof.RApply
import proofs.«132117_g2000306565302007_pallasbulk_1216_24_alg».proof.Proof.Spec
import proofs.«132117_g2000306565302007_pallasbulk_1216_24_alg».proof.Proof.RStats
import proofs.«132117_g2000306565302007_pallasbulk_1216_24_alg».proof.Proof.RHost

set_option maxRecDepth 16384

noncomputable section

namespace Cert.ReferenceIdeal.RValue

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last boundary's contents of the result buffer, read back to the launch arrays. -/
theorem result_eq (c : Dev nD) :
    W3 m ρ c (Proc.devRef .tc main_v21)
      = Cert.Spec.rResult (m ((c : Thread nD τ).loc main_arg0)) (m ((c : Thread nD τ).loc main_arg1))
          (m ((c : Thread nD τ).loc main_arg2)) (m ((c : Thread nD τ).loc main_arg3)) (m ((c : Thread nD τ).loc main_arg4)) := by
  -- region 1 finds x, W1, W2 as launched
  have e0 : V2 m ρ c main_arg0 = m ((c : Thread nD τ).loc main_arg0) :=
    ((W3_arr m ρ c 0).trans (((dat1 (V2 m ρ) c).arrAt_in 0 rfl _).trans (A_eq1 (V2 m ρ) c 0))).symm.trans (W3_main_arg0 m ρ c)
  have e1 : V2 m ρ c main_arg1 = m ((c : Thread nD τ).loc main_arg1) :=
    ((W3_arr m ρ c 1).trans (((dat1 (V2 m ρ) c).arrAt_in 1 rfl _).trans (A_eq1 (V2 m ρ) c 1))).symm.trans (W3_main_arg1 m ρ c)
  have e4 : V2 m ρ c main_arg4 = m ((c : Thread nD τ).loc main_arg4) :=
    ((W3_arr m ρ c 2).trans (((dat1 (V2 m ρ) c).arrAt_in 2 rfl _).trans (A_eq1 (V2 m ρ) c 2))).symm.trans (W3_main_arg4 m ρ c)
  -- region 0 leaves the tile sums of x and W1 as launched; gamma and beta are untouched
  have s0 : W1 m ρ c (Proc.devRef .tc main_v0_0)
      = Cert.Spec.rStatsSum (m ((c : Thread nD τ).loc main_arg0)) (m ((c : Thread nD τ).loc main_arg1)) :=
    (W1_arr m ρ c 2).trans (stats_sum (V0 m ρ) c)
  have s1 : W1 m ρ c (Proc.devRef .tc main_v0_1)
      = Cert.Spec.rStatsSumsq (m ((c : Thread nD τ).loc main_arg0)) (m ((c : Thread nD τ).loc main_arg1)) :=
    (W1_arr m ρ c 3).trans (stats_sumsq (V0 m ρ) c)
  have g2 : W1 m ρ c (Proc.devRef .tc main_arg2) = m ((c : Thread nD τ).loc main_arg2) :=
    W1_of_ne m ρ c main_arg2 (by decide)
  have g3 : W1 m ρ c (Proc.devRef .tc main_arg3) = m ((c : Thread nD τ).loc main_arg3) :=
    W1_of_ne m ρ c main_arg3 (by decide)
  -- the host arithmetic between the regions
  have sc : V2 m ρ c main_v19
      = Cert.Spec.hScaleCol (Cert.Spec.rStatsSum (m ((c : Thread nD τ).loc main_arg0)) (m ((c : Thread nD τ).loc main_arg1)))
          (Cert.Spec.rStatsSumsq (m ((c : Thread nD τ).loc main_arg0)) (m ((c : Thread nD τ).loc main_arg1)))
          (m ((c : Thread nD τ).loc main_arg2)) := by
    refine (host_scale (W1 m ρ c)).trans ?_
    rw [s0, s1, g2]
  have sh : V2 m ρ c main_v20
      = Cert.Spec.hShiftCol (Cert.Spec.rStatsSum (m ((c : Thread nD τ).loc main_arg0)) (m ((c : Thread nD τ).loc main_arg1)))
          (Cert.Spec.rStatsSumsq (m ((c : Thread nD τ).loc main_arg0)) (m ((c : Thread nD τ).loc main_arg1)))
          (m ((c : Thread nD τ).loc main_arg2)) (m ((c : Thread nD τ).loc main_arg3)) := by
    refine (host_shift (W1 m ρ c)).trans ?_
    rw [s0, s1, g2, g3]
  refine (W3_arr m ρ c 5).trans ?_
  refine (apply_out (V2 m ρ) c).trans ?_
  rw [e0, e1, e4, sc, sh]
  rfl

/-- THE SECOND PROGRAM'S RUN, READ: every weakly fair execution of @main ends, without fault, with the result buffer
    at the three stages' composition of the launch arrays, and the five arguments unchanged. -/
theorem run : θ_run (Cert.ReferenceIdeal.defs (F := Ideal)) (onTc (τ := τ) (main (F := Ideal))) ⟨m, fun _ => 0, ρ⟩ (fun r => ∀ c : Dev nD,
      r.2.mem ((c.tc : Thread nD τ).loc main_v21)
        = Cert.Spec.rResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.ReferenceIdeal.defs (F := Ideal)) _ _).mono
    (fun r h c => ⟨(h c).1.trans (result_eq m ρ c), (h c).2⟩) (run_main m ρ)

end Cert.ReferenceIdeal.RValue

end
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.SpecLawConst.lean ====
/-
  The three float words the two arrangements spell, as the extended reals they denote: 2^18, 2^-18 and a
  positive real.
-/
import Idealize.ShloMosaic.PureOps.Ideal
import proofs.«132117_g2000306565302007_pallasbulk_1216_24_alg».proof.Proof.Spec
import proofs.«132117_g2000306565302007_pallasbulk_1216_24_alg».proof.Proof.LibFolds

noncomputable section

open scoped BigOperators

namespace Cert.Spec

open Idealize.ShloMosaic Idealize.ShloMosaic.ValueIdx

/-! ## The constants -/

/-- The count word denotes 2^18 = 262144. -/
theorem cntM_eq : cntM = ((262144 : ℝ) : EReal) := by
  unfold cntM
  simp [Ideal.ofBits, Ideal.ieee, -EReal.coe_mul]; norm_num

/-- The reciprocal word denotes 2^-18. -/
theorem invM_eq : invM = ((1 / 262144 : ℝ) : EReal) := by
  unfold invM
  simp [Ideal.ofBits, Ideal.ieee, -EReal.coe_mul]; norm_num

/-- The variance's offset denotes a positive real. -/
theorem eps_pos : ∃ r : ℝ, 0 < r ∧ eps = (r : EReal) := by
  unfold eps
  simp [Ideal.ofBits, Ideal.ieee, -EReal.coe_mul]

end Cert.Spec

end
-- ==== Proof.SpecLawIdx.lean ====
/-
  The 32 batch rows are listed once by (pair, parity), the 64 tiles once by (batch row, half), and the 8192
  positions once by (half, offset); so a sum over pairs of the two rows' sums, and a sum over tiles of the
  tile sums, are both the sum over all batch rows and positions.
-/
import Idealize.ShloMosaic.PureOps.Ideal
import proofs.«132117_g2000306565302007_pallasbulk_1216_24_alg».proof.Proof.Spec
import proofs.«132117_g2000306565302007_pallasbulk_1216_24_alg».proof.Proof.LibFolds

noncomputable section

open scoped BigOperators

namespace Cert.Spec

open Idealize.ShloMosaic Idealize.ShloMosaic.ValueIdx

/-! ## Listing rows, tiles and positions -/

/-- A pair index and a parity list the 32 batch rows once. -/
def rowEquiv : Fin 16 × Fin 2 ≃ Fin 32 where
  toFun p := row2 p.1 p.2
  invFun b := (⟨b.val / 2, by omega⟩, ⟨b.val % 2, by omega⟩)
  left_inv p := by
    obtain ⟨n, d⟩ := p
    apply Prod.ext <;> apply Fin.ext <;> simp only [row2] <;> omega
  right_inv b := by
    apply Fin.ext
    simp only [row2]
    omega

/-- A half and an offset list the 8192 positions once. -/
def posEquiv : Fin 2 × Fin 4096 ≃ Fin 8192 where
  toFun p := pos2 p.1 p.2
  invFun l := (⟨l.val / 4096, by omega⟩, ⟨l.val % 4096, by omega⟩)
  left_inv p := by
    obtain ⟨j, l⟩ := p
    apply Prod.ext <;> apply Fin.ext <;> simp only [pos2] <;> omega
  right_inv l := by
    apply Fin.ext
    simp only [pos2]
    omega

/-- A tile is a batch row and a half. -/
def tileEquiv : Fin 64 ≃ Fin 32 × Fin 2 where
  toFun q := (tileRow q, tileHalf q)
  invFun p := ⟨2 * p.1.val + p.2.val, by omega⟩
  left_inv q := by
    apply Fin.ext
    simp only [tileRow, tileHalf]
    omega
  right_inv p := by
    obtain ⟨b, j⟩ := p
    apply Prod.ext <;> apply Fin.ext <;> simp only [tileRow, tileHalf] <;> omega

section Sums
variable {M : Type} [AddCommMonoid M]

/-- Adding, over the pairs, the even row's term and the odd row's term adds over all rows. -/
theorem sum_row2 (g : Fin 32 → M) : ∑ n : Fin 16, (g (row2 n 0) + g (row2 n 1)) = ∑ b : Fin 32, g b := by
  rw [← rowEquiv.sum_comp g, Fintype.sum_prod_type]
  refine Finset.sum_congr rfl fun n _ => ?_
  rw [Fin.sum_univ_two]
  rfl

/-- Adding over the halves and the offsets adds over all positions. -/
theorem sum_pos2 (g : Fin 8192 → M) : ∑ j : Fin 2, ∑ l : Fin 4096, g (pos2 j l) = ∑ l : Fin 8192, g l := by
  rw [← posEquiv.sum_comp g, Fintype.sum_prod_type]
  rfl

/-- Adding over the tiles adds over the batch rows and the halves. -/
theorem sum_tile (G : Fin 32 → Fin 2 → M) :
    ∑ q : Fin 64, G (tileRow q) (tileHalf q) = ∑ b : Fin 32, ∑ j : Fin 2, G b j := by
  rw [← Fintype.sum_prod_type' G, ← tileEquiv.sum_comp fun p : Fin 32 × Fin 2 => G p.1 p.2]
  rfl

/-- The sum over pairs of the two rows' sums is the sum over all rows and positions. -/
theorem sum_pairs (F : Fin 32 → Fin 8192 → M) :
    ∑ n : Fin 16, ((∑ l : Fin 8192, F (row2 n 0) l) + ∑ l : Fin 8192, F (row2 n 1) l)
      = ∑ b : Fin 32, ∑ l : Fin 8192, F b l :=
  sum_row2 fun b => ∑ l : Fin 8192, F b l

/-- The sum over tiles of the tile sums is the sum over all rows and positions. -/
theorem sum_tiles (F : Fin 32 → Fin 8192 → M) :
    ∑ q : Fin 64, ∑ l : Fin 4096, F (tileRow q) (pos2 (tileHalf q) l) = ∑ b : Fin 32, ∑ l : Fin 8192, F b l := by
  rw [sum_tile fun b j => ∑ l : Fin 4096, F b (pos2 j l)]
  exact Finset.sum_congr rfl fun b _ => sum_pos2 (F b)

end Sums

end Cert.Spec

end
-- ==== Proof.SpecLawStats.lean ====
/-
  The two statistics over the reals. With h_k(b,l) = ∑_c W(k,c)·x(b,c,l): the weighted channel sums, added
  over the pairs of batch rows, give ∑ h_k, and the Gram matrices, added over the pairs and contracted with the
  weight on both sides, give ∑ h_k² — each written as the sum over the 64 tiles of the tile sums.
-/
import Idealize.ShloMosaic.PureOps.Ideal
import proofs.«132117_g2000306565302007_pallasbulk_1216_24_alg».proof.Proof.Spec
import proofs.«132117_g2000306565302007_pallasbulk_1216_24_alg».proof.Proof.LibFolds
import proofs.«132117_g2000306565302007_pallasbulk_1216_24_alg».proof.Proof.SpecLawIdx

noncomputable section

open scoped BigOperators

namespace Cert.Spec

open Idealize.ShloMosaic Idealize.ShloMosaic.ValueIdx

/-! ## The two statistics, over the reals -/

section Stats

/-- Contracting a matrix with a weight on both sides is additive in the matrix. -/
theorem contract_sum {ι : Type} (s : Finset ι) (w : Fin 128 → ℝ) (T : ι → Fin 128 → Fin 128 → ℝ) :
    ∑ c : Fin 128, (∑ a : Fin 128, w a * ∑ i ∈ s, T i a c) * w c
      = ∑ i ∈ s, ∑ c : Fin 128, (∑ a : Fin 128, w a * T i a c) * w c := by
  simp only [Finset.mul_sum, Finset.sum_mul]
  symm
  rw [Finset.sum_comm]
  refine Finset.sum_congr rfl fun c _ => ?_
  rw [Finset.sum_comm]

/-- Contracting the outer product of a vector with itself gives the square of the weighted sum. -/
theorem contract_outer (w u : Fin 128 → ℝ) :
    ∑ c : Fin 128, (∑ a : Fin 128, w a * (u a * u c)) * w c
      = (∑ c : Fin 128, w c * u c) * ∑ c : Fin 128, w c * u c := by
  rw [Finset.sum_mul_sum]
  simp only [Finset.sum_mul]
  rw [Finset.sum_comm]
  refine Finset.sum_congr rfl fun a _ => Finset.sum_congr rfl fun c _ => ?_
  ring

variable (X : Fin 32 → Fin 128 → Fin 8192 → ℝ) (W : Fin 512 → Fin 128 → ℝ)

/-- The hidden activation over the reals. -/
def hid (b : Fin 32) (k : Fin 512) (l : Fin 8192) : ℝ := ∑ c : Fin 128, W k c * X b c l

/-- The weighted channel sums, added over the pairs, are the tile sums of the hidden activation. -/
theorem sum_route (k : Fin 512) :
    ∑ c : Fin 128, W k c *
        (∑ n : Fin 16, ((∑ l : Fin 8192, X (row2 n 0) c l) + ∑ l : Fin 8192, X (row2 n 1) c l))
      = ∑ q : Fin 64, ∑ l : Fin 4096, hid X W (tileRow q) k (pos2 (tileHalf q) l) := by
  rw [sum_tiles fun b l => hid X W b k l]
  have h1 : ∀ c : Fin 128,
      (∑ n : Fin 16, ((∑ l : Fin 8192, X (row2 n 0) c l) + ∑ l : Fin 8192, X (row2 n 1) c l))
        = ∑ b : Fin 32, ∑ l : Fin 8192, X b c l := fun c => sum_pairs fun b l => X b c l
  simp only [h1, hid, Finset.mul_sum]
  rw [Finset.sum_comm]
  refine Finset.sum_congr rfl fun b _ => ?_
  rw [Finset.sum_comm]

/-- The Gram matrices, added over the pairs and contracted with the weight on both sides, are the tile sums of
    the squared hidden activation. -/
theorem gram_route (k : Fin 512) :
    ∑ c : Fin 128, (∑ a : Fin 128, W k a *
        (∑ n : Fin 16, ((∑ l : Fin 8192, X (row2 n 0) a l * X (row2 n 0) c l)
          + ∑ l : Fin 8192, X (row2 n 1) a l * X (row2 n 1) c l))) * W k c
      = ∑ q : Fin 64, ∑ l : Fin 4096,
          hid X W (tileRow q) k (pos2 (tileHalf q) l) * hid X W (tileRow q) k (pos2 (tileHalf q) l) := by
  rw [sum_tiles fun b l => hid X W b k l * hid X W b k l]
  have h1 : ∀ a c : Fin 128,
      (∑ n : Fin 16, ((∑ l : Fin 8192, X (row2 n 0) a l * X (row2 n 0) c l)
          + ∑ l : Fin 8192, X (row2 n 1) a l * X (row2 n 1) c l))
        = ∑ b : Fin 32, ∑ l : Fin 8192, X b a l * X b c l := fun a c => sum_pairs fun b l => X b a l * X b c l
  simp only [h1]
  rw [contract_sum]
  refine Finset.sum_congr rfl fun b _ => ?_
  rw [contract_sum]
  refine Finset.sum_congr rfl fun l _ => ?_
  exact contract_outer (W k) fun c => X b c l

end Stats

end Cert.Spec

end
-- ==== Proof.SpecLaw.lean ====
/-
  On finite inputs every stage quantity of the two arrangements is a real number, the statistics of the two
  arrangements are the same reals, and so are the scale and the shift; folding the scale into the first weight
  before the contraction or applying it after gives the same last stage. Hence the two result arrays agree.
-/
import Idealize.ShloMosaic.PureOps.Ideal
import proofs.«132117_g2000306565302007_pallasbulk_1216_24_alg».proof.Proof.Spec
import proofs.«132117_g2000306565302007_pallasbulk_1216_24_alg».proof.Proof.LibFolds
import proofs.«132117_g2000306565302007_pallasbulk_1216_24_alg».proof.Proof.SpecLawConst
import proofs.«132117_g2000306565302007_pallasbulk_1216_24_alg».proof.Proof.SpecLawIdx
import proofs.«132117_g2000306565302007_pallasbulk_1216_24_alg».proof.Proof.SpecLawStats

noncomputable section

open scoped BigOperators

namespace Cert.Spec

open Idealize.ShloMosaic Idealize.ShloMosaic.ValueIdx

/-! ## The stage quantities of real inputs are real numbers -/

section Coe
variable (xr : SX.Idx → ℝ) (w1r : SW1.Idx → ℝ)

/-- The real inputs read in the extended reals, and coordinate by coordinate. -/
abbrev XE : SX.Idx → EReal := fun i => (xr i : EReal)
abbrev WE : SW1.Idx → EReal := fun i => (w1r i : EReal)
abbrev XR : Fin 32 → Fin 128 → Fin 8192 → ℝ := fun b c l => xr (ix3 b c l)
abbrev WR : Fin 512 → Fin 128 → ℝ := fun k c => w1r (ix2 k c)

theorem coe_max (a b : ℝ) : ((max a b : ℝ) : EReal) = max (a : EReal) (b : EReal) :=
  EReal.coe_strictMono.monotone.map_max

/-! ### The first arrangement -/

theorem sumRow_coe (b : Fin 32) (a : Fin 128) :
    sumRow (XE xr) b a = ((∑ l : Fin 8192, XR xr b a l : ℝ) : EReal) := by
  rw [LibFolds.coe_sum]
  rfl

theorem gramRow_coe (b : Fin 32) (a c : Fin 128) :
    gramRow (XE xr) b a c = ((∑ l : Fin 8192, XR xr b a l * XR xr b c l : ℝ) : EReal) := by
  rw [LibFolds.coe_sum]
  simp only [EReal.coe_mul]
  rfl

theorem kStatsS_coe (n : Fin 16) (a : Fin 128) :
    kStatsS (XE xr) (ix3 n a 0)
      = (((∑ l : Fin 8192, XR xr (row2 n 0) a l) + ∑ l : Fin 8192, XR xr (row2 n 1) a l : ℝ) : EReal) := by
  show sumRow (XE xr) (row2 n 0) a + sumRow (XE xr) (row2 n 1) a = _
  rw [sumRow_coe, sumRow_coe, ← EReal.coe_add]

theorem kStatsG_coe (n : Fin 16) (a c : Fin 128) :
    kStatsG (XE xr) (ix3 n a c)
      = (((∑ l : Fin 8192, XR xr (row2 n 0) a l * XR xr (row2 n 0) c l)
          + ∑ l : Fin 8192, XR xr (row2 n 1) a l * XR xr (row2 n 1) c l : ℝ) : EReal) := by
  show gramRow (XE xr) (row2 n 0) a c + gramRow (XE xr) (row2 n 1) a c = _
  rw [gramRow_coe, gramRow_coe, ← EReal.coe_add]

theorem fSum_coe (a : Fin 128) :
    fSum (kStatsS (XE xr)) a
      = ((∑ n : Fin 16, ((∑ l : Fin 8192, XR xr (row2 n 0) a l) + ∑ l : Fin 8192, XR xr (row2 n 1) a l) : ℝ) : EReal) := by
  unfold fSum
  rw [LibFolds.coe_sum]
  exact Finset.sum_congr rfl fun n _ => kStatsS_coe xr n a

theorem fGram_coe (a c : Fin 128) :
    fGram (kStatsG (XE xr)) a c
      = ((∑ n : Fin 16, ((∑ l : Fin 8192, XR xr (row2 n 0) a l * XR xr (row2 n 0) c l)
          + ∑ l : Fin 8192, XR xr (row2 n 1) a l * XR xr (row2 n 1) c l) : ℝ) : EReal) := by
  unfold fGram
  rw [LibFolds.coe_sum]
  exact Finset.sum_congr rfl fun n _ => kStatsG_coe xr n a c

/-- The first arrangement's sum of the hidden activation, through the channel sums. -/
theorem fMeanSum_coe (k : Fin 512) :
    (∑ c : Fin 128, WE w1r (ix2 k c) * fSum (kStatsS (XE xr)) c)
      = ((∑ c : Fin 128, WR w1r k c *
          (∑ n : Fin 16, ((∑ l : Fin 8192, XR xr (row2 n 0) c l) + ∑ l : Fin 8192, XR xr (row2 n 1) c l)) : ℝ) : EReal) := by
  rw [LibFolds.coe_sum]
  refine Finset.sum_congr rfl fun c _ => ?_
  rw [fSum_coe, EReal.coe_mul]

/-- The first arrangement's sum of the squared hidden activation, through the Gram matrix. -/
theorem fSumsq_coe (k : Fin 512) :
    fSumsq (kStatsG (XE xr)) (WE w1r) k
      = ((∑ c : Fin 128, (∑ a : Fin 128, WR w1r k a *
          (∑ n : Fin 16, ((∑ l : Fin 8192, XR xr (row2 n 0) a l * XR xr (row2 n 0) c l)
            + ∑ l : Fin 8192, XR xr (row2 n 1) a l * XR xr (row2 n 1) c l))) * WR w1r k c : ℝ) : EReal) := by
  unfold fSumsq
  rw [LibFolds.coe_sum]
  refine Finset.sum_congr rfl fun c _ => ?_
  rw [EReal.coe_mul, LibFolds.coe_sum]
  refine congrArg (fun z => z * WE w1r (ix2 k c)) ?_
  refine Finset.sum_congr rfl fun a _ => ?_
  rw [fGram_coe, EReal.coe_mul]

/-! ### The second arrangement -/

theorem rH_coe (b : Fin 32) (k : Fin 512) (l : Fin 8192) :
    rH (XE xr) (WE w1r) b k l = ((hid (XR xr) (WR w1r) b k l : ℝ) : EReal) := by
  unfold rH hid
  rw [LibFolds.coe_sum]
  simp only [EReal.coe_mul]

theorem hSum_sum_coe (k : Fin 512) :
    hSum (rStatsSum (XE xr) (WE w1r)) k
      = ((∑ q : Fin 64, ∑ l : Fin 4096, hid (XR xr) (WR w1r) (tileRow q) k (pos2 (tileHalf q) l) : ℝ) : EReal) := by
  unfold hSum
  rw [LibFolds.coe_sum]
  refine Finset.sum_congr rfl fun q _ => ?_
  show ∑ l : Fin 4096, rH (XE xr) (WE w1r) (tileRow q) k (pos2 (tileHalf q) l) = _
  rw [LibFolds.coe_sum]
  exact Finset.sum_congr rfl fun l _ => rH_coe xr w1r _ _ _

theorem hSum_sumsq_coe (k : Fin 512) :
    hSum (rStatsSumsq (XE xr) (WE w1r)) k
      = ((∑ q : Fin 64, ∑ l : Fin 4096, hid (XR xr) (WR w1r) (tileRow q) k (pos2 (tileHalf q) l)
          * hid (XR xr) (WR w1r) (tileRow q) k (pos2 (tileHalf q) l) : ℝ) : EReal) := by
  unfold hSum
  rw [LibFolds.coe_sum]
  refine Finset.sum_congr rfl fun q _ => ?_
  show ∑ l : Fin 4096, rH (XE xr) (WE w1r) (tileRow q) k (pos2 (tileHalf q) l)
      * rH (XE xr) (WE w1r) (tileRow q) k (pos2 (tileHalf q) l) = _
  rw [LibFolds.coe_sum]
  refine Finset.sum_congr rfl fun l _ => ?_
  rw [rH_coe, EReal.coe_mul]

/-- Dividing by the count is multiplying by its reciprocal. -/
theorem div_cntM (y : EReal) : Ideal.div y cntM = y * invM := by
  rw [cntM_eq, invM_eq, Ideal.div_coe (by norm_num)]

/-! ### The statistics agree -/

/-- Both arrangements' mean is the same real. -/
theorem fMean_coe (k : Fin 512) :
    fMean (kStatsS (XE xr)) (WE w1r) k
      = (((∑ q : Fin 64, ∑ l : Fin 4096, hid (XR xr) (WR w1r) (tileRow q) k (pos2 (tileHalf q) l))
          * (1 / 262144) : ℝ) : EReal) := by
  unfold fMean
  rw [fMeanSum_coe, sum_route, invM_eq, ← EReal.coe_mul]

theorem hMean_coe (k : Fin 512) :
    hMean (rStatsSum (XE xr) (WE w1r)) k
      = (((∑ q : Fin 64, ∑ l : Fin 4096, hid (XR xr) (WR w1r) (tileRow q) k (pos2 (tileHalf q) l))
          * (1 / 262144) : ℝ) : EReal) := by
  unfold hMean
  rw [div_cntM, hSum_sum_coe, invM_eq, ← EReal.coe_mul]

theorem mean_eq (k : Fin 512) :
    fMean (kStatsS (XE xr)) (WE w1r) k = hMean (rStatsSum (XE xr) (WE w1r)) k := by
  rw [fMean_coe, hMean_coe]

theorem sumsq_eq (k : Fin 512) :
    fSumsq (kStatsG (XE xr)) (WE w1r) k = hSum (rStatsSumsq (XE xr) (WE w1r)) k := by
  rw [fSumsq_coe, hSum_sumsq_coe, gram_route]

theorem var_eq (k : Fin 512) :
    fVar (kStatsG (XE xr)) (kStatsS (XE xr)) (WE w1r) k
      = hVar (rStatsSum (XE xr) (WE w1r)) (rStatsSumsq (XE xr) (WE w1r)) k := by
  unfold fVar hVar
  rw [mean_eq, sumsq_eq, div_cntM]

/-- The variance is a nonnegative real. -/
theorem hVar_real (k : Fin 512) :
    ∃ v : ℝ, 0 ≤ v ∧ hVar (rStatsSum (XE xr) (WE w1r)) (rStatsSumsq (XE xr) (WE w1r)) k = (v : EReal) := by
  unfold hVar
  rw [hMean_coe, div_cntM, hSum_sumsq_coe, invM_eq, ← EReal.coe_mul, ← EReal.coe_mul, ← EReal.coe_sub,
    ← EReal.coe_zero, ← coe_max]
  exact ⟨_, le_max_right _ _, rfl⟩

variable (g be : SV.Idx → EReal)

theorem scale_eq (k : Fin 512) :
    fScale (kStatsG (XE xr)) (kStatsS (XE xr)) (WE w1r) (col g) k
      = hScale (rStatsSum (XE xr) (WE w1r)) (rStatsSumsq (XE xr) (WE w1r)) g k := by
  unfold fScale hScale
  rw [var_eq]
  rfl

theorem shift_eq (k : Fin 512) :
    fShift (kStatsG (XE xr)) (kStatsS (XE xr)) (WE w1r) (col g) (col be) k
      = hShift (rStatsSum (XE xr) (WE w1r)) (rStatsSumsq (XE xr) (WE w1r)) g be k := by
  unfold fShift hShift
  rw [mean_eq, scale_eq]
  rfl

/-- The scale is a real: the variance plus the offset is positive, so its inverse square root is real. -/
theorem hScale_real (hg : ∀ i, ∃ r : ℝ, g i = (r : EReal)) (k : Fin 512) :
    ∃ s : ℝ, hScale (rStatsSum (XE xr) (WE w1r)) (rStatsSumsq (XE xr) (WE w1r)) g k = (s : EReal) := by
  obtain ⟨e, he, hee⟩ := eps_pos
  obtain ⟨v, hv0, hv⟩ := hVar_real xr w1r k
  obtain ⟨gr, hgr⟩ := hg (ix1 k)
  have hpos : 0 < v + e := by linarith
  unfold hScale
  rw [hv, hee, hgr, ← EReal.coe_add, Ideal.rsqrt_coe, if_neg (not_lt.2 hpos.le), if_neg hpos.ne', ← EReal.coe_mul]
  exact ⟨_, rfl⟩

/-- The shift is a real. -/
theorem hShift_real (hg : ∀ i, ∃ r : ℝ, g i = (r : EReal)) (hbe : ∀ i, ∃ r : ℝ, be i = (r : EReal)) (k : Fin 512) :
    ∃ t : ℝ, hShift (rStatsSum (XE xr) (WE w1r)) (rStatsSumsq (XE xr) (WE w1r)) g be k = (t : EReal) := by
  obtain ⟨s, hs⟩ := hScale_real xr w1r g hg k
  obtain ⟨br, hbr⟩ := hbe (ix1 k)
  unfold hShift
  rw [hs, hbr, hMean_coe, ← EReal.coe_mul, ← EReal.coe_sub]
  exact ⟨_, rfl⟩

/-! ### The last stage -/

/-- Folding a real scale into the weight before the contraction, or applying it after, is the same. -/
theorem fold_scale (k : Fin 512) (b : Fin 32) (l : Fin 8192) (s : ℝ) :
    (∑ c : Fin 128, (WE w1r (ix2 k c) * (s : EReal)) * XE xr (ix3 b c l))
      = (∑ c : Fin 128, WE w1r (ix2 k c) * XE xr (ix3 b c l)) * (s : EReal) := by
  have h1 : (∑ c : Fin 128, (WE w1r (ix2 k c) * (s : EReal)) * XE xr (ix3 b c l))
      = ((∑ c : Fin 128, (w1r (ix2 k c) * s) * xr (ix3 b c l) : ℝ) : EReal) := by
    rw [LibFolds.coe_sum]
    simp only [EReal.coe_mul]
  have h2 : (∑ c : Fin 128, WE w1r (ix2 k c) * XE xr (ix3 b c l))
      = ((∑ c : Fin 128, w1r (ix2 k c) * xr (ix3 b c l) : ℝ) : EReal) := by
    rw [LibFolds.coe_sum]
    simp only [EReal.coe_mul]
  rw [h1, h2, ← EReal.coe_mul, Finset.sum_mul]
  refine congrArg _ (Finset.sum_congr rfl fun c _ => ?_)
  ring

end Coe

/-- The two arrangements give the same result array on finite inputs. -/
theorem result_eq (x : SX.Idx → EReal) (w1 : SW1.Idx → EReal) (g be : SV.Idx → EReal) (w2 : SW2.Idx → EReal)
    (hx : ∀ i, ∃ r : ℝ, x i = (r : EReal)) (hw1 : ∀ i, ∃ r : ℝ, w1 i = (r : EReal))
    (hg : ∀ i, ∃ r : ℝ, g i = (r : EReal)) (hbe : ∀ i, ∃ r : ℝ, be i = (r : EReal))
    (hw2 : ∀ i, ∃ r : ℝ, w2 i = (r : EReal)) :
    kResult x w1 g be w2 = rResult x w1 g be w2 := by
  have _ := hw2
  choose xr hxr using hx
  choose w1r hw1r using hw1
  obtain rfl : x = XE xr := funext hxr
  obtain rfl : w1 = WE w1r := funext hw1r
  funext i
  obtain ⟨b, o, l, rfl⟩ : ∃ (b : Fin 32) (o : Fin 256) (l : Fin 8192), i = ix3 b o l := ⟨i 0, i 1, i 2, eq_ix3 i⟩
  unfold kResult rResult aOut bOut
  refine Finset.sum_congr rfl fun k _ => ?_
  obtain ⟨s, hs⟩ := hScale_real xr w1r g hg k
  show w2 (ix2 o k) * max ((∑ c : Fin 128,
        (WE w1r (ix2 k c) * fScale (kStatsG (XE xr)) (kStatsS (XE xr)) (WE w1r) (col g) k) * XE xr (ix3 b c l))
        + fShift (kStatsG (XE xr)) (kStatsS (XE xr)) (WE w1r) (col g) (col be) k) 0
    = w2 (ix2 o k) * max ((∑ c : Fin 128, WE w1r (ix2 k c) * XE xr (ix3 b c l))
        * hScale (rStatsSum (XE xr) (WE w1r)) (rStatsSumsq (XE xr) (WE w1r)) g k
        + hShift (rStatsSum (XE xr) (WE w1r)) (rStatsSumsq (XE xr) (WE w1r)) g be k) 0
  rw [shift_eq, scale_eq, hs, fold_scale xr w1r k b l s]

end Cert.Spec

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.FiniteInputs.lean ====
/-
  The precondition read back.  The printed test is the conjunction, over the five arguments, of "every entry's
  absolute value is below +∞"; when it comes out true every entry of every argument is a real number.
-/
import proofs.«132117_g2000306565302007_pallasbulk_1216_24_alg».proof.Pre_finite_inputs
import proofs.«132117_g2000306565302007_pallasbulk_1216_24_alg».proof.Proof.LibFiniteEntry
import Idealize.ShloMosaic.Lib.ReduceAll
import Idealize.ShloMosaic.Lib.ValueIdx

noncomputable section

namespace Cert.FiniteInputs

open Idealize.ShloMosaic Idealize.ShloMosaic.ValueIdx Cert.Pre_finite_inputs

instance : Subsingleton S_.Idx := ⟨fun a b => funext fun d => d.elim0⟩

variable [Cert.Pre_finite_inputs.Facts]

/-- All five arguments are real-valued when the test is all ones. -/
theorem real_of_pre (a0 : FVec Ideal S32x128x8192 .f32) (a1 : FVec Ideal S512x128 .f32) (a2 a3 : FVec Ideal S512 .f32)
    (a4 : FVec Ideal S256x512 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨hh0, h1⟩ := IntOp.andi_eq_one.mp h01
  refine ⟨fun i => ?_, fun i => ?_, fun i => ?_, fun i => ?_, fun i => ?_⟩
  · exact Cert.LibFiniteEntry.real_of_finite_test a0 _ i (Host.reduce_andi_all _ _ _ _ ix0 hh0 i)
  · exact Cert.LibFiniteEntry.real_of_finite_test a1 _ i (Host.reduce_andi_all _ _ _ _ ix0 h1 i)
  · exact Cert.LibFiniteEntry.real_of_finite_test a2 _ i (Host.reduce_andi_all _ _ _ _ ix0 h2 i)
  · exact Cert.LibFiniteEntry.real_of_finite_test a3 _ i (Host.reduce_andi_all _ _ _ _ ix0 h3 i)
  · exact Cert.LibFiniteEntry.real_of_finite_test a4 _ i (Host.reduce_andi_all _ _ _ _ ix0 h4 i)

end Cert.FiniteInputs

end
-- ==== Proof.lean ====
/-
  Two arrangements of one layer agree on finite inputs.

  The layer: a 1×1 convolution `h = W1·x` of `x : [32, 128, 8192]` (batch, channel, position), a batch normalisation
  of `h` over batch and position — mean, biased variance cut off below at zero, `scale = γ·(var + ε)^(-1/2)`,
  `shift = β − mean·scale` —, a rectifier, and a second 1×1 convolution `W2`.

  The first program gets the statistics of `h` without forming it: per pair of batch rows it accumulates the channel
  sums of `x` and the Gram matrix `∑_l x(b,a,l)·x(b,c,l)`; a second launch adds the sixteen partial results, takes
  `∑ h_k = ∑_c W1(k,c)·∑x_c` and `∑ h_k² = ∑_c (∑_a W1(k,a)·G(a,c))·W1(k,c)`, multiplies by `2^-18`, and folds the
  scale into the first weight; a third launch computes `∑_k W2(o,k)·max (∑_c (W1(k,c)·scale_k)·x(b,c,l) + shift_k, 0)`.
  The second program forms `h` on every (batch row, half of the positions) tile, sums `h` and `h²` per tile, adds the
  64 tile sums and divides by `2^18` on the host, and a second launch applies `h·scale + shift`, the rectifier and `W2`.

  On the extended reals the two results are the stage compositions `Cert.Spec.kResult` and `Cert.Spec.rResult` of the
  argument arrays (each program's run read back launch by launch), for ANY arguments.  They are equal when every
  argument entry is a real number — which the precondition says —: then every sum is a real sum, sums may be
  regrouped and exchanged, a factor moves across a sum, `2^-18` is exactly the reciprocal of `2^18`, and the variance
  plus the positive offset is a positive real, whose inverse square root is a real.  With an infinite entry the
  regroupings fail, so the precondition is used, once, for the last step.

  The three frames are cited from the frame modules imported below.  The ideal pass rewrote no operation, so the
  word-level program's idealization is its own text read on the extended reals and there is nothing to preserve.
-/
import proofs.«132117_g2000306565302007_pallasbulk_1216_24_alg».proof.Defs
import proofs.«132117_g2000306565302007_pallasbulk_1216_24_alg».proof.Proof.Gen.Kernel
import proofs.«132117_g2000306565302007_pallasbulk_1216_24_alg».proof.Proof.Gen.Kernel.Frame
import proofs.«132117_g2000306565302007_pallasbulk_1216_24_alg».proof.Proof.Gen.KernelIdeal
import proofs.«132117_g2000306565302007_pallasbulk_1216_24_alg».proof.Proof.Gen.KernelIdeal.Frame
import proofs.«132117_g2000306565302007_pallasbulk_1216_24_alg».proof.Proof.Gen.ReferenceIdeal
import proofs.«132117_g2000306565302007_pallasbulk_1216_24_alg».proof.Proof.Gen.ReferenceIdeal.Frame
import proofs.«132117_g2000306565302007_pallasbulk_1216_24_alg».proof.Proof.Gen.Pre_finite_inputs
import proofs.«132117_g2000306565302007_pallasbulk_1216_24_alg».proof.Proof.KValue
import proofs.«132117_g2000306565302007_pallasbulk_1216_24_alg».proof.Proof.RValue
import proofs.«132117_g2000306565302007_pallasbulk_1216_24_alg».proof.Proof.SpecLaw
import proofs.«132117_g2000306565302007_pallasbulk_1216_24_alg».proof.Proof.FiniteInputs
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ => Cert.ReferenceIdeal.Gen.frame m ρ

/-- The ideal pass rewrote no operation: nothing to preserve. -/
theorem preserves : Cert.preserves_Kernel_KernelIdeal := trivial

/-- Both idealized programs run; the first ends with the first arrangement's function of its arguments, the second
    with the second arrangement's function of its own, which agree with the first's; on real-valued arguments the two
    functions are equal. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun r h c => ⟨(h c).1.trans ?_, (h c).2⟩)
    (Cert.ReferenceIdeal.RValue.run m' ρ')
  rw [(hagree c).1, (hagree c).2.1, (hagree c).2.2.1, (hagree c).2.2.2.1, (hagree c).2.2.2.2]
  obtain ⟨h0, h1, h2, h3, h4⟩ := Cert.FiniteInputs.real_of_pre _ _ _ _ _ (hpre c)
  exact (Cert.Spec.result_eq _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
